-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024x1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x8192x1024 .f32) (main_arg1 : FVec F S4x8192x1024 .f32) (main_arg2 : FVec F S4x8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_arg11 : FVec F S1024x1024 .f32) (main_arg12 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x8192x1024 .f32 := Host.absf main_arg2
  let main_cst_2 : FVec F S_ .f32 := constant S_ .f32 0x7F800000#32
  let main_v10 : FVec F S4x8192x1024 .f32 := broadcastInDim S4x8192x1024 ![] bcast_S_S4x8192x1024 main_cst_2
  let main_v11 : IVec S4x8192x1024 1 := cmpf .olt main_v9 main_v10
  let main_c_3 : IVec S_ 1 := constantI S_ 1 1#1
  let main_v12 : IVec S_ 1 := (fun x v => Host.reduce IntOp.andi x v reducesTo_S4x8192x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S4x8192x16x64 : Shape := ⟨4, ![4, 8192, 16, 64]⟩
abbrev S1x512x16x64 : Shape := ⟨4, ![1, 512, 16, 64]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 122
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S1024x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .bf16⟩
  | .hbm, ⟨63, _⟩ => ⟨S1024x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1024x1024, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .bf16⟩
  | .hbm, ⟨88, _⟩ => ⟨S1024x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1024x1024, .f32⟩
  | .hbm, ⟨105, _⟩ => ⟨S1024x1024, .f32⟩
  | .hbm, ⟨106, _⟩ => ⟨S_, .f32⟩
  | .hbm, ⟨107, _⟩ => ⟨S1024x1024, .f32⟩
  | .hbm, ⟨108, _⟩ => ⟨S1024x1024, .f32⟩
  | .hbm, ⟨109, _⟩ => ⟨S1024x1024, .f32⟩
  | .hbm, ⟨110, _⟩ => ⟨S1024x1024, .f32⟩
  | .hbm, ⟨111, _⟩ => ⟨S1024x1024, .f32⟩
  | .hbm, ⟨112, _⟩ => ⟨S1024x1024, .bf16⟩
  | .hbm, ⟨113, _⟩ => ⟨S4x8192x1024, .f32⟩
  | .hbm, ⟨114, _⟩ => ⟨S4x8192x1024, .f32⟩
  | .hbm, ⟨115, _⟩ => ⟨S4x8192x1024, .f32⟩
  | .hbm, ⟨116, _⟩ => ⟨S4x8192x16x64, .f32⟩
  | .hbm, ⟨117, _⟩ => ⟨S4x8192x16x64, .f32⟩
  | .hbm, ⟨118, _⟩ => ⟨S4x8192x16x64, .f32⟩
  | .hbm, ⟨119, _⟩ => ⟨S4x8192x16x64, .f32⟩
  | .hbm, ⟨120, _⟩ => ⟨S4x8192x1024, .f32⟩
  | .hbm, ⟨121, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x512x16x64, .f32⟩
  | .local _ .vmem, ⟨19, _⟩ => ⟨S1x512x16x64, .f32⟩
  | .local _ .vmem, ⟨20, _⟩ => ⟨S1x512x16x64, .f32⟩
  | .local _ .vmem, ⟨21, _⟩ => ⟨S1x512x16x64, .f32⟩
  | .local _ .vmem, ⟨22, _⟩ => ⟨S1x512x16x64, .f32⟩
  | .local _ .vmem, ⟨23, _⟩ => ⟨S1x512x16x64, .f32⟩
  | .local _ .vmem, ⟨24, _⟩ => ⟨S1x512x16x64, .f32⟩
  | .local _ .vmem, ⟨25, _⟩ => ⟨S1x512x16x64, .f32⟩
  | .local _ .vmem, ⟨26, _⟩ => ⟨S1x512x1024, .f32⟩
  | .local _ .vmem, ⟨27, _⟩ => ⟨S1x512x1024, .f32⟩
  | .local _ .vmem, ⟨28, _⟩ => ⟨S1024, .f32⟩
  | .local _ .vmem, ⟨29, _⟩ => ⟨S1024, .f32⟩
  | .local _ .vmem, ⟨30, _⟩ => ⟨S1024x1024, .bf16⟩
  | .local _ .vmem, ⟨31, _⟩ => ⟨S1024, .f32⟩
  | .local _ .vmem, ⟨32, _⟩ => ⟨S1x512x1024, .f32⟩
  | .local _ .vmem, ⟨33, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_call0_v0 : Ref sig .tc := ⟨.hbm, 19, rfl⟩
abbrev main_v3 : Ref sig .tc := ⟨.hbm, 20, rfl⟩
abbrev main_cst_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_5 : Ref sig .tc := ⟨.hbm, 39, rfl⟩
abbrev main_v14 : Ref sig .tc := ⟨.hbm, 40, rfl⟩
abbrev main_cst_6 : Ref sig .tc := ⟨.hbm, 41, rfl⟩
abbrev main_v15 : Ref sig .tc := ⟨.hbm, 42, rfl⟩
abbrev main_cst_7 : Ref sig .tc := ⟨.hbm, 43, rfl⟩
abbrev main_call3_v0 : Ref sig .tc := ⟨.hbm, 44, rfl⟩
abbrev main_v16 : Ref sig .tc := ⟨.hbm, 45, rfl⟩
abbrev main_cst_8 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_9 : Ref sig .tc := ⟨.hbm, 51, rfl⟩
abbrev main_cst_10 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_11 : Ref sig .tc := ⟨.hbm, 64, rfl⟩
abbrev main_v27 : Ref sig .tc := ⟨.hbm, 65, rfl⟩
abbrev main_cst_12 : Ref sig .tc := ⟨.hbm, 66, rfl⟩
abbrev main_v28 : Ref sig .tc := ⟨.hbm, 67, rfl⟩
abbrev main_cst_13 : Ref sig .tc := ⟨.hbm, 68, rfl⟩
abbrev main_call6_v0 : Ref sig .tc := ⟨.hbm, 69, rfl⟩
abbrev main_v29 : Ref sig .tc := ⟨.hbm, 70, rfl⟩
abbrev main_cst_14 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_15 : Ref sig .tc := ⟨.hbm, 76, rfl⟩
abbrev main_cst_16 : Ref sig .tc := ⟨.hbm, 77, rfl⟩
abbrev main_call8_v0 : Ref sig .tc := ⟨.hbm, 78, rfl⟩
abbrev main_call8_v1 : Ref sig .tc := ⟨.hbm, 79, rfl⟩
abbrev main_call8_v2 : Ref sig .tc := ⟨.hbm, 80, rfl⟩
abbrev main_call8_v3 : Ref sig .tc := ⟨.hbm, 81, rfl⟩
abbrev main_call8_v4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_17 : Ref sig .tc := ⟨.hbm, 89, rfl⟩
abbrev main_v40 : Ref sig .tc := ⟨.hbm, 90, rfl⟩
abbrev main_cst_18 : Ref sig .tc := ⟨.hbm, 91, rfl⟩
abbrev main_v41 : Ref sig .tc := ⟨.hbm, 92, rfl⟩
abbrev main_cst_19 : Ref sig .tc := ⟨.hbm, 93, rfl⟩
abbrev main_call9_v0 : Ref sig .tc := ⟨.hbm, 94, rfl⟩
abbrev main_v42 : Ref sig .tc := ⟨.hbm, 95, rfl⟩
abbrev main_cst_20 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_21 : Ref sig .tc := ⟨.hbm, 101, rfl⟩
abbrev main_cst_22 : Ref sig .tc := ⟨.hbm, 102, rfl⟩
abbrev main_call11_v0 : Ref sig .tc := ⟨.hbm, 103, rfl⟩
abbrev main_call11_v1 : Ref sig .tc := ⟨.hbm, 104, rfl⟩
abbrev main_call11_v2 : Ref sig .tc := ⟨.hbm, 105, rfl⟩
abbrev main_call11_v3 : Ref sig .tc := ⟨.hbm, 106, rfl⟩
abbrev main_call11_v4 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52_0 : Ref sig .tc := ⟨.hbm, 113, rfl⟩
abbrev main_v52_1 : Ref sig .tc := ⟨.hbm, 114, rfl⟩
abbrev main_v52_2 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  shapeCasts_S4x8192x1024_S4x8192x16x64 : S4x8192x1024.ShapeCasts S4x8192x16x64
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S1x512x16x64 : S512x16x64.ShapeCasts S1x512x16x64
  shapeCasts_S4x8192x16x64_S4x8192x1024 : S4x8192x16x64.ShapeCasts S4x8192x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  shapeCasts_S512x1024_S1x512x1024 : S512x1024.ShapeCasts S1x512x1024
  dot_S256x1024_S1024x1024_S256x1024_1_0_0_1_n_n_wf : DotDims.WF S256x1024 S1024x1024 S256x1024 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x8192x1024.size a
  hwx0_0 : ∀ i : grid0.Coords, EltTy.bits .f32 = 32 ∨ (Rect.block (s := S4x8192x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x8192x1024.size a
  hwx0_1 : ∀ i : grid0.Coords, EltTy.bits .f32 = 32 ∨ (Rect.block (s := S4x8192x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S4x8192x1024.size a
  hwx0_2 : ∀ i : grid0.Coords, EltTy.bits .f32 = 32 ∨ (Rect.block (s := S4x8192x1024) S1x256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S4x8192x1024.size a
  hwx0_9 : ∀ i : grid0.Coords, EltTy.bits .f32 = 32 ∨ (Rect.block (s := S4x8192x1024) S1x256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S4x8192x1024.size a
  hwx0_10 : ∀ i : grid0.Coords, EltTy.bits .f32 = 32 ∨ (Rect.block (s := S4x8192x1024) S1x256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x1024.size a ≤ S4x8192x1024.size a
  hwx0_11 : ∀ i : grid0.Coords, EltTy.bits .f32 = 32 ∨ (Rect.block (s := S4x8192x1024) S1x256x1024.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x16x64.size a ≤ S4x8192x16x64.size a
  hwx1_0 : ∀ i : grid1.Coords, EltTy.bits .f32 = 32 ∨ (Rect.block (s := S4x8192x16x64) S1x512x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x16x64.size a ≤ S4x8192x16x64.size a
  hwx1_1 : ∀ i : grid1.Coords, EltTy.bits .f32 = 32 ∨ (Rect.block (s := S4x8192x16x64) S1x512x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x16x64.size a ≤ S4x8192x16x64.size a
  hwx1_2 : ∀ i : grid1.Coords, EltTy.bits .f32 = 32 ∨ (Rect.block (s := S4x8192x16x64) S1x512x16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x16x64.size a ≤ S4x8192x16x64.size a
  hwx1_3 : ∀ i : grid1.Coords, EltTy.bits .f32 = 32 ∨ (Rect.block (s := S4x8192x16x64) S1x512x16x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x8192x1024.size a
  hwx2_0 : ∀ i : grid2.Coords, EltTy.bits .f32 = 32 ∨ (Rect.block (s := S4x8192x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S1024.size a
  hwx2_1 : ∀ i : grid2.Coords, EltTy.bits .f32 = 32 ∨ (Rect.block (s := S1024) S1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1024.size a ≤ S4x8192x1024.size a
  hwx2_5 : ∀ i : grid2.Coords, EltTy.bits .f32 = 32 ∨ (Rect.block (s := S4x8192x1024) S1x512x1024.size (cc2_transform_5 i) (hinb2_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52_0) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52_1) S1x256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v52_2) S1x256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v53) S1x512x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x512x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S1x512x16x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x512x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16x64 : Shape := ⟨4, ![4, 8192, 16, 64]⟩
abbrev S4x8192x16x16 : Shape := ⟨4, ![4, 8192, 16, 16]⟩
abbrev S4x8192x16 : Shape := ⟨3, ![4, 8192, 16]⟩
abbrev S4x8192x16x1 : Shape := ⟨4, ![4, 8192, 16, 1]⟩

abbrev nBuf : Space → Nat
  | .hbm => 300
  | .vmem => 0
  | .smem => 0
  | _ => 0

abbrev hbmTy0_0 (i : Nat) : BufTy := match i % 128 with
  | 0 => ⟨S4x8192x1024, .f32⟩
  | 1 => ⟨S4x8192x1024, .f32⟩
  | 2 => ⟨S4x8192x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S1024x1024, .f32⟩
  | 12 => ⟨S1024, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1024, .f32⟩
  | 25 => ⟨S4x8192x1024, .f32⟩
  | 26 => ⟨S4x8192x1024, .f32⟩
  | 27 => ⟨S_, .i32⟩
  | 28 => ⟨S_, .i32⟩
  | 29 => ⟨S_, .f32⟩
  | 30 => ⟨S4x8192x1024, .f32⟩
  | 31 => ⟨S4x8192x1024, .f32⟩
  | 32 => ⟨S_, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S1024x1024, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S1024x1024, .f32⟩
  | 50 => ⟨S1024x1024, .f32⟩
  | 51 => ⟨S1024x1024, .f32⟩
  | 52 => ⟨S_, .i32⟩
  | 53 => ⟨S_, .i32⟩
  | 54 => ⟨S_, .f32⟩
  | 55 => ⟨S1024x1024, .f32⟩
  | 56 => ⟨S1024x1024, .f32⟩
  | 57 => ⟨S_, .f32⟩
  | 58 => ⟨S1024x1024, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S4x8192x1024, .f32⟩
  | 65 => ⟨S1x1x1024, .f32⟩
  | 66 => ⟨S4x8192x1024, .f32⟩
  | 67 => ⟨S4x8192x1024, .f32⟩
  | 68 => ⟨S4x8192x16x64, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S_, .f32⟩
  | 75 => ⟨S4x8192x1, .f32⟩
  | 76 => ⟨S4x8192x1, .f32⟩
  | 77 => ⟨S_, .f32⟩
  | 78 => ⟨S4x8192x1, .f32⟩
  | 79 => ⟨S4x8192x1, .f32⟩
  | 80 => ⟨S4x8192x1024, .f32⟩
  | 81 => ⟨S4x8192x1024, .f32⟩
  | 82 => ⟨S4x8192x1024, .f32⟩
  | 83 => ⟨S_, .i32⟩
  | 84 => ⟨S_, .i32⟩
  | 85 => ⟨S_, .f32⟩
  | 86 => ⟨S4x8192x1024, .f32⟩
  | 87 => ⟨S4x8192x1024, .f32⟩
  | 88 => ⟨S_, .f32⟩
  | 89 => ⟨S4x8192x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S1024x1024, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1024x1024, .f32⟩
  | 106 => ⟨S1024x1024, .f32⟩
  | 107 => ⟨S1024x1024, .f32⟩
  | 108 => ⟨S_, .i32⟩
  | 109 => ⟨S_, .i32⟩
  | 110 => ⟨S_, .f32⟩
  | 111 => ⟨S1024x1024, .f32⟩
  | 112 => ⟨S1024x1024, .f32⟩
  | 113 => ⟨S_, .f32⟩
  | 114 => ⟨S1024x1024, .f32⟩
  | 115 => ⟨S1024x1024, .f32⟩
  | 116 => ⟨S1024x1024, .f32⟩
  | 117 => ⟨S1024x1024, .f32⟩
  | 118 => ⟨S1024x1024, .f32⟩
  | 119 => ⟨S1024x1024, .f32⟩
  | 120 => ⟨S4x8192x1024, .f32⟩
  | 121 => ⟨S1x1x1024, .f32⟩
  | 122 => ⟨S4x8192x1024, .f32⟩
  | 123 => ⟨S4x8192x1024, .f32⟩
  | 124 => ⟨S4x8192x16x64, .f32⟩
  | 125 => ⟨S4x8192x1024, .f32⟩
  | 126 => ⟨S_, .f32⟩
  | 127 => ⟨S4x8192, .f32⟩
  | _ => ⟨S4x8192x1024, .f32⟩

abbrev hbmTy0_1 (i : Nat) : BufTy := match i % 128 with
  | 0 => ⟨S4x8192x1, .f32⟩
  | 1 => ⟨S_, .f32⟩
  | 2 => ⟨S_, .f32⟩
  | 3 => ⟨S4x8192x1, .f32⟩
  | 4 => ⟨S4x8192x1, .f32⟩
  | 5 => ⟨S_, .f32⟩
  | 6 => ⟨S4x8192x1, .f32⟩
  | 7 => ⟨S4x8192x1, .f32⟩
  | 8 => ⟨S4x8192x1024, .f32⟩
  | 9 => ⟨S4x8192x1024, .f32⟩
  | 10 => ⟨S4x8192x1024, .f32⟩
  | 11 => ⟨S_, .i32⟩
  | 12 => ⟨S_, .i32⟩
  | 13 => ⟨S_, .f32⟩
  | 14 => ⟨S4x8192x1024, .f32⟩
  | 15 => ⟨S4x8192x1024, .f32⟩
  | 16 => ⟨S_, .f32⟩
  | 17 => ⟨S4x8192x1024, .f32⟩
  | 18 => ⟨S4x8192x1024, .f32⟩
  | 19 => ⟨S4x8192x1024, .f32⟩
  | 20 => ⟨S4x8192x1024, .f32⟩
  | 21 => ⟨S4x8192x1024, .f32⟩
  | 22 => ⟨S4x8192x1024, .f32⟩
  | 23 => ⟨S1024x1024, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S1024x1024, .f32⟩
  | 34 => ⟨S1024x1024, .f32⟩
  | 35 => ⟨S1024x1024, .f32⟩
  | 36 => ⟨S_, .i32⟩
  | 37 => ⟨S_, .i32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S1024x1024, .f32⟩
  | 47 => ⟨S1024x1024, .f32⟩
  | 48 => ⟨S4x8192x1024, .f32⟩
  | 49 => ⟨S1x1x1024, .f32⟩
  | 50 => ⟨S4x8192x1024, .f32⟩
  | 51 => ⟨S4x8192x1024, .f32⟩
  | 52 => ⟨S4x8192x16x64, .f32⟩
  | 53 => ⟨S_, .f32⟩
  | 54 => ⟨S4x8192x16x64, .f32⟩
  | 55 => ⟨S4x8192x16x64, .f32⟩
  | 56 => ⟨S4x8192x16x16, .f32⟩
  | 57 => ⟨S_, .f32⟩
  | 58 => ⟨S4x8192x16, .f32⟩
  | 59 => ⟨S_, .f32⟩
  | 60 => ⟨S4x8192x16, .f32⟩
  | 61 => ⟨S4x8192x16, .f32⟩
  | 62 => ⟨S4x8192x16x1, .f32⟩
  | 63 => ⟨S4x8192x16x16, .f32⟩
  | 64 => ⟨S4x8192x16x16, .f32⟩
  | 65 => ⟨S4x8192x16x16, .f32⟩
  | 66 => ⟨S_, .f32⟩
  | 67 => ⟨S4x8192x16, .f32⟩
  | 68 => ⟨S4x8192x16x1, .f32⟩
  | 69 => ⟨S4x8192x16x16, .f32⟩
  | 70 => ⟨S4x8192x16x16, .f32⟩
  | 71 => ⟨S4x8192x16x64, .f32⟩
  | 72 => ⟨S4x8192x1024, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S_, .i32⟩
  | 80 => ⟨S_, .f32⟩
  | 81 => ⟨S4x8192, .f32⟩
  | 82 => ⟨S4x8192x1, .f32⟩
  | 83 => ⟨S_, .f32⟩
  | 84 => ⟨S4x8192x1, .f32⟩
  | 85 => ⟨S4x8192x1, .f32⟩
  | 86 => ⟨S4x8192x1024, .f32⟩
  | 87 => ⟨S4x8192x1024, .f32⟩
  | 88 => ⟨S4x8192x1024, .f32⟩
  | 89 => ⟨S_, .f32⟩
  | 90 => ⟨S_, .f32⟩
  | 91 => ⟨S_, .f32⟩
  | 92 => ⟨S_, .f32⟩
  | 93 => ⟨S4x8192, .f32⟩
  | 94 => ⟨S4x8192x1, .f32⟩
  | 95 => ⟨S4x8192x1, .f32⟩
  | 96 => ⟨S4x8192x1, .f32⟩
  | 97 => ⟨S_, .f32⟩
  | 98 => ⟨S_, .i1⟩
  | 99 => ⟨S_, .f32⟩
  | 100 => ⟨S_, .f32⟩
  | 101 => ⟨S4x8192x1, .f32⟩
  | 102 => ⟨S4x8192x1, .f32⟩
  | 103 => ⟨S4x8192x1024, .f32⟩
  | 104 => ⟨S4x8192x1024, .f32⟩
  | 105 => ⟨S_, .f32⟩
  | 106 => ⟨S4x8192x1, .f32⟩
  | 107 => ⟨S4x8192x1, .f32⟩
  | 108 => ⟨S4x8192x1, .f32⟩
  | 109 => ⟨S4x8192x1024, .f32⟩
  | 110 => ⟨S4x8192x1024, .f32⟩
  | 111 => ⟨S1x1x1024, .f32⟩
  | 112 => ⟨S4x8192x1024, .f32⟩
  | 113 => ⟨S4x8192x1024, .f32⟩
  | 114 => ⟨S1x1x1024, .f32⟩
  | 115 => ⟨S4x8192x1024, .f32⟩
  | 116 => ⟨S4x8192x1024, .f32⟩
  | 117 => ⟨S4x8192x1024, .f32⟩
  | 118 => ⟨S_, .f32⟩
  | 119 => ⟨S4x8192, .f32⟩
  | 120 => ⟨S4x8192x1, .f32⟩
  | 121 => ⟨S_, .f32⟩
  | 122 => ⟨S_, .f32⟩
  | 123 => ⟨S4x8192x1, .f32⟩
  | 124 => ⟨S4x8192x1, .f32⟩
  | 125 => ⟨S_, .f32⟩
  | 126 => ⟨S4x8192x1, .f32⟩
  | 127 => ⟨S4x8192x1, .f32⟩
  | _ => ⟨S4x8192x1024, .f32⟩

abbrev hbmTy0_2 (i : Nat) : BufTy := match i % 128 with
  | 0 => ⟨S4x8192x1024, .f32⟩
  | 1 => ⟨S4x8192x1024, .f32⟩
  | 2 => ⟨S4x8192x1024, .f32⟩
  | 3 => ⟨S_, .i32⟩
  | 4 => ⟨S_, .i32⟩
  | 5 => ⟨S_, .f32⟩
  | 6 => ⟨S4x8192x1024, .f32⟩
  | 7 => ⟨S4x8192x1024, .f32⟩
  | 8 => ⟨S_, .f32⟩
  | 9 => ⟨S4x8192x1024, .f32⟩
  | 10 => ⟨S4x8192x1024, .f32⟩
  | 11 => ⟨S4x8192x1024, .f32⟩
  | 12 => ⟨S4x8192x1024, .f32⟩
  | 13 => ⟨S4x8192x1024, .f32⟩
  | 14 => ⟨S4x8192x1024, .f32⟩
  | 15 => ⟨S1024x1024, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1024x1024, .f32⟩
  | 26 => ⟨S1024x1024, .f32⟩
  | 27 => ⟨S1024x1024, .f32⟩
  | 28 => ⟨S_, .i32⟩
  | 29 => ⟨S_, .i32⟩
  | 30 => ⟨S_, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S4x8192x1024, .f32⟩
  | 41 => ⟨S1x1x1024, .f32⟩
  | 42 => ⟨S4x8192x1024, .f32⟩
  | 43 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_cst_5 : Ref sig .tc := ⟨.hbm, 44, rfl⟩
abbrev main_call3_v0 : Ref sig .tc := ⟨.hbm, 45, rfl⟩
abbrev main_v17 : Ref sig .tc := ⟨.hbm, 46, rfl⟩
abbrev main_cst_6 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_7 : Ref sig .tc := ⟨.hbm, 52, rfl⟩
abbrev main_c_8 : Ref sig .tc := ⟨.hbm, 53, rfl⟩
abbrev main_call5_v0 : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_cst_10 : Ref sig .tc := ⟨.hbm, 73, rfl⟩
abbrev main_call6_v0 : Ref sig .tc := ⟨.hbm, 74, rfl⟩
abbrev main_call6_v1 : Ref sig .tc := ⟨.hbm, 75, rfl⟩
abbrev main_v35 : Ref sig .tc := ⟨.hbm, 76, rfl⟩
abbrev main_cst_11 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_12 : Ref sig .tc := ⟨.hbm, 83, rfl⟩
abbrev main_c_13 : Ref sig .tc := ⟨.hbm, 84, rfl⟩
abbrev main_call8_v0 : Ref sig .tc := ⟨.hbm, 85, rfl⟩
abbrev main_call8_v1 : Ref sig .tc := ⟨.hbm, 86, rfl⟩
abbrev main_call8_v2 : Ref sig .tc := ⟨.hbm, 87, rfl⟩
abbrev main_call8_v3 : Ref sig .tc := ⟨.hbm, 88, rfl⟩
abbrev main_call8_v4 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_14 : Ref sig .tc := ⟨.hbm, 96, rfl⟩
abbrev main_v47 : Ref sig .tc := ⟨.hbm, 97, rfl⟩
abbrev main_cst_15 : Ref sig .tc := ⟨.hbm, 98, rfl⟩
abbrev main_v48 : Ref sig .tc := ⟨.hbm, 99, rfl⟩
abbrev main_cst_16 : Ref sig .tc := ⟨.hbm, 100, rfl⟩
abbrev main_call9_v0 : Ref sig .tc := ⟨.hbm, 101, rfl⟩
abbrev main_v49 : Ref sig .tc := ⟨.hbm, 102, rfl⟩
abbrev main_cst_17 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_18 : Ref sig .tc := ⟨.hbm, 108, rfl⟩
abbrev main_c_19 : Ref sig .tc := ⟨.hbm, 109, rfl⟩
abbrev main_call11_v0 : Ref sig .tc := ⟨.hbm, 110, rfl⟩
abbrev main_call11_v1 : Ref sig .tc := ⟨.hbm, 111, rfl⟩
abbrev main_call11_v2 : Ref sig .tc := ⟨.hbm, 112, rfl⟩
abbrev main_call11_v3 : Ref sig .tc := ⟨.hbm, 113, rfl⟩
abbrev main_call11_v4 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_20 : Ref sig .tc := ⟨.hbm, 126, rfl⟩
abbrev main_v65 : Ref sig .tc := ⟨.hbm, 127, rfl⟩
abbrev main_v66 : Ref sig .tc := ⟨.hbm, 128, rfl⟩
abbrev main_cst_21 : Ref sig .tc := ⟨.hbm, 129, rfl⟩
abbrev main_call12_v0 : Ref sig .tc := ⟨.hbm, 130, rfl⟩
abbrev main_call12_v1 : Ref sig .tc := ⟨.hbm, 131, rfl⟩
abbrev main_v67 : Ref sig .tc := ⟨.hbm, 132, rfl⟩
abbrev main_cst_22 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_c_23 : Ref sig .tc := ⟨.hbm, 139, rfl⟩
abbrev main_c_24 : Ref sig .tc := ⟨.hbm, 140, rfl⟩
abbrev main_call14_v0 : Ref sig .tc := ⟨.hbm, 141, rfl⟩
abbrev main_call14_v1 : Ref sig .tc := ⟨.hbm, 142, rfl⟩
abbrev main_call14_v2 : Ref sig .tc := ⟨.hbm, 143, rfl⟩
abbrev main_call14_v3 : Ref sig .tc := ⟨.hbm, 144, rfl⟩
abbrev main_call14_v4 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_cst_25 : Ref sig .tc := ⟨.hbm, 152, rfl⟩
abbrev main_v79 : Ref sig .tc := ⟨.hbm, 153, rfl⟩
abbrev main_cst_26 : Ref sig .tc := ⟨.hbm, 154, rfl⟩
abbrev main_v80 : Ref sig .tc := ⟨.hbm, 155, rfl⟩
abbrev main_cst_27 : Ref sig .tc := ⟨.hbm, 156, rfl⟩
abbrev main_call15_v0 : Ref sig .tc := ⟨.hbm, 157, rfl⟩
abbrev main_v81 : Ref sig .tc := ⟨.hbm, 158, rfl⟩
abbrev main_cst_28 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_c_29 : Ref sig .tc := ⟨.hbm, 164, rfl⟩
abbrev main_c_30 : Ref sig .tc := ⟨.hbm, 165, rfl⟩
abbrev main_call17_v0 : Ref sig .tc := ⟨.hbm, 166, rfl⟩
abbrev main_call17_v1 : Ref sig .tc := ⟨.hbm, 167, rfl⟩
abbrev main_call17_v2 : Ref sig .tc := ⟨.hbm, 168, rfl⟩
abbrev main_call17_v3 : Ref sig .tc := ⟨.hbm, 169, rfl⟩
abbrev main_call17_v4 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_31 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_32 : Ref sig .tc := ⟨.hbm, 185, rfl⟩
abbrev main_v99 : Ref sig .tc := ⟨.hbm, 186, rfl⟩
abbrev main_cst_33 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_34 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_35 : Ref sig .tc := ⟨.hbm, 201, rfl⟩
abbrev main_v112 : Ref sig .tc := ⟨.hbm, 202, rfl⟩
abbrev main_v113 : Ref sig .tc := ⟨.hbm, 203, rfl⟩
abbrev main_cst_36 : Ref sig .tc := ⟨.hbm, 204, rfl⟩
abbrev main_v114 : Ref sig .tc := ⟨.hbm, 205, rfl⟩
abbrev main_v115 : Ref sig .tc := ⟨.hbm, 206, rfl⟩
abbrev main_c_37 : Ref sig .tc := ⟨.hbm, 207, rfl⟩
abbrev main_call18_cst : Ref sig .tc := ⟨.hbm, 208, rfl⟩
abbrev main_call18_v0 : Ref sig .tc := ⟨.hbm, 209, rfl⟩
abbrev main_call18_v1 : Ref sig .tc := ⟨.hbm, 210, rfl⟩
abbrev main_call18_cst_0 : Ref sig .tc := ⟨.hbm, 211, rfl⟩
abbrev main_call18_v2 : Ref sig .tc := ⟨.hbm, 212, rfl⟩
abbrev main_call18_v3 : Ref sig .tc := ⟨.hbm, 213, rfl⟩
abbrev main_call18_v4 : Ref sig .tc := ⟨.hbm, 214, rfl⟩
abbrev main_call18_v5 : Ref sig .tc := ⟨.hbm, 215, rfl⟩
abbrev main_call18_v6 : Ref sig .tc := ⟨.hbm, 216, rfl⟩
abbrev main_call18_v7 : Ref sig .tc := ⟨.hbm, 217, rfl⟩
abbrev main_call18_cst_1 : Ref sig .tc := ⟨.hbm, 218, rfl⟩
abbrev main_call18_v8 : Ref sig .tc := ⟨.hbm, 219, rfl⟩
abbrev main_call18_cst_2 : Ref sig .tc := ⟨.hbm, 220, rfl⟩
abbrev main_call18_v9 : Ref sig .tc := ⟨.hbm, 221, rfl⟩
abbrev main_call18_v10 : Ref sig .tc := ⟨.hbm, 222, rfl⟩
abbrev main_call18_v11 : Ref sig .tc := ⟨.hbm, 223, rfl⟩
abbrev main_call18_v12 : Ref sig .tc := ⟨.hbm, 224, rfl⟩
abbrev main_call18_cst_3 : Ref sig .tc := ⟨.hbm, 225, rfl⟩
abbrev main_call18_v13 : Ref sig .tc := ⟨.hbm, 226, rfl⟩
abbrev main_call18_cst_4 : Ref sig .tc := ⟨.hbm, 227, rfl⟩
abbrev main_call18_call0_v0 : Ref sig .tc := ⟨.hbm, 228, rfl⟩
abbrev main_call18_call0_v1 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_cst_38 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_cst_39 : Ref sig .tc := ⟨.hbm, 246, rfl⟩
abbrev main_v131 : Ref sig .tc := ⟨.hbm, 247, rfl⟩
abbrev main_v132 : Ref sig .tc := ⟨.hbm, 248, rfl⟩
abbrev main_cst_40 : Ref sig .tc := ⟨.hbm, 249, rfl⟩
abbrev main_call19_v0 : Ref sig .tc := ⟨.hbm, 250, rfl⟩
abbrev main_call19_v1 : Ref sig .tc := ⟨.hbm, 251, rfl⟩
abbrev main_v133 : Ref sig .tc := ⟨.hbm, 252, rfl⟩
abbrev main_cst_41 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_c_42 : Ref sig .tc := ⟨.hbm, 259, rfl⟩
abbrev main_c_43 : Ref sig .tc := ⟨.hbm, 260, rfl⟩
abbrev main_call21_v0 : Ref sig .tc := ⟨.hbm, 261, rfl⟩
abbrev main_call21_v1 : Ref sig .tc := ⟨.hbm, 262, rfl⟩
abbrev main_call21_v2 : Ref sig .tc := ⟨.hbm, 263, rfl⟩
abbrev main_call21_v3 : Ref sig .tc := ⟨.hbm, 264, rfl⟩
abbrev main_call21_v4 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_cst_44 : Ref sig .tc := ⟨.hbm, 272, rfl⟩
abbrev main_v145 : Ref sig .tc := ⟨.hbm, 273, rfl⟩
abbrev main_cst_45 : Ref sig .tc := ⟨.hbm, 274, rfl⟩
abbrev main_v146 : Ref sig .tc := ⟨.hbm, 275, rfl⟩
abbrev main_cst_46 : Ref sig .tc := ⟨.hbm, 276, rfl⟩
abbrev main_call22_v0 : Ref sig .tc := ⟨.hbm, 277, rfl⟩
abbrev main_v147 : Ref sig .tc := ⟨.hbm, 278, rfl⟩
abbrev main_cst_47 : Ref sig .tc := ⟨.hbm, 279, rfl⟩
abbrev main_v148 : Ref sig .tc := ⟨.hbm, 280, rfl⟩
abbrev main_v149 : Ref sig .tc := ⟨.hbm, 281, rfl⟩
abbrev main_v150 : Ref sig .tc := ⟨.hbm, 282, rfl⟩
abbrev main_v151 : Ref sig .tc := ⟨.hbm, 283, rfl⟩
abbrev main_c_48 : Ref sig .tc := ⟨.hbm, 284, rfl⟩
abbrev main_c_49 : Ref sig .tc := ⟨.hbm, 285, rfl⟩
abbrev main_call24_v0 : Ref sig .tc := ⟨.hbm, 286, rfl⟩
abbrev main_call24_v1 : Ref sig .tc := ⟨.hbm, 287, rfl⟩
abbrev main_call24_v2 : Ref sig .tc := ⟨.hbm, 288, rfl⟩
abbrev main_call24_v3 : Ref sig .tc := ⟨.hbm, 289, rfl⟩
abbrev main_call24_v4 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_v155 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S_S4x8192x1024 : S_.BroadcastsInDim S4x8192x1024 (![] : Fin 0 → Fin S4x8192x1024.rank)
  reducesTo_S1024x1024_S_d0_1 : S1024x1024.ReducesTo [0, 1] S_
  bcast_S_S1024x1024 : S_.BroadcastsInDim S1024x1024 (![] : Fin 0 → Fin S1024x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  shapeCasts_S4x8192x1024_S4x8192x16x64 : S4x8192x1024.ShapeCasts S4x8192x16x64
  bcast_S_S4x8192x16x64 : S_.BroadcastsInDim S4x8192x16x64 (![] : Fin 0 → Fin S4x8192x16x64.rank)
  reducesTo_S4x8192x16x16_S4x8192x16_d3 : S4x8192x16x16.ReducesTo [3] S4x8192x16
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bcast_S4x8192x16x1_S4x8192x16x16_0_1_2_3 : S4x8192x16x1.BroadcastsInDim S4x8192x16x16 (![0, 1, 2, 3] : Fin 4 → Fin S4x8192x16x16.rank)
  shapeCasts_S4x8192x16x64_S4x8192x1024 : S4x8192x16x64.ShapeCasts S4x8192x1024
  dot_S4x8192x1024_S1024x1024_S4x8192x1024_2_1_01_0_n_n_wf : DotDims.WF S4x8192x1024 S1024x1024 S4x8192x1024 [2] [1] [0, 1] [0] [] []
  dot_S4x8192x16x64_S4x8192x16x64_S4x8192x16x16_3_3_2_2_01_01_wf : DotDims.WF S4x8192x16x64 S4x8192x16x64 S4x8192x16x16 [3] [3] [2] [2] [0, 1] [0, 1]
  dot_S4x8192x16x16_S4x8192x16x64_S4x8192x16x64_3_2_2_3_01_01_wf : DotDims.WF S4x8192x16x16 S4x8192x16x64 S4x8192x16x64 [3] [2] [2] [3] [0, 1] [0, 1]

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x16x64_S4x8192x16x64_S4x8192x16x16_3_3_2_2_01_01 : DotDims S4x8192x16x64 S4x8192x16x64 S4x8192x16x16 where
  lhsContracting := [3]
  rhsContracting := [3]
  lhsNonContracting := [2]
  rhsNonContracting := [2]
  lhsBatch := [0, 1]
  rhsBatch := [0, 1]
  wf := dot_S4x8192x16x64_S4x8192x16x64_S4x8192x16x16_3_3_2_2_01_01_wf
def dot_S4x8192x16x16_S4x8192x16x64_S4x8192x16x64_3_2_2_3_01_01 : DotDims S4x8192x16x16 S4x8192x16x64 S4x8192x16x64 where
  lhsContracting := [3]
  rhsContracting := [2]
  lhsNonContracting := [2]
  rhsNonContracting := [3]
  lhsBatch := [0, 1]
  rhsBatch := [0, 1]
  wf := dot_S4x8192x16x16_S4x8192x16x64_S4x8192x16x64_3_2_2_3_01_01_wf

class Facts : Prop extends Facts₀ where

variable [Facts]
-- ==== Proof.KRun.lean ====
/-
  The kernel program's run with its result named.  Every weakly fair execution of the program terminates without a
  fault; in the final state the result buffer holds what the last of the three regions leaves in it — the contents
  `W30`, the fold of the host operations and of the three regions' write-backs from the launch memory — and every
  argument array is as launched.  The argument is the one that gives the frame: the segments of the program are run
  one after the other, and the last thread state (every buffer at `W30`) is read against the final memory; here the
  result buffer is read too.
-/
import proofs.«141461_j68564857913635_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at `W30`'s contents of it, the argument arrays end as launched. -/
theorem run_value : θ_run defs (onTc (τ := τ) (main (F := F))) ⟨m, fun _ => 0, ρ⟩ (fun r => ∀ c : Dev nD,
      r.2.mem ((c.tc : Thread nD τ).loc main_v58) = W30 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v58 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c)⟩)

end Cert.KernelIdeal.KRun

end
-- ==== Proof.KGlue.lean ====
/-
  The kernel program's buffers between its regions.  The program's run is a fold of buffer contents: host
  operations, then the first region, a re-laying of its three results as [4, 8192, 16, 64], the second region, a
  re-laying of its result back to [4, 8192, 1024], the third region.

  * No host operation and no region writes an argument array, so at every region's entry an argument buffer holds the
    launch memory's contents of it.  The buffer of the fourth quantized weight, computed before the first region, still
    holds it at the third region's entry.
  * A re-laying keeps the row-major position: entry (b, n, h, d) of the [4, 8192, 16, 64] array is entry
    (b, n, 64 h + d) of the [4, 8192, 1024] array, and back.
  * After a region each of its result buffers holds what the region's write-backs leave.
-/
import proofs.«141461_j68564857913635_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.KGlue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- One stretch of host operations that does not write the buffer: its contents pass through. -/
macro "skip_stretch " b:term : tactic => `(tactic|
  refine (StableHlo.after_of_forall_not_mem (b := Proc.devRef .tc $b) _ _ (List.forall_iff_forall_mem.mp (by
    simp only [hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18, hostOps0_19,
      hostOps0_20, hostOps0_21, hostOps0_22, hostOps0_23, hostOps0_24, hostOps1, hostOps2,
      List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))).trans ?_)

/-! ## Argument buffers at the first region's entry -/

theorem W25_main_arg0 (c : Dev nD) : W25 m ρ c (Proc.devRef .tc main_arg0) = m ((c : Thread nD τ).loc main_arg0) := by
  iterate 25 skip_stretch main_arg0
  rfl

theorem W25_main_arg1 (c : Dev nD) : W25 m ρ c (Proc.devRef .tc main_arg1) = m ((c : Thread nD τ).loc main_arg1) := by
  iterate 25 skip_stretch main_arg1
  rfl

theorem W25_main_arg2 (c : Dev nD) : W25 m ρ c (Proc.devRef .tc main_arg2) = m ((c : Thread nD τ).loc main_arg2) := by
  iterate 25 skip_stretch main_arg2
  rfl

theorem W25_main_arg4 (c : Dev nD) : W25 m ρ c (Proc.devRef .tc main_arg4) = m ((c : Thread nD τ).loc main_arg4) := by
  iterate 25 skip_stretch main_arg4
  rfl

theorem W25_main_arg6 (c : Dev nD) : W25 m ρ c (Proc.devRef .tc main_arg6) = m ((c : Thread nD τ).loc main_arg6) := by
  iterate 25 skip_stretch main_arg6
  rfl

theorem W25_main_arg8 (c : Dev nD) : W25 m ρ c (Proc.devRef .tc main_arg8) = m ((c : Thread nD τ).loc main_arg8) := by
  iterate 25 skip_stretch main_arg8
  rfl

/-! ## Argument buffers, and the fourth weight, at the third region's entry -/

theorem W29_main_arg9 (c : Dev nD) : W29 m ρ c (Proc.devRef .tc main_arg9) = m ((c : Thread nD τ).loc main_arg9) := by
  skip_stretch main_arg9
  refine (W28_of_ne m ρ c main_arg9 (by decide)).trans ?_
  skip_stretch main_arg9
  refine (W26_of_ne m ρ c main_arg9 (by decide)).trans ?_
  iterate 25 skip_stretch main_arg9
  rfl

theorem W29_main_arg10 (c : Dev nD) : W29 m ρ c (Proc.devRef .tc main_arg10) = m ((c : Thread nD τ).loc main_arg10) := by
  skip_stretch main_arg10
  refine (W28_of_ne m ρ c main_arg10 (by decide)).trans ?_
  skip_stretch main_arg10
  refine (W26_of_ne m ρ c main_arg10 (by decide)).trans ?_
  iterate 25 skip_stretch main_arg10
  rfl

theorem W29_main_arg12 (c : Dev nD) : W29 m ρ c (Proc.devRef .tc main_arg12) = m ((c : Thread nD τ).loc main_arg12) := by
  skip_stretch main_arg12
  refine (W28_of_ne m ρ c main_arg12 (by decide)).trans ?_
  skip_stretch main_arg12
  refine (W26_of_ne m ρ c main_arg12 (by decide)).trans ?_
  iterate 25 skip_stretch main_arg12
  rfl

theorem W29_main_v51 (c : Dev nD) : W29 m ρ c (Proc.devRef .tc main_v51) = W25 m ρ c (Proc.devRef .tc main_v51) := by
  skip_stretch main_v51
  refine (W28_of_ne m ρ c main_v51 (by decide)).trans ?_
  skip_stretch main_v51
  exact W26_of_ne m ρ c main_v51 (by decide)

/-! ## The re-layings between the regions, read at an index -/

theorem W27_main_v53 (c : Dev nD) (b : Fin 4) (n : Fin 8192) (h : Fin 16) (d : Fin 64) :
    W27 m ρ c (Proc.devRef .tc main_v53) (ix4 b n h d)
      = W26 m ρ c (Proc.devRef .tc main_v52_0) (ix3 b n ⟨h.val * 64 + d.val, by omega⟩) := by
  dsimp only [W27, hostOps1]
  after_results
  show shapeCast S4x8192x16x64 (W26 m ρ c (Proc.devRef .tc main_v52_0)) shapeCasts_S4x8192x1024_S4x8192x16x64 (ix4 b n h d) = _
  refine shapeCast_apply _ _ (ix4 b n h d) (ix3 b n ⟨h.val * 64 + d.val, by omega⟩) ?_
  rw [Shape.rowMajor_val_three, Shape.rowMajor_val_four]
  show (b.val * 8192 + n.val) * 1024 + (h.val * 64 + d.val) = ((b.val * 8192 + n.val) * 16 + h.val) * 64 + d.val
  omega

theorem W27_main_v54 (c : Dev nD) (b : Fin 4) (n : Fin 8192) (h : Fin 16) (d : Fin 64) :
    W27 m ρ c (Proc.devRef .tc main_v54) (ix4 b n h d)
      = W26 m ρ c (Proc.devRef .tc main_v52_1) (ix3 b n ⟨h.val * 64 + d.val, by omega⟩) := by
  dsimp only [W27, hostOps1]
  after_results
  show shapeCast S4x8192x16x64 (W26 m ρ c (Proc.devRef .tc main_v52_1)) shapeCasts_S4x8192x1024_S4x8192x16x64 (ix4 b n h d) = _
  refine shapeCast_apply _ _ (ix4 b n h d) (ix3 b n ⟨h.val * 64 + d.val, by omega⟩) ?_
  rw [Shape.rowMajor_val_three, Shape.rowMajor_val_four]
  show (b.val * 8192 + n.val) * 1024 + (h.val * 64 + d.val) = ((b.val * 8192 + n.val) * 16 + h.val) * 64 + d.val
  omega

theorem W27_main_v55 (c : Dev nD) (b : Fin 4) (n : Fin 8192) (h : Fin 16) (d : Fin 64) :
    W27 m ρ c (Proc.devRef .tc main_v55) (ix4 b n h d)
      = W26 m ρ c (Proc.devRef .tc main_v52_2) (ix3 b n ⟨h.val * 64 + d.val, by omega⟩) := by
  dsimp only [W27, hostOps1]
  after_results
  show shapeCast S4x8192x16x64 (W26 m ρ c (Proc.devRef .tc main_v52_2)) shapeCasts_S4x8192x1024_S4x8192x16x64 (ix4 b n h d) = _
  refine shapeCast_apply _ _ (ix4 b n h d) (ix3 b n ⟨h.val * 64 + d.val, by omega⟩) ?_
  rw [Shape.rowMajor_val_three, Shape.rowMajor_val_four]
  show (b.val * 8192 + n.val) * 1024 + (h.val * 64 + d.val) = ((b.val * 8192 + n.val) * 16 + h.val) * 64 + d.val
  omega

theorem W29_main_v57 (c : Dev nD) (b : Fin 4) (n : Fin 8192) (e : Fin 1024) :
    W29 m ρ c (Proc.devRef .tc main_v57) (ix3 b n e)
      = W28 m ρ c (Proc.devRef .tc main_v56) (ix4 b n ⟨e.val / 64, by omega⟩ ⟨e.val % 64, by omega⟩) := by
  dsimp only [W29, hostOps2]
  after_results
  show shapeCast S4x8192x1024 (W28 m ρ c (Proc.devRef .tc main_v56)) shapeCasts_S4x8192x16x64_S4x8192x1024 (ix3 b n e) = _
  refine shapeCast_apply _ _ (ix3 b n e) (ix4 b n ⟨e.val / 64, by omega⟩ ⟨e.val % 64, by omega⟩) ?_
  rw [Shape.rowMajor_val_three, Shape.rowMajor_val_four]
  show ((b.val * 8192 + n.val) * 16 + e.val / 64) * 64 + e.val % 64 = (b.val * 8192 + n.val) * 1024 + e.val
  omega

/-! ## The regions' result buffers after each region -/

theorem W26_main_v52_0 (c : Dev nD) : W26 m ρ c (Proc.devRef .tc main_v52_0) = (dat0 (V25 m ρ) c).arrAt 9 cfg0.N := W26_arr m ρ c 9
theorem W26_main_v52_1 (c : Dev nD) : W26 m ρ c (Proc.devRef .tc main_v52_1) = (dat0 (V25 m ρ) c).arrAt 10 cfg0.N := W26_arr m ρ c 10
theorem W26_main_v52_2 (c : Dev nD) : W26 m ρ c (Proc.devRef .tc main_v52_2) = (dat0 (V25 m ρ) c).arrAt 11 cfg0.N := W26_arr m ρ c 11
theorem W28_main_v56 (c : Dev nD) : W28 m ρ c (Proc.devRef .tc main_v56) = (dat1 (V27 m ρ) c).arrAt 3 cfg1.N := W28_arr m ρ c 3
theorem W30_main_v58 (c : Dev nD) : W30 m ρ c (Proc.devRef .tc main_v58) = (dat2 (V29 m ρ) c).arrAt 5 cfg2.N := W30_arr m ρ c 5

end Cert.KernelIdeal.KGlue

end
-- ==== Proof.Spec.lean ====
/-
  The mathematics of the certificate, free of any program: one token's output row as a function of that token's
  query, key and value rows and of the parameter arrays, over the extended reals.

  A linear layer here quantizes both of its operands.  A weight matrix is scaled by the reciprocal of its mean
  absolute entry (floored at a small constant), rounded to the nearest integer (ties to even), clamped to
  [-1, 1] and scaled back.  An activation row is scaled by 127 over its largest absolute entry (floored at the same
  constant), rounded, clamped to [-128, 127] and scaled back.  The layer's output at column `o` is the sum over `e` of
  the quantized activation at `e` times the quantized weight at `(o, e)`, plus the bias at `o`.

  One token's row of 1024 numbers is read as 16 heads of 64.  The score of head `h` against head `g` is the sum over
  the 64 positions of (query / 8) times key; a softmax over `g` (shifted by the row maximum) weighs the value heads.
  The mixed row is normalized (mean and mean squared deviation over its 1024 entries, a small constant added under the
  reciprocal square root), scaled by `gamma`, shifted by `beta`, and passed through a last quantized linear layer.

  Float literals stay the words the programs print (`Ideal.ofBits .f32 w`): the same word on both sides is never
  evaluated.
-/
import Idealize.ShloMosaic.PureOps.Ideal
import Idealize.ShloMosaic.PureOps.Ideal.Laws
import Idealize.ShloMosaic.Lib.ValueIdx

noncomputable section

namespace Cert.BitAttn

open Idealize.ShloMosaic Idealize.ShloMosaic.ValueIdx

/-! ## The literals, as printed -/

/-- 9.99999974e-6, the floor under both quantization scales and the constant under the reciprocal square root. -/
def cEps : EReal := Ideal.ofBits .f32 0x3727C5AC#32
/-- 127. -/
def c127 : EReal := Ideal.ofBits .f32 0x42FE0000#32
/-- -128. -/
def cM128 : EReal := Ideal.ofBits .f32 0xC3000000#32
/-- 1. -/
def cOne : EReal := Ideal.ofBits .f32 0x3F800000#32
/-- -1. -/
def cM1 : EReal := Ideal.ofBits .f32 0xBF800000#32
/-- The pattern of minus infinity: what a maximum starts from. -/
def cNegInf : EReal := Ideal.ofBits .f32 0xFF800000#32
/-- 1048576 = 1024 * 1024, the number of entries of a weight matrix. -/
def cCount : EReal := Ideal.ofBits .f32 0x49800000#32
/-- 1024, the length of a row. -/
def c1024 : EReal := Ideal.ofBits .f32 0x44800000#32
/-- 1/8, the reciprocal of the square root of the head size 64. -/
def cEighth : EReal := Ideal.ofBits .f32 0x3E000000#32

/-- Rounding to the nearest integer, ties to even; the infinities are fixed. -/
def rne (x : EReal) : EReal := Ideal.liftRound Ideal.roundHalfEven x

/-! ## Quantization -/

/-- The largest absolute entry of a row, as a maximum started from minus infinity. -/
def absMax (x : Fin 1024 → EReal) : EReal :=
  (Finset.univ : Finset (Fin 1024)).fold max cNegInf (fun e => max (x e) (-(x e)))

/-- The activation scale of a row: 127 over its largest absolute entry, that entry floored at `cEps`. -/
def actScale (x : Fin 1024 → EReal) : EReal := Ideal.div c127 (max cEps (absMax x))

/-- A row quantized to 8 bits and scaled back. -/
def actQ (x : Fin 1024 → EReal) (e : Fin 1024) : EReal :=
  Ideal.div (min c127 (max cM128 (rne (x e * actScale x)))) (actScale x)

/-- The sum of the absolute entries of a matrix. -/
def absSum (w : Fin 1024 → Fin 1024 → EReal) : EReal := ∑ o : Fin 1024, ∑ e : Fin 1024, max (w o e) (-(w o e))

/-- The weight scale of a matrix: the reciprocal of its mean absolute entry, that mean floored at `cEps`. -/
def wScale (w : Fin 1024 → Fin 1024 → EReal) : EReal := Ideal.div cOne (max cEps (Ideal.div (absSum w) cCount))

/-- A matrix quantized to {-1, 0, 1} and scaled back. -/
def wQ (w : Fin 1024 → Fin 1024 → EReal) (o e : Fin 1024) : EReal :=
  Ideal.div (min cOne (max cM1 (rne (w o e * wScale w)))) (wScale w)

/-- A linear layer over operands already quantized: column `o` of `x · wᵀ + b`. -/
def lin (x : Fin 1024 → EReal) (w : Fin 1024 → Fin 1024 → EReal) (b : Fin 1024 → EReal) (o : Fin 1024) : EReal :=
  (∑ e : Fin 1024, x e * w o e) + b o

/-- The quantized linear layer. -/
def bitLin (x : Fin 1024 → EReal) (w : Fin 1024 → Fin 1024 → EReal) (b : Fin 1024 → EReal) : Fin 1024 → EReal :=
  lin (actQ x) (wQ w) b

/-! ## Mixing the heads of one token -/

/-- Entry `d` of head `h` of a row: entry `64 h + d`. -/
def head (r : Fin 1024 → EReal) (h : Fin 16) (d : Fin 64) : EReal := r ⟨h.val * 64 + d.val, by omega⟩

/-- A row assembled from 16 heads of 64: its entry `e` is entry `e % 64` of head `e / 64`. -/
def ofHeads (f : Fin 16 → Fin 64 → EReal) (e : Fin 1024) : EReal := f ⟨e.val / 64, by omega⟩ ⟨e.val % 64, by omega⟩

/-- Reading a head of a row assembled from heads gives the head back. -/
theorem head_ofHeads (f : Fin 16 → Fin 64 → EReal) (h : Fin 16) (d : Fin 64) : head (ofHeads f) h d = f h d := by
  unfold head ofHeads
  congr 1 <;> exact Fin.ext (by simp only []; omega)

/-- The score of query head `h` against key head `g`. -/
def score (q k : Fin 1024 → EReal) (h g : Fin 16) : EReal := ∑ d : Fin 64, (head q h d * cEighth) * head k g d

/-- The shift of a softmax: the largest of 16 scores, the maximum started from minus infinity. -/
def shift (s : Fin 16 → EReal) : EReal := max cNegInf ((Finset.univ : Finset (Fin 16)).fold max cNegInf s)

/-- A shifted exponential. -/
def expShift (s : Fin 16 → EReal) (g : Fin 16) : EReal := Ideal.exp (s g - shift s)

/-- The softmax weight of entry `g` among 16 scores. -/
def softmax (s : Fin 16 → EReal) (g : Fin 16) : EReal := Ideal.div (expShift s g) (∑ g' : Fin 16, expShift s g')

/-- Entry `d` of head `h` after mixing: the value heads weighed by the softmax of head `h`'s scores. -/
def mixHead (q k v : Fin 1024 → EReal) (h : Fin 16) (d : Fin 64) : EReal :=
  ∑ g : Fin 16, softmax (score q k h) g * head v g d

/-- The mixed row: its entry `e` is entry `e % 64` of head `e / 64`. -/
def mix (q k v : Fin 1024 → EReal) : Fin 1024 → EReal := ofHeads (mixHead q k v)

/-! ## Normalization -/

/-- The mean of a row. -/
def mean (x : Fin 1024 → EReal) : EReal := Ideal.div (∑ e : Fin 1024, x e) c1024

/-- The mean squared deviation of a row. -/
def msd (x : Fin 1024 → EReal) : EReal := Ideal.div (∑ e : Fin 1024, (x e - mean x) * (x e - mean x)) c1024

/-- The normalized row, scaled and shifted. -/
def norm (x g b : Fin 1024 → EReal) (e : Fin 1024) : EReal :=
  (x e - mean x) * Ideal.rsqrt (msd x + cEps) * g e + b e

/-! ## One token, and the whole result -/

/-- One token's output row. -/
def tokenOut (xq xk xv : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (gamma beta : Fin 1024 → EReal) (Wo : Fin 1024 → Fin 1024 → EReal) (bo : Fin 1024 → EReal) : Fin 1024 → EReal :=
  bitLin (norm (mix (bitLin xq Wq bq) (bitLin xk Wk bk) (bitLin xv Wv bv)) gamma beta) Wo bo

/-- Row `(b, n)` of a [4, 8192, 1024] array. -/
def row3 (a : (⟨3, ![4, 8192, 1024]⟩ : Shape).Idx → EReal) (b : Fin 4) (n : Fin 8192) : Fin 1024 → EReal :=
  fun e => a (ix3 b n e)

/-- A [1024, 1024] array by its two coordinates. -/
def mat (a : (⟨2, ![1024, 1024]⟩ : Shape).Idx → EReal) : Fin 1024 → Fin 1024 → EReal := fun o e => a (ix2 o e)

/-- A [1024] array by its coordinate. -/
def vec (a : (⟨1, ![1024]⟩ : Shape).Idx → EReal) : Fin 1024 → EReal := fun e => a (ix1 e)

/-- The result array by its three coordinates. -/
def result3 (a0 a1 a2 : (⟨3, ![4, 8192, 1024]⟩ : Shape).Idx → EReal) (a3 : (⟨2, ![1024, 1024]⟩ : Shape).Idx → EReal)
    (a4 : (⟨1, ![1024]⟩ : Shape).Idx → EReal) (a5 : (⟨2, ![1024, 1024]⟩ : Shape).Idx → EReal)
    (a6 : (⟨1, ![1024]⟩ : Shape).Idx → EReal) (a7 : (⟨2, ![1024, 1024]⟩ : Shape).Idx → EReal)
    (a8 a9 a10 : (⟨1, ![1024]⟩ : Shape).Idx → EReal) (a11 : (⟨2, ![1024, 1024]⟩ : Shape).Idx → EReal)
    (a12 : (⟨1, ![1024]⟩ : Shape).Idx → EReal) (b : Fin 4) (n : Fin 8192) : Fin 1024 → EReal :=
  tokenOut (row3 a0 b n) (row3 a1 b n) (row3 a2 b n) (mat a3) (vec a4) (mat a5) (vec a6) (mat a7) (vec a8)
    (vec a9) (vec a10) (mat a11) (vec a12)

/-- The result array: entry `(b, n, o)` is entry `o` of token `(b, n)`'s output row. -/
def result (a0 a1 a2 : (⟨3, ![4, 8192, 1024]⟩ : Shape).Idx → EReal) (a3 : (⟨2, ![1024, 1024]⟩ : Shape).Idx → EReal)
    (a4 : (⟨1, ![1024]⟩ : Shape).Idx → EReal) (a5 : (⟨2, ![1024, 1024]⟩ : Shape).Idx → EReal)
    (a6 : (⟨1, ![1024]⟩ : Shape).Idx → EReal) (a7 : (⟨2, ![1024, 1024]⟩ : Shape).Idx → EReal)
    (a8 a9 a10 : (⟨1, ![1024]⟩ : Shape).Idx → EReal) (a11 : (⟨2, ![1024, 1024]⟩ : Shape).Idx → EReal)
    (a12 : (⟨1, ![1024]⟩ : Shape).Idx → EReal) : (⟨3, ![4, 8192, 1024]⟩ : Shape).Idx → EReal :=
  fun i => result3 a0 a1 a2 a3 a4 a5 a6 a7 a8 a9 a10 a11 a12 (i 0) (i 1) (i 2)

end Cert.BitAttn

end
-- ==== Proof.KWeightRead.lean ====
/-
  A weight matrix as the kernel's program prepares it on the host, read at an entry.

  The program takes the mean absolute entry of a 1024 × 1024 matrix (the sum of the absolute entries over 2^20), floors it
  at a small constant, and takes the reciprocal: the scale. Each entry times the scale is rounded to the nearest integer
  (ties to even), clamped to [-1, 1] and divided by the scale again; the matrix is then transposed, and the change of
  float format is the identity on the extended reals. So entry `(e, o)` of the prepared operand is the specification's
  quantized weight at `(o, e)`.
-/
import proofs.«141461_j68564857913635_2_alg».proof.KernelIdeal
import proofs.«141461_j68564857913635_2_alg».proof.Proof.Spec
import Idealize.ShloMosaic.PureOps.Ideal.Laws
import Idealize.ShloMosaic.Lib.ValueLayout
import Idealize.ShloMosaic.Lib.IdealHost

noncomputable section

namespace Cert.KernelIdeal.WeightRead

open Idealize.ShloMosaic Idealize.ShloMosaic.ValueIdx
open Cert.KernelIdeal Cert.KernelIdeal.Facts₀ Cert.BitAttn

section
variable [Cert.KernelIdeal.Facts]

/-- The scale of a matrix, as a rank-0 array: one over its mean absolute entry, the mean floored at a small constant. -/
abbrev kScale (w : FVec Ideal S1024x1024 .f32) : FVec Ideal S_ .f32 :=
  Host.divf (F := Ideal) (constant (F := Ideal) S_ .f32 0x3F800000#32)
    (maximumf (id (constant (F := Ideal) S_ .f32 0x3727C5AC#32))
      (Host.divf (F := Ideal)
        (Host.reduceAdd (F := Ideal) (Host.absf (F := Ideal) w) (constant (F := Ideal) S_ .f32 0x00000000#32)
          reducesTo_S1024x1024_S_d0_1 h_S_)
        (constant (F := Ideal) S_ .f32 0x49800000#32)))

/-- The prepared operand: the entries scaled, rounded, clamped to [-1, 1], scaled back; then the transpose. -/
abbrev kWeight (w : FVec Ideal S1024x1024 .f32) : FVec Ideal S1024x1024 .bf16 :=
  truncf .bf16
    (transpose S1024x1024 [1, 0]
      (Host.divf (F := Ideal)
        (minimumf
          (broadcastInDim S1024x1024 ![] bcast_S_S1024x1024 (id (constant (F := Ideal) S_ .f32 0x3F800000#32)))
          (maximumf
            (broadcastInDim S1024x1024 ![] bcast_S_S1024x1024 (id (constant (F := Ideal) S_ .f32 0xBF800000#32)))
            (Host.roundeven (F := Ideal) (mulf w (broadcastInDim S1024x1024 ![] bcast_S_S1024x1024 (kScale w))))))
        (broadcastInDim S1024x1024 ![] bcast_S_S1024x1024 (kScale w)))
      transposes_S1024x1024_S1024x1024_1_0)
    bitsLt_bf16_f32

/-- The scale is the specification's weight scale. -/
theorem kScale_apply (w : FVec Ideal S1024x1024 .f32) : kScale w ix0 = wScale (mat w) := by
  unfold wScale absSum
  show Ideal.div cOne (max cEps (Ideal.div
    (Ideal.hostReduceAdd reducesTo_S1024x1024_S_d0_1 (Host.absf (F := Ideal) w) (Ideal.ofBits .f32 0x00000000#32) ix0) cCount)) = _
  rw [Ideal.hostReduceAdd_total _ (fun b => b.elim0), Ideal.ofBits_zero_f32, zero_add, sum_idx2]
  rfl

/-- Entry `(e, o)` of the prepared operand is the quantized weight at `(o, e)`. -/
theorem kWeight_apply (w : FVec Ideal S1024x1024 .f32) (e o : Fin 1024) :
    kWeight w (ix2 e o) = wQ (mat w) o e := by
  unfold kWeight
  refine (truncf_apply (ψ := .bf16) _ bitsLt_bf16_f32 _).trans ((transpose_ix2_apply _ _ e o).trans ?_)
  unfold wQ
  have hs : broadcastInDim S1024x1024 ![] bcast_S_S1024x1024 (kScale w) (ix2 o e) = wScale (mat w) :=
    (broadcastInDim_scalar_apply _ _ _).trans (kScale_apply w)
  show Ideal.div
      (min (broadcastInDim S1024x1024 ![] bcast_S_S1024x1024 (id (constant (F := Ideal) S_ .f32 0x3F800000#32)) (ix2 o e))
        (max (broadcastInDim S1024x1024 ![] bcast_S_S1024x1024 (id (constant (F := Ideal) S_ .f32 0xBF800000#32)) (ix2 o e))
          (rne (w (ix2 o e) * broadcastInDim S1024x1024 ![] bcast_S_S1024x1024 (kScale w) (ix2 o e)))))
      (broadcastInDim S1024x1024 ![] bcast_S_S1024x1024 (kScale w) (ix2 o e)) = _
  rw [hs, broadcastInDim_scalar_apply, broadcastInDim_scalar_apply]
  rfl

end

end Cert.KernelIdeal.WeightRead

end
-- ==== Proof.KGlueWeights.lean ====
/-
  The four weight operands of the kernel's program when its first region is entered.

  Before the first region the program prepares each of its four weight matrices (query, key, value, output) on the host:
  the scale from the mean absolute entry, the entries scaled, rounded, clamped to [-1, 1] and scaled back, then the
  transpose. The buffer contents at the region's entry are a fold over 25 stretches of host operations from the launch
  memory. Each prepared operand is written by seven consecutive stretches and by none after them, and the weight
  argument it is computed from is written by no stretch at all; so at the region's entry the operand is the
  preparation of that argument's launch contents.
-/
import proofs.«141461_j68564857913635_2_alg».proof.Proof.KGlue
import proofs.«141461_j68564857913635_2_alg».proof.Proof.KWeightRead

set_option maxRecDepth 16384

noncomputable section

namespace Cert.KernelIdeal.KGlue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The four prepared operands when the first region is entered -/

set_option maxHeartbeats 4000000 in
/-- The query weight's operand: the later stretches leave it alone, and the seven stretches that write it spell the
preparation of a weight matrix. -/
theorem W25_main_v12 (c : Dev nD) :
    W25 m ρ c (Proc.devRef .tc main_v12) = WeightRead.kWeight (m ((c : Thread nD τ).loc main_arg3)) := by
  iterate 18 skip_stretch main_v12
  dsimp only [W7, W6, W5, W4, W3, W2, W1, hostOps0, hostOps0_1, hostOps0_2, hostOps0_3, hostOps0_4, hostOps0_5, hostOps0_6]
  after_results_simp
  rfl

set_option maxHeartbeats 4000000 in
/-- The key weight's operand. -/
theorem W25_main_v25 (c : Dev nD) :
    W25 m ρ c (Proc.devRef .tc main_v25) = WeightRead.kWeight (m ((c : Thread nD τ).loc main_arg5)) := by
  iterate 12 skip_stretch main_v25
  dsimp only [W13, W12, W11, W10, W9, W8, W7, hostOps0_6, hostOps0_7, hostOps0_8, hostOps0_9, hostOps0_10, hostOps0_11, hostOps0_12]
  after_results_simp
  rfl

set_option maxHeartbeats 4000000 in
/-- The value weight's operand. -/
theorem W25_main_v38 (c : Dev nD) :
    W25 m ρ c (Proc.devRef .tc main_v38) = WeightRead.kWeight (m ((c : Thread nD τ).loc main_arg7)) := by
  iterate 6 skip_stretch main_v38
  dsimp only [W19, W18, W17, W16, W15, W14, W13, hostOps0_12, hostOps0_13, hostOps0_14, hostOps0_15, hostOps0_16, hostOps0_17, hostOps0_18]
  after_results_simp
  rfl

set_option maxHeartbeats 4000000 in
/-- The output weight's operand. -/
theorem W25_main_v51 (c : Dev nD) :
    W25 m ρ c (Proc.devRef .tc main_v51) = WeightRead.kWeight (m ((c : Thread nD τ).loc main_arg11)) := by
  dsimp only [W25, W24, W23, W22, W21, W20, W19, hostOps0_18, hostOps0_19, hostOps0_20, hostOps0_21, hostOps0_22, hostOps0_23, hostOps0_24]
  after_results_simp
  rfl

end Cert.KernelIdeal.KGlue

end
-- ==== Proof.KShapes.lean ====
/-
  What each of the kernel program's three regions leaves in its result arrays, as functions of the arrays the region
  reads, index by index — stated over literal shapes and free of any program.

  * The first region runs three quantized linear layers.  Its weight operand holds the quantized matrix transposed, so
    entry `(e, o)` of the stored array is the weight of output column `o` against input `e`.
  * The second region mixes the 16 heads of each token; its arrays are the rows re-laid as [4, 8192, 16, 64].
  * The third region normalizes each row, quantizes it and applies the last linear layer.
-/
import proofs.«141461_j68564857913635_2_alg».proof.Proof.Spec

noncomputable section

namespace Cert.BitAttn

open Idealize.ShloMosaic Idealize.ShloMosaic.ValueIdx

/-- Arrays of tokens, of token heads, of matrix entries and of row entries. -/
abbrev A3 : Type := (⟨3, ![4, 8192, 1024]⟩ : Shape).Idx → EReal
abbrev A4 : Type := (⟨4, ![4, 8192, 16, 64]⟩ : Shape).Idx → EReal
abbrev A2 : Type := (⟨2, ![1024, 1024]⟩ : Shape).Idx → EReal
abbrev A1 : Type := (⟨1, ![1024]⟩ : Shape).Idx → EReal

/-- A result array of the first region: row `(b, n)` is the quantized row `(b, n)` of `x` through the linear layer whose
    quantized weight `wt` is stored transposed. -/
def G0 (x : A3) (wt : A2) (b : A1) : A3 :=
  fun i => lin (actQ (row3 x (i 0) (i 1))) (fun o e => wt (ix2 e o)) (vec b) (i 2)

/-- The result array of the second region: token `(b, n)`'s 16 heads of 64, mixed. -/
def G1 (q k v : A4) : A4 :=
  fun i => mixHead (ofHeads fun h d => q (ix4 (i 0) (i 1) h d)) (ofHeads fun h d => k (ix4 (i 0) (i 1) h d))
    (ofHeads fun h d => v (ix4 (i 0) (i 1) h d)) (i 2) (i 3)

/-- The result array of the third region: row `(b, n)` is the normalized, quantized row `(b, n)` of `x` through the
    linear layer whose quantized weight `wt` is stored transposed. -/
def G2 (x : A3) (g b : A1) (wt : A2) (bo : A1) : A3 :=
  fun i => lin (actQ (norm (row3 x (i 0) (i 1)) (vec g) (vec b))) (fun o e => wt (ix2 e o)) (vec bo) (i 2)

end Cert.BitAttn

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.PayCommon.lean ====
/-
  Steps the linear-layer bodies of the program share, each read at an index given by its coordinates.

  A block of `a` rows of 1024 numbers is worked on row by row.  A per-row quantity (a row's largest absolute entry, a
  row's sum) is computed as a vector of length `a`, reshaped to a column `[a, 1]`, and spread back over the 1024
  columns: read at `(r, e)` it is the quantity of row `r`.  The product of an `[a, 1024]` block by the `[1024, 1024]`
  weight block, accumulated into zeros, is at `(r, o)` the sum over `e` of block `(r, e)` times weight `(e, o)`; the
  bias, a vector of length 1024 reshaped to one row and spread over the `a` rows, adds its entry `o`.
-/
import Idealize.ShloMosaic.PureOps.Ideal.Laws
import Idealize.ShloMosaic.Lib.ValueLayout
import proofs.«141461_j68564857913635_2_alg».proof.Proof.Spec
import proofs.«141461_j68564857913635_2_alg».proof.Proof.LibPlainMatmul

noncomputable section

namespace Cert.KernelIdeal.Pay

open Idealize.ShloMosaic Idealize.ShloMosaic.ValueIdx Cert.BitAttn

/-! ## Offsets that are all zero, and three pointwise operations read at an index -/

/-- The offsets of a load or store of a whole rank-3 buffer are the zero function. -/
theorem off3_zero : (![0, 0, 0] : Fin 3 → Nat) = fun _ => 0 := funext fun a => by fin_cases a <;> rfl
/-- The offsets of a load of a whole rank-2 buffer are the zero function. -/
theorem off2_zero : (![0, 0] : Fin 2 → Nat) = fun _ => 0 := funext fun a => by fin_cases a <;> rfl
/-- The offset of a load of a whole rank-1 buffer is the zero function. -/
theorem off1_zero : (![0] : Fin 1 → Nat) = fun _ => 0 := funext fun a => by fin_cases a <;> rfl

section Pointwise
variable {s : Shape} {φ : FTy}

/-- Rounding to the nearest integer, ties to even, at an index rounds the element. -/
theorem roundeven_apply (a : FVec Ideal s φ) (i : s.Idx) : roundeven a i = Ideal.liftRound Ideal.roundHalfEven (a i) := rfl
/-- An absolute value at an index is the larger of the element and its negation. -/
theorem absf_apply (a : FVec Ideal s φ) (i : s.Idx) : absf a i = max (a i) (-(a i)) := rfl
/-- A reciprocal square root at an index is the element's. -/
theorem rsqrt_apply (a : FVec Ideal s φ) (i : s.Idx) : rsqrt a i = Ideal.rsqrt (a i) := rfl

end Pointwise

/-! ## The two column forms of a per-row quantity -/

section Layout
variable {α : Type}

/-- A vector of length `a` reshaped to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's maximum and a row's sum -/

/-- The maximum over the columns of an `[a, 1024]` block, started from minus infinity, read at row `r`: the fold of
    `max` over the row's 1024 entries. -/
theorem rowMax_apply {a : ℕ} (v : FVec Ideal ⟨2, ![a, 1024]⟩ .f32) (h : (⟨2, ![a, 1024]⟩ : Shape).Reduces [1] ⟨1, ![a]⟩)
    (hφ : FKind.Formats .f32) (hacc : (0xFF800000#32 : BitVec 32) = 0xFF800000#32) (r : Fin a) :
    multiReduction .maximumf [1] ⟨1, ![a]⟩ v 0xFF800000#32 h hφ hacc (ix1 r)
      = (Finset.univ : Finset (Fin 1024)).fold max cNegInf (fun e => v (ix2 r e)) := by
  refine (Ideal.multiReduction_maximumf_single v 0xFF800000#32 h hφ hacc (ix1 r)).trans ?_
  show (Finset.univ : Finset (Fin 1024)).fold max (Ideal.ofBits .f32 0xFF800000#32) (fun e => v (h.lift (ix1 r) e)) = _
  refine congrArg (fun f => (Finset.univ : Finset (Fin 1024)).fold max cNegInf f)
    (funext fun e => congrArg v (funext fun ax => ?_))
  match ax with
  | ⟨0, _⟩ => exact Fin.ext rfl
  | ⟨1, _⟩ => exact Fin.ext rfl

/-- The sum over the columns of an `[a, 1024]` block read at row `r`: the sum of the row's 1024 entries. -/
theorem rowSum_apply {a : ℕ} (v : FVec Ideal ⟨2, ![a, 1024]⟩ .f32) (h : (⟨2, ![a, 1024]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ e : Fin 1024, v (ix2 r e) := by
  refine (Ideal.multiReduction_add_single v 0x00000000#32 h hφ hacc (ix1 r)).trans ?_
  show ∑ e : Fin 1024, v (h.lift (ix1 r) e) = _
  refine Finset.sum_congr rfl fun e _ => congrArg v (funext fun ax => ?_)
  match ax with
  | ⟨0, _⟩ => exact Fin.ext rfl
  | ⟨1, _⟩ => exact Fin.ext rfl

end Cert.KernelIdeal.Pay

end
-- ==== Proof.PayLinear0.lean ====
/-
  What the first region's body stores, read at an index.

  The body works on a block of 256 tokens.  Each of the query, key and value rows is quantized to 8 bits by its own
  scale (127 over the row's largest absolute entry, that entry floored at a small constant; round, clamp to
  [-128, 127], scale back), multiplied by the layer's weight block, which is stored with the input coordinate first,
  and the bias is added.  Entry `(r, o)` of the stored block is therefore the linear layer `lin` of the quantized row `r`
  at column `o`.
-/
import proofs.«141461_j68564857913635_2_alg».proof.Proof.Gen.KernelIdeal.Frame
import proofs.«141461_j68564857913635_2_alg».proof.Proof.PayCommon

noncomputable section

namespace Cert.KernelIdeal.Pay

open Idealize.ShloMosaic Idealize.ShloMosaic.ValueIdx Cert.BitAttn

/-! ## The quantized block -/

/-- The quantized query block at `(r, e)`: entry `e` of row `r` quantized by that row's own scale. -/
theorem quant0_apply (v0 : Vec Ideal S1x256x1024 .f32) (r : Fin 256) (e : Fin 1024) :
    Gen.k0_pay2 (F := Ideal) v0 (ix2 r e) = actQ (fun e => v0 (ix3 (0 : Fin 1) r e)) e := by
  unfold Gen.k0_pay2
  simp only [truncf_apply, divf_apply, minimumf_apply, maximumf_apply, broadcast_apply, mulf_apply, roundeven_apply,
    broadcastTo_a1_ab_apply, shapeCast_1ab_ab_apply, shapeCast_a_a1_apply]
  rw [rowMax_apply]
  simp only [absf_apply, shapeCast_1ab_ab_apply]
  rfl

/-- The key block is quantized by the same operations … -/
theorem quant1_apply (v0 : Vec Ideal S1x256x1024 .f32) (r : Fin 256) (e : Fin 1024) :
    Gen.k0_pay3 (F := Ideal) v0 (ix2 r e) = actQ (fun e => v0 (ix3 (0 : Fin 1) r e)) e :=
  quant0_apply v0 r e

/-- … and so is the value block. -/
theorem quant2_apply (v0 : Vec Ideal S1x256x1024 .f32) (r : Fin 256) (e : Fin 1024) :
    Gen.k0_pay4 (F := Ideal) v0 (ix2 r e) = actQ (fun e => v0 (ix3 (0 : Fin 1) r e)) e :=
  quant0_apply v0 r e

/-! ## The product with the weight block, plus the bias -/

/-- The query layer's stored block at `(r, o)`: the sum over `e` of the quantized block at `(r, e)` times the weight
    block at `(e, o)`, plus the bias at `o`. -/
theorem lin0_apply (q : FVec Ideal S256x1024 .bf16) (w : Vec Ideal S1024x1024 .bf16) (b : Vec Ideal S1024 .f32)
    (r : Fin 256) (o : Fin 1024) :
    Gen.k0_pay5 (F := Ideal) q w b (ix3 (0 : Fin 1) r o) = (∑ e : Fin 1024, q (ix2 r e) * w (ix2 e o)) + b (ix1 o) := by
  unfold Gen.k0_pay5
  simp only [shapeCast_ab_1ab_apply, addf_apply, broadcastTo_1b_ab_apply, shapeCast_a_1a_apply, shapeCast_self]
  exact congrArg (· + b (ix1 o))
    (Cert.PlainMatmul.matmul_zero_apply 256 1024 1024 (φ₁ := .bf16) (φ₂ := .bf16) none q w r o)

/-- The key layer's stored block is the same operations … -/
theorem lin1_apply (q : FVec Ideal S256x1024 .bf16) (w : Vec Ideal S1024x1024 .bf16) (b : Vec Ideal S1024 .f32)
    (r : Fin 256) (o : Fin 1024) :
    Gen.k0_pay6 (F := Ideal) q w b (ix3 (0 : Fin 1) r o) = (∑ e : Fin 1024, q (ix2 r e) * w (ix2 e o)) + b (ix1 o) :=
  lin0_apply q w b r o

/-- … and so is the value layer's. -/
theorem lin2_apply (q : FVec Ideal S256x1024 .bf16) (w : Vec Ideal S1024x1024 .bf16) (b : Vec Ideal S1024 .f32)
    (r : Fin 256) (o : Fin 1024) :
    Gen.k0_pay1 (F := Ideal) q w b (ix3 (0 : Fin 1) r o) = (∑ e : Fin 1024, q (ix2 r e) * w (ix2 e o)) + b (ix1 o) :=
  lin0_apply q w b r o

/-! ## The three stored blocks -/

/-- The query layer's block after the body, at `(0, r, o)`: the linear layer of the quantized query row `r` at column
    `o`, the weight read with its input coordinate first. -/
theorem out0_9_apply (x0 x1 x2 : Vec Ideal S1x256x1024 .f32) (x3 x4 x5 : Vec Ideal S1024x1024 .bf16)
    (x6 x7 x8 : Vec Ideal S1024 .f32) (r : Fin 256) (o : Fin 1024) :
    Gen.out0_9 (F := Ideal) x0 x1 x2 x3 x4 x5 x6 x7 x8 (ix3 (0 : Fin 1) r o)
      = Cert.BitAttn.lin (Cert.BitAttn.actQ fun e => x0 (ix3 (0 : Fin 1) r e)) (fun o e => x3 (ix2 e o))
          (fun o => x6 (ix1 o)) o := by
  unfold Gen.out0_9
  rw [View.canon_unit_zero off3_zero]
  simp only [View.ld_unit_zero (S := S1x256x1024) off3_zero, View.ld_unit_zero (S := S1024x1024) off2_zero,
    View.ld_unit_zero (S := S1024) off1_zero]
  refine (lin0_apply _ x3 x6 r o).trans ?_
  unfold Cert.BitAttn.lin
  exact congrArg (· + x6 (ix1 o)) (Finset.sum_congr rfl fun e _ => congrArg (· * x3 (ix2 e o)) (quant0_apply x0 r e))

/-- The key layer's block after the body, at `(0, r, o)`. -/
theorem out0_10_apply (x0 x1 x2 : Vec Ideal S1x256x1024 .f32) (x3 x4 x5 : Vec Ideal S1024x1024 .bf16)
    (x6 x7 x8 : Vec Ideal S1024 .f32) (r : Fin 256) (o : Fin 1024) :
    Gen.out0_10 (F := Ideal) x0 x1 x2 x3 x4 x5 x6 x7 x8 (ix3 (0 : Fin 1) r o)
      = Cert.BitAttn.lin (Cert.BitAttn.actQ fun e => x1 (ix3 (0 : Fin 1) r e)) (fun o e => x4 (ix2 e o))
          (fun o => x7 (ix1 o)) o := by
  unfold Gen.out0_10
  rw [View.canon_unit_zero off3_zero]
  simp only [View.ld_unit_zero (S := S1x256x1024) off3_zero, View.ld_unit_zero (S := S1024x1024) off2_zero,
    View.ld_unit_zero (S := S1024) off1_zero]
  refine (lin1_apply _ x4 x7 r o).trans ?_
  unfold Cert.BitAttn.lin
  exact congrArg (· + x7 (ix1 o)) (Finset.sum_congr rfl fun e _ => congrArg (· * x4 (ix2 e o)) (quant1_apply x1 r e))

/-- The value layer's block after the body, at `(0, r, o)`. -/
theorem out0_11_apply (x0 x1 x2 : Vec Ideal S1x256x1024 .f32) (x3 x4 x5 : Vec Ideal S1024x1024 .bf16)
    (x6 x7 x8 : Vec Ideal S1024 .f32) (r : Fin 256) (o : Fin 1024) :
    Gen.out0_11 (F := Ideal) x0 x1 x2 x3 x4 x5 x6 x7 x8 (ix3 (0 : Fin 1) r o)
      = Cert.BitAttn.lin (Cert.BitAttn.actQ fun e => x2 (ix3 (0 : Fin 1) r e)) (fun o e => x5 (ix2 e o))
          (fun o => x8 (ix1 o)) o := by
  unfold Gen.out0_11
  rw [View.canon_unit_zero off3_zero]
  simp only [View.ld_unit_zero (S := S1x256x1024) off3_zero, View.ld_unit_zero (S := S1024x1024) off2_zero,
    View.ld_unit_zero (S := S1024) off1_zero]
  refine (lin2_apply _ x5 x8 r o).trans ?_
  unfold Cert.BitAttn.lin
  exact congrArg (· + x8 (ix1 o)) (Finset.sum_congr rfl fun e _ => congrArg (· * x5 (ix2 e o)) (quant2_apply x2 r e))

end Cert.KernelIdeal.Pay

end
-- ==== Proof.KBlocks0.lean ====
/-
  The first region's three result arrays.  The region's grid is 4 × 32; at point (b, j) each row operand and each
  result is the block of 256 rows [256 j, 256 j + 256) of batch b, while the three quantized weights and the three biases
  are whole at every point.  What the body leaves in a result block at row r, column o is the quantized linear layer
  of the operand's row; since the operand's block and the result's block are the same rectangle of their arrays, that
  is the function `G0` of the ARRAYS at the entry's array index.  The 128 blocks tile each array (row n of batch b lies
  in block (b, n / 256)), so after the region each result array holds `G0` everywhere.
-/
import proofs.«141461_j68564857913635_2_alg».proof.Proof.Gen.KernelIdeal.Frame
import proofs.«141461_j68564857913635_2_alg».proof.Proof.KShapes
import proofs.«141461_j68564857913635_2_alg».proof.Proof.PayLinear0
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.BitAttn

variable (V : (c : Dev nD) → (b : Ref sig .tc) → Buf (Elt Ideal) ((c : Thread nD τ).loc b))

/-! ## Output window 9 of the first region -/

/-- The index maps over the grid, for output window 9: the row operand's block moves with the result's block, the
    weight and the bias stay at their one block, and the result's block indices stay in range. -/
theorem idx_facts0_9 : ∀ t : Fin cfg0.N,
    win0_0.index t (0 : Fin 3) = win0_9.index t (0 : Fin 3) ∧ win0_0.index t (1 : Fin 3) = win0_9.index t (1 : Fin 3)
    ∧ win0_0.index t (2 : Fin 3) = 0 ∧ win0_9.index t (2 : Fin 3) = 0
    ∧ win0_9.index t (0 : Fin 3) ≤ 3 ∧ win0_9.index t (1 : Fin 3) ≤ 31
    ∧ win0_3.index t (0 : Fin 2) = 0 ∧ win0_3.index t (1 : Fin 2) = 0 ∧ win0_6.index t (0 : Fin 1) = 0 :=
  (by decide +kernel : ∀ t : Fin grid0.N, _)

/-- Every block of the result array is some point's. -/
theorem idx_onto0_9 : ∀ (q0 : Fin 4) (q1 : Fin 32), ∃ t : Fin cfg0.N, win0_9.index t = ![q0.val, q1.val, 0] :=
  (by decide +kernel : ∀ (q0 : Fin 4) (q1 : Fin 32), ∃ t : Fin grid0.N, win0_9.index t = ![q0.val, q1.val, 0])

/-- What point `t` writes back through window 9 is block `t` of `G0` of the arrays as the region finds them. -/
theorem flushed0_9_eq (c : Dev nD) (t : Fin cfg0.N) :
    (dat0 V c).flushed 9 t = ((cfg0.win 9).blk t).view.read (Elt Ideal) (G0 (V c main_arg0) (V c main_v12) (V c main_arg4)) := by
  show (cfg0.win 9).cut (grid0.coords t) ((dat0 V c).after 9 t) = _
  rw [after0_9]
  obtain ⟨e0, e1, e2, e3, e4, e5, e6, e7, e8⟩ := idx_facts0_9 t
  funext y
  obtain ⟨z, r, o, rfl⟩ : ∃ (z : Fin 1) (r : Fin 256) (o : Fin 1024), y = ix3 z r o := ⟨y 0, y 1, y 2, eq_ix3 y⟩
  obtain rfl : z = 0 := Subsingleton.elim _ _
  show out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix3 (0 : Fin 1) r o)
    = G0 (V c main_arg0) (V c main_v12) (V c main_arg4) (((cfg0.win 9).blk t).view.emb (ix3 (0 : Fin 1) r o))
  refine (Pay.out0_9_apply (iblk0 V c 0 t) (iblk0 V c 1 t) (iblk0 V c 2 t) (iblk0 V c 3 t) (iblk0 V c 4 t) (iblk0 V c 5 t) (iblk0 V c 6 t) (iblk0 V c 7 t) (iblk0 V c 8 t) r o).trans ?_
  have hr : r.val < 256 := r.isLt
  have hb : win0_9.index t (0 : Fin 3) < 4 := by omega
  have hn : win0_9.index t (1 : Fin 3) * 256 + r.val < 8192 := by omega
  have embo : ((cfg0.win 9).blk t).view.emb (ix3 (0 : Fin 1) r o)
      = ix3 (⟨win0_9.index t (0 : Fin 3), hb⟩ : Fin 4) (⟨win0_9.index t (1 : Fin 3) * 256 + r.val, hn⟩ : Fin 8192) o := by
    funext a; apply Fin.ext
    match a with
    | ⟨0, _⟩ => show win0_9.index t (0 : Fin 3) * 1 + 1 * (0 : Fin 1).val = win0_9.index t (0 : Fin 3); simp
    | ⟨1, _⟩ => show win0_9.index t (1 : Fin 3) * 256 + 1 * r.val = win0_9.index t (1 : Fin 3) * 256 + r.val; omega
    | ⟨2, _⟩ => show win0_9.index t (2 : Fin 3) * 1024 + 1 * o.val = o.val; omega
  have fx : (fun e : Fin 1024 => iblk0 V c 0 t (ix3 (0 : Fin 1) r e))
      = row3 (V c main_arg0) (⟨win0_9.index t (0 : Fin 3), hb⟩ : Fin 4) (⟨win0_9.index t (1 : Fin 3) * 256 + r.val, hn⟩ : Fin 8192) := by
    funext e
    show V c main_arg0 (((cfg0.win 0).blk t).view.emb (ix3 (0 : Fin 1) r e)) = V c main_arg0 (ix3 _ _ e)
    refine congrArg (V c main_arg0) ?_
    funext a; apply Fin.ext
    match a with
    | ⟨0, _⟩ => show win0_0.index t (0 : Fin 3) * 1 + 1 * (0 : Fin 1).val = win0_9.index t (0 : Fin 3); simp [e0]
    | ⟨1, _⟩ => show win0_0.index t (1 : Fin 3) * 256 + 1 * r.val = win0_9.index t (1 : Fin 3) * 256 + r.val; omega
    | ⟨2, _⟩ => show win0_0.index t (2 : Fin 3) * 1024 + 1 * e.val = e.val; omega
  have fw : (fun (o e : Fin 1024) => iblk0 V c 3 t (ix2 e o)) = fun o e => V c main_v12 (ix2 e o) := by
    funext o e
    show V c main_v12 (((cfg0.win 3).blk t).view.emb (ix2 e o)) = V c main_v12 (ix2 e o)
    refine congrArg (V c main_v12) ?_
    funext a; apply Fin.ext
    match a with
    | ⟨0, _⟩ => show win0_3.index t (0 : Fin 2) * 1024 + 1 * e.val = e.val; omega
    | ⟨1, _⟩ => show win0_3.index t (1 : Fin 2) * 1024 + 1 * o.val = o.val; omega
  have fb : (fun o : Fin 1024 => iblk0 V c 6 t (ix1 o)) = vec (V c main_arg4) := by
    funext e
    show V c main_arg4 (((cfg0.win 6).blk t).view.emb (ix1 e)) = V c main_arg4 (ix1 e)
    refine congrArg (V c main_arg4) ?_
    funext a; apply Fin.ext
    match a with
    | ⟨0, _⟩ => show win0_6.index t (0 : Fin 1) * 1024 + 1 * e.val = e.val; omega
  rw [embo, fx, fw, fb]
  rfl

/-- An index of the result array lies in point `t`'s block iff each coordinate is in the block's range. -/
theorem mem_blk0_9 (t : Fin cfg0.N) (i : S4x8192x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v52_0).slice (win0_9.rect t)).set ↔ _
  rw [View.set_slice_whole, Rect.mem_set_unit]
  exact Iff.rfl

/-- The blocks cover the result array: row `n` of batch `b` lies in the block of point `(b, n / 256)`. -/
theorem cover0_9 (i : S4x8192x1024.Idx) : ∃ t : Fin cfg0.N, (cfg0.win 9).flush t = true ∧ i ∈ ((cfg0.win 9).blk t).view.set := by
  have hi0 : (i 0).val < 4 := (i 0).isLt
  have hi1 : (i 1).val < 8192 := (i 1).isLt
  have hi2 : (i 2).val < 1024 := (i 2).isLt
  obtain ⟨t, ht⟩ := idx_onto0_9 ⟨(i 0).val, hi0⟩ ⟨(i 1).val / 256, by omega⟩
  have q0 : win0_9.index t (0 : Fin 3) = (i 0).val := congrFun ht 0
  have q1 : win0_9.index t (1 : Fin 3) = (i 1).val / 256 := congrFun ht 1
  have q2 : win0_9.index t (2 : Fin 3) = 0 := congrFun ht 2
  refine ⟨t, flush0_9 t, ?_⟩
  rw [mem_blk0_9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- The array behind output window 9 after the first region. -/
theorem final0_9 (c : Dev nD) : (dat0 V c).arrAt 9 cfg0.N = G0 (V c main_arg0) (V c main_v12) (V c main_arg4) :=
  (dat0 V c).arrAt_eq_of_cover 9 _ (fun t _ => flushed0_9_eq V c t) cover0_9

/-! ## Output window 10 of the first region -/

/-- The index maps over the grid, for output window 10: the row operand's block moves with the result's block, the
    weight and the bias stay at their one block, and the result's block indices stay in range. -/
theorem idx_facts0_10 : ∀ t : Fin cfg0.N,
    win0_1.index t (0 : Fin 3) = win0_10.index t (0 : Fin 3) ∧ win0_1.index t (1 : Fin 3) = win0_10.index t (1 : Fin 3)
    ∧ win0_1.index t (2 : Fin 3) = 0 ∧ win0_10.index t (2 : Fin 3) = 0
    ∧ win0_10.index t (0 : Fin 3) ≤ 3 ∧ win0_10.index t (1 : Fin 3) ≤ 31
    ∧ win0_4.index t (0 : Fin 2) = 0 ∧ win0_4.index t (1 : Fin 2) = 0 ∧ win0_7.index t (0 : Fin 1) = 0 :=
  (by decide +kernel : ∀ t : Fin grid0.N, _)

/-- Every block of the result array is some point's. -/
theorem idx_onto0_10 : ∀ (q0 : Fin 4) (q1 : Fin 32), ∃ t : Fin cfg0.N, win0_10.index t = ![q0.val, q1.val, 0] :=
  (by decide +kernel : ∀ (q0 : Fin 4) (q1 : Fin 32), ∃ t : Fin grid0.N, win0_10.index t = ![q0.val, q1.val, 0])

/-- What point `t` writes back through window 10 is block `t` of `G0` of the arrays as the region finds them. -/
theorem flushed0_10_eq (c : Dev nD) (t : Fin cfg0.N) :
    (dat0 V c).flushed 10 t = ((cfg0.win 10).blk t).view.read (Elt Ideal) (G0 (V c main_arg1) (V c main_v25) (V c main_arg6)) := by
  show (cfg0.win 10).cut (grid0.coords t) ((dat0 V c).after 10 t) = _
  rw [after0_10]
  obtain ⟨e0, e1, e2, e3, e4, e5, e6, e7, e8⟩ := idx_facts0_10 t
  funext y
  obtain ⟨z, r, o, rfl⟩ : ∃ (z : Fin 1) (r : Fin 256) (o : Fin 1024), y = ix3 z r o := ⟨y 0, y 1, y 2, eq_ix3 y⟩
  obtain rfl : z = 0 := Subsingleton.elim _ _
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (ix3 (0 : Fin 1) r o)
    = G0 (V c main_arg1) (V c main_v25) (V c main_arg6) (((cfg0.win 10).blk t).view.emb (ix3 (0 : Fin 1) r o))
  refine (Pay.out0_10_apply (iblk0 V c 0 t) (iblk0 V c 1 t) (iblk0 V c 2 t) (iblk0 V c 3 t) (iblk0 V c 4 t) (iblk0 V c 5 t) (iblk0 V c 6 t) (iblk0 V c 7 t) (iblk0 V c 8 t) r o).trans ?_
  have hr : r.val < 256 := r.isLt
  have hb : win0_10.index t (0 : Fin 3) < 4 := by omega
  have hn : win0_10.index t (1 : Fin 3) * 256 + r.val < 8192 := by omega
  have embo : ((cfg0.win 10).blk t).view.emb (ix3 (0 : Fin 1) r o)
      = ix3 (⟨win0_10.index t (0 : Fin 3), hb⟩ : Fin 4) (⟨win0_10.index t (1 : Fin 3) * 256 + r.val, hn⟩ : Fin 8192) o := by
    funext a; apply Fin.ext
    match a with
    | ⟨0, _⟩ => show win0_10.index t (0 : Fin 3) * 1 + 1 * (0 : Fin 1).val = win0_10.index t (0 : Fin 3); simp
    | ⟨1, _⟩ => show win0_10.index t (1 : Fin 3) * 256 + 1 * r.val = win0_10.index t (1 : Fin 3) * 256 + r.val; omega
    | ⟨2, _⟩ => show win0_10.index t (2 : Fin 3) * 1024 + 1 * o.val = o.val; omega
  have fx : (fun e : Fin 1024 => iblk0 V c 1 t (ix3 (0 : Fin 1) r e))
      = row3 (V c main_arg1) (⟨win0_10.index t (0 : Fin 3), hb⟩ : Fin 4) (⟨win0_10.index t (1 : Fin 3) * 256 + r.val, hn⟩ : Fin 8192) := by
    funext e
    show V c main_arg1 (((cfg0.win 1).blk t).view.emb (ix3 (0 : Fin 1) r e)) = V c main_arg1 (ix3 _ _ e)
    refine congrArg (V c main_arg1) ?_
    funext a; apply Fin.ext
    match a with
    | ⟨0, _⟩ => show win0_1.index t (0 : Fin 3) * 1 + 1 * (0 : Fin 1).val = win0_10.index t (0 : Fin 3); simp [e0]
    | ⟨1, _⟩ => show win0_1.index t (1 : Fin 3) * 256 + 1 * r.val = win0_10.index t (1 : Fin 3) * 256 + r.val; omega
    | ⟨2, _⟩ => show win0_1.index t (2 : Fin 3) * 1024 + 1 * e.val = e.val; omega
  have fw : (fun (o e : Fin 1024) => iblk0 V c 4 t (ix2 e o)) = fun o e => V c main_v25 (ix2 e o) := by
    funext o e
    show V c main_v25 (((cfg0.win 4).blk t).view.emb (ix2 e o)) = V c main_v25 (ix2 e o)
    refine congrArg (V c main_v25) ?_
    funext a; apply Fin.ext
    match a with
    | ⟨0, _⟩ => show win0_4.index t (0 : Fin 2) * 1024 + 1 * e.val = e.val; omega
    | ⟨1, _⟩ => show win0_4.index t (1 : Fin 2) * 1024 + 1 * o.val = o.val; omega
  have fb : (fun o : Fin 1024 => iblk0 V c 7 t (ix1 o)) = vec (V c main_arg6) := by
    funext e
    show V c main_arg6 (((cfg0.win 7).blk t).view.emb (ix1 e)) = V c main_arg6 (ix1 e)
    refine congrArg (V c main_arg6) ?_
    funext a; apply Fin.ext
    match a with
    | ⟨0, _⟩ => show win0_7.index t (0 : Fin 1) * 1024 + 1 * e.val = e.val; omega
  rw [embo, fx, fw, fb]
  rfl

/-- An index of the result array lies in point `t`'s block iff each coordinate is in the block's range. -/
theorem mem_blk0_10 (t : Fin cfg0.N) (i : S4x8192x1024.Idx) :
    i ∈ ((cfg0.win 10).blk t).view.set ↔ ∀ a : Fin 3, win0_10.index t a * S1x256x1024.size a ≤ (i a).val ∧ (i a).val < win0_10.index t a * S1x256x1024.size a + S1x256x1024.size a := by
  show i ∈ ((View.whole main_v52_1).slice (win0_10.rect t)).set ↔ _
  rw [View.set_slice_whole, Rect.mem_set_unit]
  exact Iff.rfl

/-- The blocks cover the result array: row `n` of batch `b` lies in the block of point `(b, n / 256)`. -/
theorem cover0_10 (i : S4x8192x1024.Idx) : ∃ t : Fin cfg0.N, (cfg0.win 10).flush t = true ∧ i ∈ ((cfg0.win 10).blk t).view.set := by
  have hi0 : (i 0).val < 4 := (i 0).isLt
  have hi1 : (i 1).val < 8192 := (i 1).isLt
  have hi2 : (i 2).val < 1024 := (i 2).isLt
  obtain ⟨t, ht⟩ := idx_onto0_10 ⟨(i 0).val, hi0⟩ ⟨(i 1).val / 256, by omega⟩
  have q0 : win0_10.index t (0 : Fin 3) = (i 0).val := congrFun ht 0
  have q1 : win0_10.index t (1 : Fin 3) = (i 1).val / 256 := congrFun ht 1
  have q2 : win0_10.index t (2 : Fin 3) = 0 := congrFun ht 2
  refine ⟨t, flush0_10 t, ?_⟩
  rw [mem_blk0_10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

/-- The array behind output window 10 after the first region. -/
theorem final0_10 (c : Dev nD) : (dat0 V c).arrAt 10 cfg0.N = G0 (V c main_arg1) (V c main_v25) (V c main_arg6) :=
  (dat0 V c).arrAt_eq_of_cover 10 _ (fun t _ => flushed0_10_eq V c t) cover0_10

/-! ## Output window 11 of the first region -/

/-- The index maps over the grid, for output window 11: the row operand's block moves with the result's block, the
    weight and the bias stay at their one block, and the result's block indices stay in range. -/
theorem idx_facts0_11 : ∀ t : Fin cfg0.N,
    win0_2.index t (0 : Fin 3) = win0_11.index t (0 : Fin 3) ∧ win0_2.index t (1 : Fin 3) = win0_11.index t (1 : Fin 3)
    ∧ win0_2.index t (2 : Fin 3) = 0 ∧ win0_11.index t (2 : Fin 3) = 0
    ∧ win0_11.index t (0 : Fin 3) ≤ 3 ∧ win0_11.index t (1 : Fin 3) ≤ 31
    ∧ win0_5.index t (0 : Fin 2) = 0 ∧ win0_5.index t (1 : Fin 2) = 0 ∧ win0_8.index t (0 : Fin 1) = 0 :=
  (by decide +kernel : ∀ t : Fin grid0.N, _)

/-- Every block of the result array is some point's. -/
theorem idx_onto0_11 : ∀ (q0 : Fin 4) (q1 : Fin 32), ∃ t : Fin cfg0.N, win0_11.index t = ![q0.val, q1.val, 0] :=
  (by decide +kernel : ∀ (q0 : Fin 4) (q1 : Fin 32), ∃ t : Fin grid0.N, win0_11.index t = ![q0.val, q1.val, 0])

/-- What point `t` writes back through window 11 is block `t` of `G0` of the arrays as the region finds them. -/
theorem flushed0_11_eq (c : Dev nD) (t : Fin cfg0.N) :
    (dat0 V c).flushed 11 t = ((cfg0.win 11).blk t).view.read (Elt Ideal) (G0 (V c main_arg2) (V c main_v38) (V c main_arg8)) := by
  show (cfg0.win 11).cut (grid0.coords t) ((dat0 V c).after 11 t) = _
  rw [after0_11]
  obtain ⟨e0, e1, e2, e3, e4, e5, e6, e7, e8⟩ := idx_facts0_11 t
  funext y
  obtain ⟨z, r, o, rfl⟩ : ∃ (z : Fin 1) (r : Fin 256) (o : Fin 1024), y = ix3 z r o := ⟨y 0, y 1, y 2, eq_ix3 y⟩
  obtain rfl : z = 0 := Subsingleton.elim _ _
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (ix3 (0 : Fin 1) r o)
    = G0 (V c main_arg2) (V c main_v38) (V c main_arg8) (((cfg0.win 11).blk t).view.emb (ix3 (0 : Fin 1) r o))
  refine (Pay.out0_11_apply (iblk0 V c 0 t) (iblk0 V c 1 t) (iblk0 V c 2 t) (iblk0 V c 3 t) (iblk0 V c 4 t) (iblk0 V c 5 t) (iblk0 V c 6 t) (iblk0 V c 7 t) (iblk0 V c 8 t) r o).trans ?_
  have hr : r.val < 256 := r.isLt
  have hb : win0_11.index t (0 : Fin 3) < 4 := by omega
  have hn : win0_11.index t (1 : Fin 3) * 256 + r.val < 8192 := by omega
  have embo : ((cfg0.win 11).blk t).view.emb (ix3 (0 : Fin 1) r o)
      = ix3 (⟨win0_11.index t (0 : Fin 3), hb⟩ : Fin 4) (⟨win0_11.index t (1 : Fin 3) * 256 + r.val, hn⟩ : Fin 8192) o := by
    funext a; apply Fin.ext
    match a with
    | ⟨0, _⟩ => show win0_11.index t (0 : Fin 3) * 1 + 1 * (0 : Fin 1).val = win0_11.index t (0 : Fin 3); simp
    | ⟨1, _⟩ => show win0_11.index t (1 : Fin 3) * 256 + 1 * r.val = win0_11.index t (1 : Fin 3) * 256 + r.val; omega
    | ⟨2, _⟩ => show win0_11.index t (2 : Fin 3) * 1024 + 1 * o.val = o.val; omega
  have fx : (fun e : Fin 1024 => iblk0 V c 2 t (ix3 (0 : Fin 1) r e))
      = row3 (V c main_arg2) (⟨win0_11.index t (0 : Fin 3), hb⟩ : Fin 4) (⟨win0_11.index t (1 : Fin 3) * 256 + r.val, hn⟩ : Fin 8192) := by
    funext e
    show V c main_arg2 (((cfg0.win 2).blk t).view.emb (ix3 (0 : Fin 1) r e)) = V c main_arg2 (ix3 _ _ e)
    refine congrArg (V c main_arg2) ?_
    funext a; apply Fin.ext
    match a with
    | ⟨0, _⟩ => show win0_2.index t (0 : Fin 3) * 1 + 1 * (0 : Fin 1).val = win0_11.index t (0 : Fin 3); simp [e0]
    | ⟨1, _⟩ => show win0_2.index t (1 : Fin 3) * 256 + 1 * r.val = win0_11.index t (1 : Fin 3) * 256 + r.val; omega
    | ⟨2, _⟩ => show win0_2.index t (2 : Fin 3) * 1024 + 1 * e.val = e.val; omega
  have fw : (fun (o e : Fin 1024) => iblk0 V c 5 t (ix2 e o)) = fun o e => V c main_v38 (ix2 e o) := by
    funext o e
    show V c main_v38 (((cfg0.win 5).blk t).view.emb (ix2 e o)) = V c main_v38 (ix2 e o)
    refine congrArg (V c main_v38) ?_
    funext a; apply Fin.ext
    match a with
    | ⟨0, _⟩ => show win0_5.index t (0 : Fin 2) * 1024 + 1 * e.val = e.val; omega
    | ⟨1, _⟩ => show win0_5.index t (1 : Fin 2) * 1024 + 1 * o.val = o.val; omega
  have fb : (fun o : Fin 1024 => iblk0 V c 8 t (ix1 o)) = vec (V c main_arg8) := by
    funext e
    show V c main_arg8 (((cfg0.win 8).blk t).view.emb (ix1 e)) = V c main_arg8 (ix1 e)
    refine congrArg (V c main_arg8) ?_
    funext a; apply Fin.ext
    match a with
    | ⟨0, _⟩ => show win0_8.index t (0 : Fin 1) * 1024 + 1 * e.val = e.val; omega
  rw [embo, fx, fw, fb]
  rfl

/-- An index of the result array lies in point `t`'s block iff each coordinate is in the block's range. -/
theorem mem_blk0_11 (t : Fin cfg0.N) (i : S4x8192x1024.Idx) :
    i ∈ ((cfg0.win 11).blk t).view.set ↔ ∀ a : Fin 3, win0_11.index t a * S1x256x1024.size a ≤ (i a).val ∧ (i a).val < win0_11.index t a * S1x256x1024.size a + S1x256x1024.size a := by
  show i ∈ ((View.whole main_v52_2).slice (win0_11.rect t)).set ↔ _
  rw [View.set_slice_whole, Rect.mem_set_unit]
  exact Iff.rfl

/-- The blocks cover the result array: row `n` of batch `b` lies in the block of point `(b, n / 256)`. -/
theorem cover0_11 (i : S4x8192x1024.Idx) : ∃ t : Fin cfg0.N, (cfg0.win 11).flush t = true ∧ i ∈ ((cfg0.win 11).blk t).view.set := by
  have hi0 : (i 0).val < 4 := (i 0).isLt
  have hi1 : (i 1).val < 8192 := (i 1).isLt
  have hi2 : (i 2).val < 1024 := (i 2).isLt
  obtain ⟨t, ht⟩ := idx_onto0_11 ⟨(i 0).val, hi0⟩ ⟨(i 1).val / 256, by omega⟩
  have q0 : win0_11.index t (0 : Fin 3) = (i 0).val := congrFun ht 0
  have q1 : win0_11.index t (1 : Fin 3) = (i 1).val / 256 := congrFun ht 1
  have q2 : win0_11.index t (2 : Fin 3) = 0 := congrFun ht 2
  refine ⟨t, flush0_11 t, ?_⟩
  rw [mem_blk0_11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 1024 ≤ (i 2).val ∧ (i 2).val < win0_11.index t (2 : Fin 3) * 1024 + 1024; omega

/-- The array behind output window 11 after the first region. -/
theorem final0_11 (c : Dev nD) : (dat0 V c).arrAt 11 cfg0.N = G0 (V c main_arg2) (V c main_v38) (V c main_arg8) :=
  (dat0 V c).arrAt_eq_of_cover 11 _ (fun t _ => flushed0_11_eq V c t) cover0_11

end Cert.KernelIdeal.KBlocks

end
-- ==== Proof.PayMixLayout.lean ====
/-
  Layout and contraction operations of the head-mixing body, each read at an index given by its coordinates.

  Two layout steps: a trailing unit axis added to an `[a, b]` array, and an `[a, b, 1]` array copied along its last axis.
  Two reductions over the last axis of an `[a, b, c]` array: the maximum, as a fold of `max` from the starting word's
  value, and the sum. Two products taken token by token (the leading axis is carried along, not summed): the scores'
  product, which sums over the 64 positions of a head, and the mixing product, which sums over the 16 heads.
-/
import proofs.«141461_j68564857913635_2_alg».proof.Proof.Gen.KernelIdeal
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, g)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (g : Fin c) :
    broadcastTo ⟨3, ![a, b, c]⟩ v h (ix3 i j g) = v (ix3 i j (0 : Fin 1)) := by
  refine broadcastTo_apply v h (ix3 i j g) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index of an `[a, b, c]` array over `(i, j)` with `g` inserted on the last axis is `(i, j, g)`. -/
theorem lift_last {a b c : ℕ} (h : (⟨3, ![a, b, c]⟩ : Shape).Reduces [2] ⟨2, ![a, b]⟩) (i : Fin a) (j : Fin b) (g : Fin c) :
    h.lift (ix2 i j) g = ix3 i j g :=
  funext fun ax => Fin.ext (by
    match ax with
    | ⟨0, _⟩ => rfl
    | ⟨1, _⟩ => rfl
    | ⟨2, _⟩ => rfl)

/-- A maximum over the last axis of an `[a, b, c]` array, started from the word `acc`, reads at `(i, j)` the fold of
`max` from that word's value over the last coordinate. -/
theorem lastMax_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun g => src (ix3 i j g)) :=
  (Ideal.multiReduction_maximumf_single src acc h hφ hacc (ix2 i j)).trans
    (congrArg (fun f : Fin c → EReal => (Finset.univ : Finset (Fin c)).fold max (Ideal.ofBits .f32 acc) f)
      (funext fun g => congrArg src (lift_last h i j g)))

/-- A sum over the last axis of an `[a, b, c]` array reads at `(i, j)` the sum over the last coordinate. -/
theorem lastSum_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ g : Fin c, src (ix3 i j g) :=
  (Ideal.multiReduction_add_single src acc h hφ hacc (ix2 i j)).trans
    (Finset.sum_congr rfl fun g _ => congrArg src (lift_last h i j g))

/-- The scores' product, token by token: entry `(r, h, g)` of the product of an `[n, h, d]` by an `[n, g, d]` array over
`d`, into zeros, is the sum over `d` of the left operand at `(r, h, d)` times the right operand at `(r, g, d)`. -/
theorem scores_apply {φ₁ φ₂ : FTy} (prec : Option ContractPrecision)
    (lhs : FVec Ideal S512x16x64 φ₁) (rhs : FVec Ideal S512x16x64 φ₂) (r : Fin 512) (h g : Fin 16) :
    FloatOps.matmul dot_S512x16x64_S512x16x64_S512x16x16_2_2_1_1_0_0 prec lhs rhs
        (constant S512x16x16 .f32 0x00000000#32) (ix3 r h g)
      = ∑ d : Fin 64, lhs (ix3 r h d) * rhs (ix3 r g d) := by
  rw [Ideal.matmul_constant_zero_apply,
    ← Equiv.sum_comp (contrEquiv1 dot_S512x16x64_S512x16x64_S512x16x16_2_2_1_1_0_0 64 rfl rfl).symm]
  refine Finset.sum_congr rfl fun d _ => ?_
  have hd := contrEquiv1_symm_val dot_S512x16x64_S512x16x64_S512x16x16_2_2_1_1_0_0 64 rfl rfl d
  have el : dot_S512x16x64_S512x16x64_S512x16x16_2_2_1_1_0_0.lhsIdx (ix3 r h g)
      ((contrEquiv1 dot_S512x16x64_S512x16x64_S512x16x16_2_2_1_1_0_0 64 rfl rfl).symm d) = ix3 r h d :=
    funext fun a => Fin.ext (by
      match a with
      | ⟨0, _⟩ => rfl
      | ⟨1, _⟩ => rfl
      | ⟨2, _⟩ => exact (dot_S512x16x64_S512x16x64_S512x16x16_2_2_1_1_0_0.lhsIdx_val_of_single rfl _ _).trans hd)
  have er : dot_S512x16x64_S512x16x64_S512x16x16_2_2_1_1_0_0.rhsIdx (ix3 r h g)
      ((contrEquiv1 dot_S512x16x64_S512x16x64_S512x16x16_2_2_1_1_0_0 64 rfl rfl).symm d) = ix3 r g d :=
    funext fun a => Fin.ext (by
      match a with
      | ⟨0, _⟩ => rfl
      | ⟨1, _⟩ => rfl
      | ⟨2, _⟩ => exact (dot_S512x16x64_S512x16x64_S512x16x16_2_2_1_1_0_0.rhsIdx_val_of_single rfl _ _).trans hd)
  rw [el, er]

/-- The mixing product, token by token: entry `(r, h, d)` of the product of an `[n, h, g]` by an `[n, g, d]` array over
`g`, into zeros, is the sum over `g` of the left operand at `(r, h, g)` times the right operand at `(r, g, d)`. -/
theorem mixProd_apply {φ₁ φ₂ : FTy} (prec : Option ContractPrecision)
    (lhs : FVec Ideal S512x16x16 φ₁) (rhs : FVec Ideal S512x16x64 φ₂) (r : Fin 512) (h : Fin 16) (d : Fin 64) :
    FloatOps.matmul dot_S512x16x16_S512x16x64_S512x16x64_2_1_1_2_0_0 prec lhs rhs
        (constant S512x16x64 .f32 0x00000000#32) (ix3 r h d)
      = ∑ g : Fin 16, lhs (ix3 r h g) * rhs (ix3 r g d) := by
  rw [Ideal.matmul_constant_zero_apply,
    ← Equiv.sum_comp (contrEquiv1 dot_S512x16x16_S512x16x64_S512x16x64_2_1_1_2_0_0 16 rfl rfl).symm]
  refine Finset.sum_congr rfl fun g _ => ?_
  have hg := contrEquiv1_symm_val dot_S512x16x16_S512x16x64_S512x16x64_2_1_1_2_0_0 16 rfl rfl g
  have el : dot_S512x16x16_S512x16x64_S512x16x64_2_1_1_2_0_0.lhsIdx (ix3 r h d)
      ((contrEquiv1 dot_S512x16x16_S512x16x64_S512x16x64_2_1_1_2_0_0 16 rfl rfl).symm g) = ix3 r h g :=
    funext fun a => Fin.ext (by
      match a with
      | ⟨0, _⟩ => rfl
      | ⟨1, _⟩ => rfl
      | ⟨2, _⟩ => exact (dot_S512x16x16_S512x16x64_S512x16x64_2_1_1_2_0_0.lhsIdx_val_of_single rfl _ _).trans hg)
  have er : dot_S512x16x16_S512x16x64_S512x16x64_2_1_1_2_0_0.rhsIdx (ix3 r h d)
      ((contrEquiv1 dot_S512x16x16_S512x16x64_S512x16x64_2_1_1_2_0_0 16 rfl rfl).symm g) = ix3 r g d :=
    funext fun a => Fin.ext (by
      match a with
      | ⟨0, _⟩ => rfl
      | ⟨1, _⟩ => exact (dot_S512x16x16_S512x16x64_S512x16x64_2_1_1_2_0_0.rhsIdx_val_of_single rfl _ _).trans hg
      | ⟨2, _⟩ => rfl)
  rw [el, er]

end Cert.KernelIdeal.Pay

end
-- ==== Proof.PayMix.lean ====
/-
  What the body of the head mixing stores, read at an index.

  The body loads one block of 512 tokens of the query, key and value arrays, each token's row of 1024 numbers laid out as
  16 heads of 64. For each token it scales the query by 1/8, takes the 16 × 16 scores of query heads against key heads
  (a sum over the 64 positions), turns each row of scores into softmax weights (shift by the row's maximum, exponentiate,
  divide by the row's sum), and weighs the value heads by them. Changes of float format are the identity on the extended
  reals, and both products accumulate into zeros, so entry `(0, r, h, d)` of the stored block is exactly the
  specification's `mixHead` of token `r`'s three rows at head `h`, position `d`.
-/
import proofs.«141461_j68564857913635_2_alg».proof.Proof.Gen.KernelIdeal.Frame
import proofs.«141461_j68564857913635_2_alg».proof.Proof.Spec
import proofs.«141461_j68564857913635_2_alg».proof.Proof.PayMixLayout

noncomputable section

namespace Cert.KernelIdeal.Pay

open Idealize.ShloMosaic Idealize.ShloMosaic.ValueIdx
open Cert.KernelIdeal

open Cert.BitAttn Facts₀

/-! ## The body's stages, named

The stored value is a composition of four stages: the scores of one token's query heads against its key heads, the
shift of each row of scores (its maximum), the shifted exponentials, and their quotient by the row's sum; a last product
weighs the value heads. Each stage is named here as a function of the stage before it, so that each is read at an index
once. -/

/-- The scores: the query block times 1/8, multiplied token by token against the key block over the 64 positions. -/
def scoreV (x0 x1 : Vec Ideal S1x512x16x64 .f32) : FVec Ideal S512x16x16 .f32 :=
  matmul dot_S512x16x64_S512x16x64_S512x16x16_2_2_1_1_0_0 none
    (truncf .bf16 (mulf (shapeCast S512x16x64 x0 shapeCasts_S1x512x16x64_S512x16x64)
      (broadcast S512x16x64 (Scalar.ofBits .f32 0x3E000000#32))) bitsLt_bf16_f32)
    (truncf .bf16 (shapeCast S512x16x64 x1 shapeCasts_S1x512x16x64_S512x16x64) bitsLt_bf16_f32)
    (constant S512x16x16 .f32 0x00000000#32)

/-- The shift of a score array: each row's maximum (started from minus infinity, and taken against minus infinity once
more), copied along the row. -/
def shiftV (S : FVec Ideal S512x16x16 .f32) : FVec Ideal S512x16x16 .f32 :=
  broadcastTo S512x16x16
    (shapeCast S512x16x1
      (maximumf (broadcast S512x16 (Scalar.ofBits .f32 0xFF800000#32))
        (multiReduction .maximumf [2] S512x16 S 0xFF800000#32 reduces_S512x16x16_S512x16 (.inl rfl) rfl))
      shapeCasts_S512x16_S512x16x1)
    broadcasts_S512x16x1_S512x16x16

/-- The shifted exponentials of a score array. -/
def expV (S : FVec Ideal S512x16x16 .f32) : FVec Ideal S512x16x16 .f32 := exp (subf S (shiftV S))

/-- The softmax weights of a score array: the shifted exponentials over their row's sum. -/
def softV (S : FVec Ideal S512x16x16 .f32) : FVec Ideal S512x16x16 .f32 :=
  divf (expV S)
    (broadcastTo S512x16x16
      (shapeCast S512x16x1
        (multiReduction .add [2] S512x16 (expV S) 0x00000000#32 reduces_S512x16x16_S512x16 (.inl rfl) rfl)
        shapeCasts_S512x16_S512x16x1)
      broadcasts_S512x16x1_S512x16x16)

/-- The stored value is the weights of the scores multiplied token by token against the value block. -/
theorem k1_pay1_eq (x0 x1 x2 : Vec Ideal S1x512x16x64 .f32) :
    Gen.k1_pay1 (F := Ideal) x0 x1 x2
      = shapeCast S1x512x16x64
          (matmul dot_S512x16x16_S512x16x64_S512x16x64_2_1_1_2_0_0 none
            (truncf .bf16 (softV (scoreV x0 x1)) bitsLt_bf16_f32)
            (truncf .bf16 (shapeCast S512x16x64 x2 shapeCasts_S1x512x16x64_S512x16x64) bitsLt_bf16_f32)
            (constant S512x16x64 .f32 0x00000000#32))
          shapeCasts_S512x16x64_S1x512x16x64 := rfl

/-! ## Each stage at an index -/

/-- The score of token `r`'s query head `h` against its key head `g`. -/
theorem scoreV_apply (x0 x1 : Vec Ideal S1x512x16x64 .f32) (r : Fin 512) (h g : Fin 16) :
    scoreV x0 x1 (ix3 r h g)
      = score (ofHeads fun h d => x0 (ix4 (0 : Fin 1) r h d)) (ofHeads fun h d => x1 (ix4 (0 : Fin 1) r h d)) h g := by
  unfold scoreV score
  refine (scores_apply none _ _ r h g).trans (Finset.sum_congr rfl fun d _ => ?_)
  rw [head_ofHeads, head_ofHeads]
  show shapeCast S512x16x64 x0 _ (ix3 r h d) * Ideal.ofBits .f32 0x3E000000#32 * shapeCast S512x16x64 x1 _ (ix3 r g d) = _
  rw [shapeCast_1abc_abc_apply, shapeCast_1abc_abc_apply]
  rfl

variable (S : FVec Ideal S512x16x16 .f32) (s : Fin 16 → EReal) (r : Fin 512) (h : Fin 16)

/-- Where row `(r, h)` of a score array is `s`, its shift there is the shift of `s`. -/
theorem shiftV_apply (hS : ∀ g, S (ix3 r h g) = s g) (g : Fin 16) : shiftV S (ix3 r h g) = shift s := by
  unfold shiftV shift
  refine (broadcastTo_ab1_abc_apply _ _ r h g).trans ((shapeCast_ab_ab1_apply _ _ r h (0 : Fin 1)).trans ?_)
  refine congrArg (max cNegInf) ((lastMax_apply S _ _ _ _ r h).trans ?_)
  exact congrArg (fun f : Fin 16 → EReal => (Finset.univ : Finset (Fin 16)).fold max cNegInf f) (funext hS)

/-- Its shifted exponential there is that of `s`. -/
theorem expV_apply (hS : ∀ g, S (ix3 r h g) = s g) (g : Fin 16) : expV S (ix3 r h g) = expShift s g := by
  unfold expV expShift
  show Ideal.exp (S (ix3 r h g) - shiftV S (ix3 r h g)) = _
  rw [hS g, shiftV_apply S s r h hS g]

/-- Its softmax weight there is that of `s`. -/
theorem softV_apply (hS : ∀ g, S (ix3 r h g) = s g) (g : Fin 16) : softV S (ix3 r h g) = softmax s g := by
  unfold softV softmax
  show Ideal.div (expV S (ix3 r h g)) (broadcastTo S512x16x16 _ _ (ix3 r h g)) = _
  refine congrArg₂ Ideal.div (expV_apply S s r h hS g) ?_
  refine (broadcastTo_ab1_abc_apply _ _ r h g).trans ((shapeCast_ab_ab1_apply _ _ r h (0 : Fin 1)).trans ?_)
  exact (lastSum_apply (expV S) _ _ _ _ r h).trans (Finset.sum_congr rfl fun g' _ => expV_apply S s r h hS g')

/-! ## The stored value at an index -/

/-- Entry `(0, r, h, d)` of the stored value is entry `d` of head `h` of token `r`'s mixed row. -/
theorem k1_pay1_apply (x0 x1 x2 : Vec Ideal S1x512x16x64 .f32) (r : Fin 512) (h : Fin 16) (d : Fin 64) :
    Gen.k1_pay1 (F := Ideal) x0 x1 x2 (ix4 (0 : Fin 1) r h d)
      = mixHead (ofHeads fun h d => x0 (ix4 (0 : Fin 1) r h d)) (ofHeads fun h d => x1 (ix4 (0 : Fin 1) r h d))
          (ofHeads fun h d => x2 (ix4 (0 : Fin 1) r h d)) h d := by
  rw [k1_pay1_eq]
  refine (shapeCast_abc_1abc_apply _ _ (0 : Fin 1) r h d).trans ?_
  refine (mixProd_apply none _ _ r h d).trans ?_
  unfold mixHead
  refine Finset.sum_congr rfl fun g _ => ?_
  rw [head_ofHeads]
  show softV (scoreV x0 x1) (ix3 r h g) * shapeCast S512x16x64 x2 _ (ix3 r g d) = _
  rw [shapeCast_1abc_abc_apply, softV_apply (scoreV x0 x1) _ r h (scoreV_apply x0 x1 r h) g]

/-- The block's stores start at the origin on every axis. -/
theorem hz4 : (![0, 0, 0, 0] : Fin 4 → Nat) = fun _ => 0 := funext fun a => by fin_cases a <;> rfl

/-- What the body of the head mixing leaves in its output block, read at an index. -/
theorem out1_3_apply (x0 x1 x2 : Vec Ideal S1x512x16x64 .f32) (r : Fin 512) (h : Fin 16) (d : Fin 64) :
    Gen.out1_3 (F := Ideal) x0 x1 x2 (ix4 (0 : Fin 1) r h d)
      = Cert.BitAttn.mixHead (Cert.BitAttn.ofHeads fun h d => x0 (ix4 (0 : Fin 1) r h d))
          (Cert.BitAttn.ofHeads fun h d => x1 (ix4 (0 : Fin 1) r h d))
          (Cert.BitAttn.ofHeads fun h d => x2 (ix4 (0 : Fin 1) r h d)) h d := by
  unfold Gen.out1_3
  rw [View.canon_unit_zero hz4]
  simp only [View.ld_unit_zero (S := S1x512x16x64) hz4]
  exact k1_pay1_apply x0 x1 x2 r h d

end Cert.KernelIdeal.Pay

end
-- ==== Proof.KBlocks1.lean ====
/-
  The second region's result array.  The region's grid is 4 × 16; at point (b, j) each of its three operands and its
  result is the block of 512 tokens [512 j, 512 j + 512) of batch b, all 16 heads of 64.  What the body leaves in the result
  block, entry by entry, is the mixing of that token's heads; since block (b, j) of every window is the same rectangle
  of its array, the value written at a block entry is the mixing function of the ARRAYS at the entry's array index.
  The 64 blocks tile the array (token n of batch b lies in block (b, n / 512)), so after the region the array holds
  the mixing function everywhere.
-/
import proofs.«141461_j68564857913635_2_alg».proof.Proof.Gen.KernelIdeal.Frame
import proofs.«141461_j68564857913635_2_alg».proof.Proof.KShapes
import proofs.«141461_j68564857913635_2_alg».proof.Proof.PayMix
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.BitAttn

variable (V : (c : Dev nD) → (b : Ref sig .tc) → Buf (Elt Ideal) ((c : Thread nD τ).loc b))

/-- The index maps over the grid: the three operands' blocks move with the result's block, whose indices stay in range. -/
theorem idx_facts1 : ∀ t : Fin cfg1.N,
    (win1_0.index t (0 : Fin 4) = win1_3.index t (0 : Fin 4) ∧ win1_0.index t (1 : Fin 4) = win1_3.index t (1 : Fin 4)
      ∧ win1_0.index t (2 : Fin 4) = 0 ∧ win1_0.index t (3 : Fin 4) = 0)
    ∧ (win1_1.index t (0 : Fin 4) = win1_3.index t (0 : Fin 4) ∧ win1_1.index t (1 : Fin 4) = win1_3.index t (1 : Fin 4)
      ∧ win1_1.index t (2 : Fin 4) = 0 ∧ win1_1.index t (3 : Fin 4) = 0)
    ∧ (win1_2.index t (0 : Fin 4) = win1_3.index t (0 : Fin 4) ∧ win1_2.index t (1 : Fin 4) = win1_3.index t (1 : Fin 4)
      ∧ win1_2.index t (2 : Fin 4) = 0 ∧ win1_2.index t (3 : Fin 4) = 0)
    ∧ win1_3.index t (2 : Fin 4) = 0 ∧ win1_3.index t (3 : Fin 4) = 0
    ∧ win1_3.index t (0 : Fin 4) ≤ 3 ∧ win1_3.index t (1 : Fin 4) ≤ 15 :=
  (by decide +kernel : ∀ t : Fin grid1.N, _)

/-- Every block of the result array is some point's. -/
theorem idx_onto1 : ∀ (q0 : Fin 4) (q1 : Fin 16), ∃ t : Fin cfg1.N, win1_3.index t = ![q0.val, q1.val, 0, 0] :=
  (by decide +kernel : ∀ (q0 : Fin 4) (q1 : Fin 16), ∃ t : Fin grid1.N, win1_3.index t = ![q0.val, q1.val, 0, 0])

/-- What point `t` writes back is block `t` of `G1` of the arrays as the region finds them. -/
theorem flushed1_eq (c : Dev nD) (t : Fin cfg1.N) :
    (dat1 V c).flushed 3 t = ((cfg1.win 3).blk t).view.read (Elt Ideal) (G1 (V c main_v53) (V c main_v54) (V c main_v55)) := by
  show (cfg1.win 3).cut (grid1.coords t) ((dat1 V c).after 3 t) = _
  rw [after1_3]
  obtain ⟨⟨e00, e01, e02, e03⟩, ⟨e10, e11, e12, e13⟩, ⟨e20, e21, e22, e23⟩, e32, e33, e30, e31⟩ := idx_facts1 t
  funext y
  obtain ⟨z, r, h, d, rfl⟩ : ∃ (z : Fin 1) (r : Fin 512) (h : Fin 16) (d : Fin 64), y = ix4 z r h d := ⟨y 0, y 1, y 2, y 3, eq_ix4 y⟩
  obtain rfl : z = 0 := Subsingleton.elim _ _
  show out1_3 (iblk1 V c 0 t) (iblk1 V c 1 t) (iblk1 V c 2 t) (ix4 (0 : Fin 1) r h d)
    = G1 (V c main_v53) (V c main_v54) (V c main_v55) (((cfg1.win 3).blk t).view.emb (ix4 (0 : Fin 1) r h d))
  refine (Pay.out1_3_apply (iblk1 V c 0 t) (iblk1 V c 1 t) (iblk1 V c 2 t) r h d).trans ?_
  have hr : r.val < 512 := r.isLt
  have hb : win1_3.index t (0 : Fin 4) < 4 := by omega
  have hn : win1_3.index t (1 : Fin 4) * 512 + r.val < 8192 := by omega
  have emb3 : ((cfg1.win 3).blk t).view.emb (ix4 (0 : Fin 1) r h d)
      = ix4 (⟨win1_3.index t (0 : Fin 4), hb⟩ : Fin 4) (⟨win1_3.index t (1 : Fin 4) * 512 + r.val, hn⟩ : Fin 8192) h d := by
    funext a; apply Fin.ext
    match a with
    | ⟨0, _⟩ => show win1_3.index t (0 : Fin 4) * 1 + 1 * (0 : Fin 1).val = win1_3.index t (0 : Fin 4); simp
    | ⟨1, _⟩ => show win1_3.index t (1 : Fin 4) * 512 + 1 * r.val = win1_3.index t (1 : Fin 4) * 512 + r.val; omega
    | ⟨2, _⟩ => show win1_3.index t (2 : Fin 4) * 16 + 1 * h.val = h.val; omega
    | ⟨3, _⟩ => show win1_3.index t (3 : Fin 4) * 64 + 1 * d.val = d.val; omega
  have f0 : (fun (h : Fin 16) (d : Fin 64) => iblk1 V c 0 t (ix4 (0 : Fin 1) r h d))
      = fun h d => V c main_v53 (ix4 (⟨win1_3.index t (0 : Fin 4), hb⟩ : Fin 4) (⟨win1_3.index t (1 : Fin 4) * 512 + r.val, hn⟩ : Fin 8192) h d) := by
    funext h d
    show V c main_v53 (((cfg1.win 0).blk t).view.emb (ix4 (0 : Fin 1) r h d)) = V c main_v53 (ix4 _ _ h d)
    refine congrArg (V c main_v53) ?_
    funext a; apply Fin.ext
    match a with
    | ⟨0, _⟩ => show win1_0.index t (0 : Fin 4) * 1 + 1 * (0 : Fin 1).val = win1_3.index t (0 : Fin 4); simp [e00]
    | ⟨1, _⟩ => show win1_0.index t (1 : Fin 4) * 512 + 1 * r.val = win1_3.index t (1 : Fin 4) * 512 + r.val; omega
    | ⟨2, _⟩ => show win1_0.index t (2 : Fin 4) * 16 + 1 * h.val = h.val; omega
    | ⟨3, _⟩ => show win1_0.index t (3 : Fin 4) * 64 + 1 * d.val = d.val; omega
  have f1 : (fun (h : Fin 16) (d : Fin 64) => iblk1 V c 1 t (ix4 (0 : Fin 1) r h d))
      = fun h d => V c main_v54 (ix4 (⟨win1_3.index t (0 : Fin 4), hb⟩ : Fin 4) (⟨win1_3.index t (1 : Fin 4) * 512 + r.val, hn⟩ : Fin 8192) h d) := by
    funext h d
    show V c main_v54 (((cfg1.win 1).blk t).view.emb (ix4 (0 : Fin 1) r h d)) = V c main_v54 (ix4 _ _ h d)
    refine congrArg (V c main_v54) ?_
    funext a; apply Fin.ext
    match a with
    | ⟨0, _⟩ => show win1_1.index t (0 : Fin 4) * 1 + 1 * (0 : Fin 1).val = win1_3.index t (0 : Fin 4); simp [e10]
    | ⟨1, _⟩ => show win1_1.index t (1 : Fin 4) * 512 + 1 * r.val = win1_3.index t (1 : Fin 4) * 512 + r.val; omega
    | ⟨2, _⟩ => show win1_1.index t (2 : Fin 4) * 16 + 1 * h.val = h.val; omega
    | ⟨3, _⟩ => show win1_1.index t (3 : Fin 4) * 64 + 1 * d.val = d.val; omega
  have f2 : (fun (h : Fin 16) (d : Fin 64) => iblk1 V c 2 t (ix4 (0 : Fin 1) r h d))
      = fun h d => V c main_v55 (ix4 (⟨win1_3.index t (0 : Fin 4), hb⟩ : Fin 4) (⟨win1_3.index t (1 : Fin 4) * 512 + r.val, hn⟩ : Fin 8192) h d) := by
    funext h d
    show V c main_v55 (((cfg1.win 2).blk t).view.emb (ix4 (0 : Fin 1) r h d)) = V c main_v55 (ix4 _ _ h d)
    refine congrArg (V c main_v55) ?_
    funext a; apply Fin.ext
    match a with
    | ⟨0, _⟩ => show win1_2.index t (0 : Fin 4) * 1 + 1 * (0 : Fin 1).val = win1_3.index t (0 : Fin 4); simp [e20]
    | ⟨1, _⟩ => show win1_2.index t (1 : Fin 4) * 512 + 1 * r.val = win1_3.index t (1 : Fin 4) * 512 + r.val; omega
    | ⟨2, _⟩ => show win1_2.index t (2 : Fin 4) * 16 + 1 * h.val = h.val; omega
    | ⟨3, _⟩ => show win1_2.index t (3 : Fin 4) * 64 + 1 * d.val = d.val; omega
  rw [emb3, f0, f1, f2]
  rfl

/-- An index of the result array lies in point `t`'s block iff each coordinate is in the block's range. -/
theorem mem_blk1 (t : Fin cfg1.N) (i : S4x8192x16x64.Idx) :
    i ∈ ((cfg1.win 3).blk t).view.set ↔ ∀ a : Fin 4, win1_3.index t a * S1x512x16x64.size a ≤ (i a).val ∧ (i a).val < win1_3.index t a * S1x512x16x64.size a + S1x512x16x64.size a := by
  show i ∈ ((View.whole main_v56).slice (win1_3.rect t)).set ↔ _
  rw [View.set_slice_whole, Rect.mem_set_unit]
  exact Iff.rfl

/-- The blocks cover the result array: token `n` of batch `b` lies in the block of point `(b, n / 512)`. -/
theorem cover1 (i : S4x8192x16x64.Idx) : ∃ t : Fin cfg1.N, (cfg1.win 3).flush t = true ∧ i ∈ ((cfg1.win 3).blk t).view.set := by
  have hi0 : (i 0).val < 4 := (i 0).isLt
  have hi1 : (i 1).val < 8192 := (i 1).isLt
  have hi2 : (i 2).val < 16 := (i 2).isLt
  have hi3 : (i 3).val < 64 := (i 3).isLt
  obtain ⟨t, ht⟩ := idx_onto1 ⟨(i 0).val, hi0⟩ ⟨(i 1).val / 512, by omega⟩
  have q0 : win1_3.index t (0 : Fin 4) = (i 0).val := congrFun ht 0
  have q1 : win1_3.index t (1 : Fin 4) = (i 1).val / 512 := congrFun ht 1
  have q2 : win1_3.index t (2 : Fin 4) = 0 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 512 ≤ (i 1).val ∧ (i 1).val < win1_3.index t (1 : Fin 4) * 512 + 512; omega
  | ⟨2, _⟩ => show win1_3.index t (2 : Fin 4) * 16 ≤ (i 2).val ∧ (i 2).val < win1_3.index t (2 : Fin 4) * 16 + 16; omega
  | ⟨3, _⟩ => show win1_3.index t (3 : Fin 4) * 64 ≤ (i 3).val ∧ (i 3).val < win1_3.index t (3 : Fin 4) * 64 + 64; omega

/-- The result array after the second region. -/
theorem final1 (c : Dev nD) : (dat1 V c).arrAt 3 cfg1.N = G1 (V c main_v53) (V c main_v54) (V c main_v55) :=
  (dat1 V c).arrAt_eq_of_cover 3 _ (fun t _ => flushed1_eq V c t) cover1

end Cert.KernelIdeal.KBlocks

end
-- ==== Proof.PayLinear2.lean ====
/-
  What the third region's body stores, read at an index.

  The body works on a block of 512 tokens.  Each mixed row is normalized (its mean and mean squared deviation over
  the 1024 entries, a small constant added under the reciprocal square root), scaled by `gamma` and shifted by `beta`;
  the normalized row is quantized to 8 bits by its own scale, multiplied by the output layer's weight block, which is
  stored with the input coordinate first, and the bias is added.  Entry `(r, o)` of the stored block is therefore the
  linear layer `lin` of the quantized normalized row `r` at column `o`.
-/
import proofs.«141461_j68564857913635_2_alg».proof.Proof.Gen.KernelIdeal.Frame
import proofs.«141461_j68564857913635_2_alg».proof.Proof.PayCommon

noncomputable section

namespace Cert.KernelIdeal.Pay

open Idealize.ShloMosaic Idealize.ShloMosaic.ValueIdx Cert.BitAttn

/-- Push an index through the pointwise and layout operations of the normalization. -/
local macro "push_index" : tactic =>
  `(tactic| simp only [addf_apply, mulf_apply, subf_apply, divf_apply, rsqrt_apply, broadcast_apply, broadcastTo_1b_ab_apply,
    shapeCast_a_1a_apply, broadcastTo_a1_ab_apply, shapeCast_a_a1_apply, shapeCast_1ab_ab_apply])

/-! ## The normalized block -/

/-- The normalized block at `(r, e)`: entry `e` of the normalization of row `r`.  The row's sum is taken three times
    in the printed term — under the mean that is subtracted, and under each factor of the squared deviation — and each
    is the sum of the row's 1024 entries. -/
theorem norm2_apply (v0 : Vec Ideal S1x512x1024 .f32) (g b : Vec Ideal S1024 .f32) (r : Fin 512) (e : Fin 1024) :
    Gen.k2_pay2 (F := Ideal) v0 g b (ix2 r e)
      = norm (fun e => v0 (ix3 (0 : Fin 1) r e)) (fun e => g (ix1 e)) (fun e => b (ix1 e)) e := by
  unfold Gen.k2_pay2
  push_index
  rw [rowSum_apply]
  push_index
  rw [rowSum_apply]
  push_index
  rw [rowSum_apply]
  simp only [shapeCast_1ab_ab_apply]
  rfl

/-! ## Its quantization -/

/-- The scale column at row `r`: 127 over the largest absolute entry of the normalized row, floored. -/
theorem scale2_apply (v0 : Vec Ideal S1x512x1024 .f32) (g b : Vec Ideal S1024 .f32) (r : Fin 512) (u : Fin 1) :
    Gen.k2_pay3 (F := Ideal) v0 g b (ix2 r u) = actScale (fun e => Gen.k2_pay2 (F := Ideal) v0 g b (ix2 r e)) := by
  unfold Gen.k2_pay3
  simp only [divf_apply, maximumf_apply, broadcast_apply, shapeCast_a_a1_apply]
  rw [rowMax_apply]
  simp only [absf_apply]
  rfl

/-- The scaled, rounded block clamped from below, at `(r, e)`. -/
theorem clamp2_apply (v0 : Vec Ideal S1x512x1024 .f32) (g b : Vec Ideal S1024 .f32) (r : Fin 512) (e : Fin 1024) :
    Gen.k2_pay4 (F := Ideal) v0 g b (ix2 r e)
      = max cM128 (rne (Gen.k2_pay2 (F := Ideal) v0 g b (ix2 r e) * Gen.k2_pay3 (F := Ideal) v0 g b (ix2 r (0 : Fin 1)))) := by
  unfold Gen.k2_pay4
  simp only [maximumf_apply, broadcast_apply, roundeven_apply, mulf_apply, broadcastTo_a1_ab_apply]
  rfl

/-! ## The product with the weight block, plus the bias -/

/-- The stored block at `(r, o)` from the scale column `s`, the clamped-below block `c` and the upper bound `d`: the sum
    over `e` of (the smaller of `d` and `c` at `(r, e)`, over the scale of row `r`) times the weight block at `(e, o)`, plus
    the bias at `o`. -/
theorem lin2_5_apply (s : FVec Ideal S512x1 .f32) (c d : FVec Ideal S512x1024 .f32) (w : Vec Ideal S1024x1024 .bf16)
    (b : Vec Ideal S1024 .f32) (r : Fin 512) (o : Fin 1024) :
    Gen.k2_pay1 (F := Ideal) s c d w b (ix3 (0 : Fin 1) r o)
      = (∑ e : Fin 1024, Ideal.div (min (d (ix2 r e)) (c (ix2 r e))) (s (ix2 r (0 : Fin 1))) * w (ix2 e o)) + b (ix1 o) := by
  unfold Gen.k2_pay1
  simp only [shapeCast_ab_1ab_apply, addf_apply, broadcastTo_1b_ab_apply, shapeCast_a_1a_apply, shapeCast_self]
  refine congrArg (· + b (ix1 o))
    ((Cert.PlainMatmul.matmul_zero_apply 512 1024 1024 (φ₁ := .bf16) (φ₂ := .bf16) none _ w r o).trans ?_)
  refine Finset.sum_congr rfl fun e _ => ?_
  simp only [truncf_apply, divf_apply, minimumf_apply, broadcastTo_a1_ab_apply]

/-! ## The stored block -/

/-- The output layer's block after the body, at `(0, r, o)`: the linear layer of the quantized normalized row `r` at
    column `o`, the weight read with its input coordinate first. -/
theorem out2_5_apply (x0 : Vec Ideal S1x512x1024 .f32) (x1 x2 : Vec Ideal S1024 .f32) (x3 : Vec Ideal S1024x1024 .bf16)
    (x4 : Vec Ideal S1024 .f32) (r : Fin 512) (o : Fin 1024) :
    Gen.out2_5 (F := Ideal) x0 x1 x2 x3 x4 (ix3 (0 : Fin 1) r o)
      = Cert.BitAttn.lin
          (Cert.BitAttn.actQ (Cert.BitAttn.norm (fun e => x0 (ix3 (0 : Fin 1) r e)) (fun e => x1 (ix1 e)) (fun e => x2 (ix1 e))))
          (fun o e => x3 (ix2 e o)) (fun o => x4 (ix1 o)) o := by
  unfold Gen.out2_5
  rw [View.canon_unit_zero off3_zero]
  simp only [View.ld_unit_zero (S := S1x512x1024) off3_zero, View.ld_unit_zero (S := S1024x1024) off2_zero,
    View.ld_unit_zero (S := S1024) off1_zero]
  refine (lin2_5_apply _ _ _ x3 x4 r o).trans ?_
  have hrow : (fun e => Gen.k2_pay2 (F := Ideal) x0 x1 x2 (ix2 r e))
      = norm (fun e => x0 (ix3 (0 : Fin 1) r e)) (fun e => x1 (ix1 e)) (fun e => x2 (ix1 e)) :=
    funext fun e => norm2_apply x0 x1 x2 r e
  unfold Cert.BitAttn.lin
  refine congrArg (· + x4 (ix1 o)) (Finset.sum_congr rfl fun e _ => congrArg (· * x3 (ix2 e o)) ?_)
  rw [clamp2_apply, scale2_apply, hrow, norm2_apply]
  rfl

end Cert.KernelIdeal.Pay

end
-- ==== Proof.KBlocks2.lean ====
/-
  The third region's result array.  The region's grid is 4 × 16; at point (b, j) its row operand and its result are
  the block of 512 rows [512 j, 512 j + 512) of batch b, while gamma, beta, the quantized weight and the bias are whole
  at every point.  What the body leaves in the result block at row r, column o is the last linear layer of the
  normalized, quantized row; since the row operand's block and the result's block are the same rectangle of their
  arrays, that is the function `G2` of the ARRAYS at the entry's array index.  The 64 blocks tile the array (row n of
  batch b lies in block (b, n / 512)), so after the region the array holds `G2` everywhere.
-/
import proofs.«141461_j68564857913635_2_alg».proof.Proof.Gen.KernelIdeal.Frame
import proofs.«141461_j68564857913635_2_alg».proof.Proof.KShapes
import proofs.«141461_j68564857913635_2_alg».proof.Proof.PayLinear2
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.BitAttn

variable (V : (c : Dev nD) → (b : Ref sig .tc) → Buf (Elt Ideal) ((c : Thread nD τ).loc b))

/-- The index maps over the grid: the row operand's block moves with the result's block, the parameter operands
    stay at their one block, and the result's block indices stay in range. -/
theorem idx_facts2 : ∀ t : Fin cfg2.N,
    win2_0.index t (0 : Fin 3) = win2_5.index t (0 : Fin 3) ∧ win2_0.index t (1 : Fin 3) = win2_5.index t (1 : Fin 3)
    ∧ win2_0.index t (2 : Fin 3) = 0 ∧ win2_5.index t (2 : Fin 3) = 0
    ∧ win2_5.index t (0 : Fin 3) ≤ 3 ∧ win2_5.index t (1 : Fin 3) ≤ 15
    ∧ win2_1.index t (0 : Fin 1) = 0 ∧ win2_2.index t (0 : Fin 1) = 0
    ∧ win2_3.index t (0 : Fin 2) = 0 ∧ win2_3.index t (1 : Fin 2) = 0 ∧ win2_4.index t (0 : Fin 1) = 0 :=
  (by decide +kernel : ∀ t : Fin grid2.N, _)

/-- Every block of the result array is some point's. -/
theorem idx_onto2 : ∀ (q0 : Fin 4) (q1 : Fin 16), ∃ t : Fin cfg2.N, win2_5.index t = ![q0.val, q1.val, 0] :=
  (by decide +kernel : ∀ (q0 : Fin 4) (q1 : Fin 16), ∃ t : Fin grid2.N, win2_5.index t = ![q0.val, q1.val, 0])

/-- What point `t` writes back is block `t` of `G2` of the arrays as the region finds them. -/
theorem flushed2_eq (c : Dev nD) (t : Fin cfg2.N) :
    (dat2 V c).flushed 5 t = ((cfg2.win 5).blk t).view.read (Elt Ideal)
      (G2 (V c main_v57) (V c main_arg9) (V c main_arg10) (V c main_v51) (V c main_arg12)) := by
  show (cfg2.win 5).cut (grid2.coords t) ((dat2 V c).after 5 t) = _
  rw [after2_5]
  obtain ⟨e0, e1, e2, e3, e4, e5, e6, e7, e8, e9, e10⟩ := idx_facts2 t
  funext y
  obtain ⟨z, r, o, rfl⟩ : ∃ (z : Fin 1) (r : Fin 512) (o : Fin 1024), y = ix3 z r o := ⟨y 0, y 1, y 2, eq_ix3 y⟩
  obtain rfl : z = 0 := Subsingleton.elim _ _
  show out2_5 (iblk2 V c 0 t) (iblk2 V c 1 t) (iblk2 V c 2 t) (iblk2 V c 3 t) (iblk2 V c 4 t) (ix3 (0 : Fin 1) r o)
    = G2 (V c main_v57) (V c main_arg9) (V c main_arg10) (V c main_v51) (V c main_arg12) (((cfg2.win 5).blk t).view.emb (ix3 (0 : Fin 1) r o))
  refine (Pay.out2_5_apply (iblk2 V c 0 t) (iblk2 V c 1 t) (iblk2 V c 2 t) (iblk2 V c 3 t) (iblk2 V c 4 t) r o).trans ?_
  have hr : r.val < 512 := r.isLt
  have hb : win2_5.index t (0 : Fin 3) < 4 := by omega
  have hn : win2_5.index t (1 : Fin 3) * 512 + r.val < 8192 := by omega
  have emb5 : ((cfg2.win 5).blk t).view.emb (ix3 (0 : Fin 1) r o)
      = ix3 (⟨win2_5.index t (0 : Fin 3), hb⟩ : Fin 4) (⟨win2_5.index t (1 : Fin 3) * 512 + r.val, hn⟩ : Fin 8192) o := by
    funext a; apply Fin.ext
    match a with
    | ⟨0, _⟩ => show win2_5.index t (0 : Fin 3) * 1 + 1 * (0 : Fin 1).val = win2_5.index t (0 : Fin 3); simp
    | ⟨1, _⟩ => show win2_5.index t (1 : Fin 3) * 512 + 1 * r.val = win2_5.index t (1 : Fin 3) * 512 + r.val; omega
    | ⟨2, _⟩ => show win2_5.index t (2 : Fin 3) * 1024 + 1 * o.val = o.val; omega
  have f0 : (fun e : Fin 1024 => iblk2 V c 0 t (ix3 (0 : Fin 1) r e))
      = row3 (V c main_v57) (⟨win2_5.index t (0 : Fin 3), hb⟩ : Fin 4) (⟨win2_5.index t (1 : Fin 3) * 512 + r.val, hn⟩ : Fin 8192) := by
    funext e
    show V c main_v57 (((cfg2.win 0).blk t).view.emb (ix3 (0 : Fin 1) r e)) = V c main_v57 (ix3 _ _ e)
    refine congrArg (V c main_v57) ?_
    funext a; apply Fin.ext
    match a with
    | ⟨0, _⟩ => show win2_0.index t (0 : Fin 3) * 1 + 1 * (0 : Fin 1).val = win2_5.index t (0 : Fin 3); simp [e0]
    | ⟨1, _⟩ => show win2_0.index t (1 : Fin 3) * 512 + 1 * r.val = win2_5.index t (1 : Fin 3) * 512 + r.val; omega
    | ⟨2, _⟩ => show win2_0.index t (2 : Fin 3) * 1024 + 1 * e.val = e.val; omega
  have f1 : (fun e : Fin 1024 => iblk2 V c 1 t (ix1 e)) = vec (V c main_arg9) := by
    funext e
    show V c main_arg9 (((cfg2.win 1).blk t).view.emb (ix1 e)) = V c main_arg9 (ix1 e)
    refine congrArg (V c main_arg9) ?_
    funext a; apply Fin.ext
    match a with
    | ⟨0, _⟩ => show win2_1.index t (0 : Fin 1) * 1024 + 1 * e.val = e.val; omega
  have f2 : (fun e : Fin 1024 => iblk2 V c 2 t (ix1 e)) = vec (V c main_arg10) := by
    funext e
    show V c main_arg10 (((cfg2.win 2).blk t).view.emb (ix1 e)) = V c main_arg10 (ix1 e)
    refine congrArg (V c main_arg10) ?_
    funext a; apply Fin.ext
    match a with
    | ⟨0, _⟩ => show win2_2.index t (0 : Fin 1) * 1024 + 1 * e.val = e.val; omega
  have f3 : (fun (o e : Fin 1024) => iblk2 V c 3 t (ix2 e o)) = fun o e => V c main_v51 (ix2 e o) := by
    funext o e
    show V c main_v51 (((cfg2.win 3).blk t).view.emb (ix2 e o)) = V c main_v51 (ix2 e o)
    refine congrArg (V c main_v51) ?_
    funext a; apply Fin.ext
    match a with
    | ⟨0, _⟩ => show win2_3.index t (0 : Fin 2) * 1024 + 1 * e.val = e.val; omega
    | ⟨1, _⟩ => show win2_3.index t (1 : Fin 2) * 1024 + 1 * o.val = o.val; omega
  have f4 : (fun o : Fin 1024 => iblk2 V c 4 t (ix1 o)) = vec (V c main_arg12) := by
    funext e
    show V c main_arg12 (((cfg2.win 4).blk t).view.emb (ix1 e)) = V c main_arg12 (ix1 e)
    refine congrArg (V c main_arg12) ?_
    funext a; apply Fin.ext
    match a with
    | ⟨0, _⟩ => show win2_4.index t (0 : Fin 1) * 1024 + 1 * e.val = e.val; omega
  rw [emb5, f0, f1, f2, f3, f4]
  rfl

/-- An index of the result array lies in point `t`'s block iff each coordinate is in the block's range. -/
theorem mem_blk2 (t : Fin cfg2.N) (i : S4x8192x1024.Idx) :
    i ∈ ((cfg2.win 5).blk t).view.set ↔ ∀ a : Fin 3, win2_5.index t a * S1x512x1024.size a ≤ (i a).val ∧ (i a).val < win2_5.index t a * S1x512x1024.size a + S1x512x1024.size a := by
  show i ∈ ((View.whole main_v58).slice (win2_5.rect t)).set ↔ _
  rw [View.set_slice_whole, Rect.mem_set_unit]
  exact Iff.rfl

/-- The blocks cover the result array: row `n` of batch `b` lies in the block of point `(b, n / 512)`. -/
theorem cover2 (i : S4x8192x1024.Idx) : ∃ t : Fin cfg2.N, (cfg2.win 5).flush t = true ∧ i ∈ ((cfg2.win 5).blk t).view.set := by
  have hi0 : (i 0).val < 4 := (i 0).isLt
  have hi1 : (i 1).val < 8192 := (i 1).isLt
  have hi2 : (i 2).val < 1024 := (i 2).isLt
  obtain ⟨t, ht⟩ := idx_onto2 ⟨(i 0).val, hi0⟩ ⟨(i 1).val / 512, by omega⟩
  have q0 : win2_5.index t (0 : Fin 3) = (i 0).val := congrFun ht 0
  have q1 : win2_5.index t (1 : Fin 3) = (i 1).val / 512 := congrFun ht 1
  have q2 : win2_5.index t (2 : Fin 3) = 0 := congrFun ht 2
  refine ⟨t, flush2_5 t, ?_⟩
  rw [mem_blk2]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 512 ≤ (i 1).val ∧ (i 1).val < win2_5.index t (1 : Fin 3) * 512 + 512; omega
  | ⟨2, _⟩ => show win2_5.index t (2 : Fin 3) * 1024 ≤ (i 2).val ∧ (i 2).val < win2_5.index t (2 : Fin 3) * 1024 + 1024; omega

/-- The result array after the third region. -/
theorem final2 (c : Dev nD) : (dat2 V c).arrAt 5 cfg2.N
    = G2 (V c main_v57) (V c main_arg9) (V c main_arg10) (V c main_v51) (V c main_arg12) :=
  (dat2 V c).arrAt_eq_of_cover 5 _ (fun t _ => flushed2_eq V c t) cover2

end Cert.KernelIdeal.KBlocks

end
-- ==== Proof.KCompose.lean ====
/-
  The kernel program's three regions composed: what the third region leaves, given what the first two leave, is the
  specification's result.

  The first region's three result arrays hold, row by row, the quantized linear layers of the query, key and value
  rows (the quantized weights are stored transposed).  Between the regions a row of 1024 is re-laid as 16 heads of 64;
  reading entry 64 h + d of a row as entry d of head h and assembling the heads again gives the row back.  The second
  region mixes the heads, and its result re-laid as rows is the mixed row.  The third region normalizes, quantizes and
  applies the last linear layer.
-/
import proofs.«141461_j68564857913635_2_alg».proof.Proof.KShapes

noncomputable section

namespace Cert.BitAttn

open Idealize.ShloMosaic Idealize.ShloMosaic.ValueIdx

/-- A row cut into 16 heads of 64 and assembled again is the row. -/
theorem ofHeads_rows (f : Fin 1024 → EReal) :
    (ofHeads fun (h : Fin 16) (d : Fin 64) => f ⟨h.val * 64 + d.val, by omega⟩) = f := by
  funext e
  show f ⟨e.val / 64 * 64 + e.val % 64, _⟩ = f e
  exact congrArg f (Fin.ext (Nat.div_add_mod' e.val 64))

/-- An array of token heads that holds the rows of an array of tokens, head by head: assembling token (b, n)'s heads
    gives row (b, n). -/
theorem ofHeads_of_rows (q4 : A4) (g : A3)
    (hq : ∀ (b : Fin 4) (n : Fin 8192) (h : Fin 16) (d : Fin 64),
      q4 (ix4 b n h d) = g (ix3 b n ⟨h.val * 64 + d.val, by omega⟩))
    (b : Fin 4) (n : Fin 8192) : (ofHeads fun h d => q4 (ix4 b n h d)) = row3 g b n := by
  have h : (fun (h : Fin 16) (d : Fin 64) => q4 (ix4 b n h d))
      = fun (h : Fin 16) (d : Fin 64) => row3 g b n ⟨h.val * 64 + d.val, by omega⟩ :=
    funext fun h => funext fun d => hq b n h d
  rw [h]
  exact ofHeads_rows _

/-- A row of the first region's result, its weight operand holding the quantized matrix transposed, is the quantized
    linear layer of the row. -/
theorem row3_G0 (a : A3) (w wt : A2) (bias : A1) (hw : ∀ e o : Fin 1024, wt (ix2 e o) = wQ (mat w) o e) (b : Fin 4)
    (n : Fin 8192) : row3 (G0 a wt bias) b n = bitLin (row3 a b n) (mat w) (vec bias) := by
  have hwt : (fun o e => wt (ix2 e o)) = wQ (mat w) := funext fun o => funext fun e => hw e o
  show lin (actQ (row3 a b n)) (fun o e => wt (ix2 e o)) (vec bias) = bitLin (row3 a b n) (mat w) (vec bias)
  rw [hwt]
  rfl

/-- A row of an array that holds the second region's result re-laid as rows is the mixing of the assembled heads. -/
theorem row3_of_G1 (x : A3) (q4 k4 v4 : A4)
    (hx : ∀ (b : Fin 4) (n : Fin 8192) (e : Fin 1024),
      x (ix3 b n e) = G1 q4 k4 v4 (ix4 b n ⟨e.val / 64, by omega⟩ ⟨e.val % 64, by omega⟩))
    (b : Fin 4) (n : Fin 8192) :
    row3 x b n = mix (ofHeads fun h d => q4 (ix4 b n h d)) (ofHeads fun h d => k4 (ix4 b n h d))
      (ofHeads fun h d => v4 (ix4 b n h d)) :=
  funext fun e => (hx b n e).trans rfl

/-- The three regions composed are the specification's result. -/
theorem kernel_compose (a0 a1 a2 : A3) (a3 : A2) (a4 : A1) (a5 : A2) (a6 : A1) (a7 : A2) (a8 a9 a10 : A1) (a11 : A2)
    (a12 : A1) (w3 w5 w7 w11 : A2)
    (h3 : ∀ e o : Fin 1024, w3 (ix2 e o) = wQ (mat a3) o e) (h5 : ∀ e o : Fin 1024, w5 (ix2 e o) = wQ (mat a5) o e)
    (h7 : ∀ e o : Fin 1024, w7 (ix2 e o) = wQ (mat a7) o e) (h11 : ∀ e o : Fin 1024, w11 (ix2 e o) = wQ (mat a11) o e)
    (q4 k4 v4 : A4)
    (hq : ∀ (b : Fin 4) (n : Fin 8192) (h : Fin 16) (d : Fin 64),
      q4 (ix4 b n h d) = G0 a0 w3 a4 (ix3 b n ⟨h.val * 64 + d.val, by omega⟩))
    (hk : ∀ (b : Fin 4) (n : Fin 8192) (h : Fin 16) (d : Fin 64),
      k4 (ix4 b n h d) = G0 a1 w5 a6 (ix3 b n ⟨h.val * 64 + d.val, by omega⟩))
    (hv : ∀ (b : Fin 4) (n : Fin 8192) (h : Fin 16) (d : Fin 64),
      v4 (ix4 b n h d) = G0 a2 w7 a8 (ix3 b n ⟨h.val * 64 + d.val, by omega⟩))
    (x : A3)
    (hx : ∀ (b : Fin 4) (n : Fin 8192) (e : Fin 1024),
      x (ix3 b n e) = G1 q4 k4 v4 (ix4 b n ⟨e.val / 64, by omega⟩ ⟨e.val % 64, by omega⟩)) :
    G2 x a9 a10 w11 a12 = result a0 a1 a2 a3 a4 a5 a6 a7 a8 a9 a10 a11 a12 := by
  funext i
  obtain ⟨b, n, o, rfl⟩ : ∃ b n o, i = ix3 b n o := ⟨i 0, i 1, i 2, eq_ix3 i⟩
  have hw11 : (fun o e => w11 (ix2 e o)) = wQ (mat a11) := funext fun o => funext fun e => h11 e o
  have hrow : row3 x b n = mix (bitLin (row3 a0 b n) (mat a3) (vec a4)) (bitLin (row3 a1 b n) (mat a5) (vec a6))
      (bitLin (row3 a2 b n) (mat a7) (vec a8)) := by
    rw [row3_of_G1 x q4 k4 v4 hx b n, ofHeads_of_rows q4 (G0 a0 w3 a4) hq b n, ofHeads_of_rows k4 (G0 a1 w5 a6) hk b n,
      ofHeads_of_rows v4 (G0 a2 w7 a8) hv b n, row3_G0 a0 a3 w3 a4 h3 b n, row3_G0 a1 a5 w5 a6 h5 b n,
      row3_G0 a2 a7 w7 a8 h7 b n]
  show lin (actQ (norm (row3 x b n) (vec a9) (vec a10))) (fun o e => w11 (ix2 e o)) (vec a12) o
    = tokenOut (row3 a0 b n) (row3 a1 b n) (row3 a2 b n) (mat a3) (vec a4) (mat a5) (vec a6) (mat a7) (vec a8) (vec a9)
        (vec a10) (mat a11) (vec a12) o
  rw [hrow, hw11]
  rfl

end Cert.BitAttn

end
-- ==== Proof.KValue.lean ====
/-
  The kernel program's value.  After the program its result buffer holds what the third region's write-backs leave;
  that is the third region's function of its operands; its row operand is the second region's result re-laid, the
  second region's operands are the first region's three results re-laid, and the first region's operands are the
  argument arrays and the four quantized weights the host computed.  Composed, index by index, this is the
  specification's result of the thirteen argument arrays.
-/
import proofs.«141461_j68564857913635_2_alg».proof.Proof.KRun
import proofs.«141461_j68564857913635_2_alg».proof.Proof.KGlue
import proofs.«141461_j68564857913635_2_alg».proof.Proof.KGlueWeights
import proofs.«141461_j68564857913635_2_alg».proof.Proof.KWeightRead
import proofs.«141461_j68564857913635_2_alg».proof.Proof.KBlocks0
import proofs.«141461_j68564857913635_2_alg».proof.Proof.KBlocks1
import proofs.«141461_j68564857913635_2_alg».proof.Proof.KBlocks2
import proofs.«141461_j68564857913635_2_alg».proof.Proof.KCompose

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KGlue Cert.KernelIdeal.KBlocks Cert.BitAttn

variable (m : (ℓ : Loc nD τ sig) → Buf (Elt Ideal) ℓ) (ρ : Dev nD → PrngReg)

/-- What the result buffer holds after the program: the specification's result of the argument arrays. -/
theorem value (c : Dev nD) : W30 m ρ c (Proc.devRef .tc main_v58) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W30_main_v58, final2 (V29 m ρ) c]
  show G2 (W29 m ρ c (Proc.devRef .tc main_v57)) (W29 m ρ c (Proc.devRef .tc main_arg9)) (W29 m ρ c (Proc.devRef .tc main_arg10))
      (W29 m ρ c (Proc.devRef .tc main_v51)) (W29 m ρ c (Proc.devRef .tc main_arg12)) = _
  rw [W29_main_arg9, W29_main_arg10, W29_main_arg12, W29_main_v51]
  refine kernel_compose _ _ _ _ _ _ _ _ _ _ _ _ _
    (W25 m ρ c (Proc.devRef .tc main_v12)) (W25 m ρ c (Proc.devRef .tc main_v25)) (W25 m ρ c (Proc.devRef .tc main_v38))
    (W25 m ρ c (Proc.devRef .tc main_v51)) ?_ ?_ ?_ ?_
    (W27 m ρ c (Proc.devRef .tc main_v53)) (W27 m ρ c (Proc.devRef .tc main_v54)) (W27 m ρ c (Proc.devRef .tc main_v55)) ?_ ?_ ?_
    (W29 m ρ c (Proc.devRef .tc main_v57)) ?_
  · intro e o; rw [W25_main_v12]; exact WeightRead.kWeight_apply _ e o
  · intro e o; rw [W25_main_v25]; exact WeightRead.kWeight_apply _ e o
  · intro e o; rw [W25_main_v38]; exact WeightRead.kWeight_apply _ e o
  · intro e o; rw [W25_main_v51]; exact WeightRead.kWeight_apply _ e o
  · intro b n h d
    rw [W27_main_v53, W26_main_v52_0, final0_9 (V25 m ρ) c]
    show G0 (W25 m ρ c (Proc.devRef .tc main_arg0)) (W25 m ρ c (Proc.devRef .tc main_v12)) (W25 m ρ c (Proc.devRef .tc main_arg4)) _ = _
    rw [W25_main_arg0, W25_main_arg4]
  · intro b n h d
    rw [W27_main_v54, W26_main_v52_1, final0_10 (V25 m ρ) c]
    show G0 (W25 m ρ c (Proc.devRef .tc main_arg1)) (W25 m ρ c (Proc.devRef .tc main_v25)) (W25 m ρ c (Proc.devRef .tc main_arg6)) _ = _
    rw [W25_main_arg1, W25_main_arg6]
  · intro b n h d
    rw [W27_main_v55, W26_main_v52_2, final0_11 (V25 m ρ) c]
    show G0 (W25 m ρ c (Proc.devRef .tc main_arg2)) (W25 m ρ c (Proc.devRef .tc main_v38)) (W25 m ρ c (Proc.devRef .tc main_arg8)) _ = _
    rw [W25_main_arg2, W25_main_arg8]
  · intro b n e
    rw [W29_main_v57, W28_main_v56, final1 (V27 m ρ) c]

/-- The kernel program's run: it terminates without a fault, its result buffer ends at the specification's result of
    the argument arrays, and the argument arrays end as launched. -/
theorem run : θ_run (defs (F := Ideal)) (onTc (τ := τ) (main (F := Ideal))) ⟨m, fun _ => 0, ρ⟩ (fun r => ∀ c : Dev nD,
      r.2.mem ((c.tc : Thread nD τ).loc main_v58) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (value m ρ c), (h c).2⟩) (KRun.run_value (F := Ideal) m ρ)

end Cert.KernelIdeal.KValue

end
-- ==== Proof.RefRun.Ops.lean ====
import proofs.«141461_j68564857913635_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program's host operations, in program order, as list literals: each call's operations stand
    in the call's place over the call's own buffers. The list is cut into consecutive stretches; beside each
    stretch, the buffers it writes, in order. -/

/-- 26 consecutive operations, the last writing main_v13. -/
abbrev opsAct0 : List (HloOp τ sig (Elt F)) :=
  [ StableHlo.unary main_arg0 main_v0 (Host.absf : (⟨S4x8192x1024, .f32⟩ : BufTy).Contents (Elt F) → (⟨S4x8192x1024, .f32⟩ : BufTy).Contents (Elt F)),
    StableHlo.nullary main_cst (constant S_ .f32 0xFF800000#32),
    StableHlo.binary main_v0 main_cst main_v1 ((fun x v => Host.reduce FloatOps.maximumf x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v1 main_v2 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_0 (constant S_ .f32 0x3727C5AC#32),
    StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4x8192x1, .f32⟩) (broadcastInDim S4x8192x1 ![] bcast_S_S4x8192x1),
    StableHlo.TRef.binary (.of main_call0_v1 : StableHlo.TRef sig ⟨S4x8192x1, .f32⟩) (.of main_v2 : StableHlo.TRef sig ⟨S4x8192x1, .f32⟩) (.of main_v3 : StableHlo.TRef sig ⟨S4x8192x1, .f32⟩) maximumf,
    StableHlo.nullary main_cst_1 (constant S_ .f32 0x42FE0000#32),
    StableHlo.unary main_cst_1 main_v4 (broadcastInDim S4x8192x1 ![] bcast_S_S4x8192x1 : (⟨S_, .f32⟩ : BufTy).Contents (Elt F) → (⟨S4x8192x1, .f32⟩ : BufTy).Contents (Elt F)),
    StableHlo.binary main_v4 main_v3 main_v5 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v5 main_v6 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_arg0 main_v6 main_v7 (mulf : (⟨S4x8192x1024, .f32⟩ : BufTy).Contents (Elt F) → (⟨S4x8192x1024, .f32⟩ : BufTy).Contents (Elt F) → (⟨S4x8192x1024, .f32⟩ : BufTy).Contents (Elt F)),
    StableHlo.TRef.unary (.of main_v7 : StableHlo.TRef sig ⟨S4x8192x1024, .f32⟩) (.of main_v8 : StableHlo.TRef sig ⟨S4x8192x1024, .f32⟩) Host.roundeven,
    StableHlo.nullary main_c (constantI S_ 32 4294967168#32),
    StableHlo.nullary main_c_2 (constantI S_ 32 127#32),
    StableHlo.TRef.unary (.of main_c : StableHlo.TRef sig ⟨S_, .i32⟩) (.of main_call2_v0 : StableHlo.TRef sig ⟨S_, .f32⟩) (sitofp .f32),
    StableHlo.TRef.unary (.of main_call2_v0 : StableHlo.TRef sig ⟨S_, .f32⟩) (.of main_call2_v1 : StableHlo.TRef sig ⟨S4x8192x1024, .f32⟩) (broadcastInDim S4x8192x1024 ![] bcast_S_S4x8192x1024),
    StableHlo.TRef.binary (.of main_call2_v1 : StableHlo.TRef sig ⟨S4x8192x1024, .f32⟩) (.of main_v8 : StableHlo.TRef sig ⟨S4x8192x1024, .f32⟩) (.of main_call2_v2 : StableHlo.TRef sig ⟨S4x8192x1024, .f32⟩) maximumf,
    StableHlo.TRef.unary (.of main_c_2 : StableHlo.TRef sig ⟨S_, .i32⟩) (.of main_call2_v3 : StableHlo.TRef sig ⟨S_, .f32⟩) (sitofp .f32),
    StableHlo.TRef.unary (.of main_call2_v3 : StableHlo.TRef sig ⟨S_, .f32⟩) (.of main_call2_v4 : StableHlo.TRef sig ⟨S4x8192x1024, .f32⟩) (broadcastInDim S4x8192x1024 ![] bcast_S_S4x8192x1024),
    StableHlo.TRef.binary (.of main_call2_v4 : StableHlo.TRef sig ⟨S4x8192x1024, .f32⟩) (.of main_call2_v2 : StableHlo.TRef sig ⟨S4x8192x1024, .f32⟩) (.of main_v9 : StableHlo.TRef sig ⟨S4x8192x1024, .f32⟩) minimumf,
    StableHlo.unary main_v5 main_v10 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v9 main_v10 main_v11 (Host.divf : (⟨S4x8192x1024, .f32⟩ : BufTy).Contents (Elt F) → (⟨S4x8192x1024, .f32⟩ : BufTy).Contents (Elt F) → (⟨S4x8192x1024, .f32⟩ : BufTy).Contents (Elt F)),
    StableHlo.binary main_v11 main_arg0 main_v12 (subf : (⟨S4x8192x1024, .f32⟩ : BufTy).Contents (Elt F) → (⟨S4x8192x1024, .f32⟩ : BufTy).Contents (Elt F) → (⟨S4x8192x1024, .f32⟩ : BufTy).Contents (Elt F)),
    StableHlo.binary main_arg0 main_v12 main_v13 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsAct0 writes. -/
abbrev wrAct0 : List (Ref sig .tc) :=
  [main_v0, main_cst, main_v1, main_v2, main_cst_0, main_call0_v0, main_call0_v1, main_v3, main_cst_1, main_v4, main_v5, main_v6, main_v7, main_v8, main_c, main_c_2, main_call2_v0, main_call2_v1, main_call2_v2, main_call2_v3, main_call2_v4, main_v9, main_v10, main_v11, main_v12, main_v13]

/-- 25 consecutive operations, the last writing main_v26. -/
abbrev opsW3 : List (HloOp τ sig (Elt F)) :=
  [ StableHlo.unary main_arg3 main_v14 (Host.absf : (⟨S1024x1024, .f32⟩ : BufTy).Contents (Elt F) → (⟨S1024x1024, .f32⟩ : BufTy).Contents (Elt F)),
    StableHlo.nullary main_cst_3 (constant S_ .f32 0x00000000#32),
    StableHlo.binary main_v14 main_cst_3 main_v15 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_4 (constant S_ .f32 0x49800000#32),
    StableHlo.binary main_v15 main_cst_4 main_v16 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3727C5AC#32),
    StableHlo.TRef.unary (.of main_cst_5 : StableHlo.TRef sig ⟨S_, .f32⟩) (.of main_call3_v0 : StableHlo.TRef sig ⟨S_, .f32⟩) id,
    StableHlo.TRef.binary (.of main_call3_v0 : StableHlo.TRef sig ⟨S_, .f32⟩) (.of main_v16 : StableHlo.TRef sig ⟨S_, .f32⟩) (.of main_v17 : StableHlo.TRef sig ⟨S_, .f32⟩) maximumf,
    StableHlo.nullary main_cst_6 (constant S_ .f32 0x3F800000#32),
    StableHlo.binary main_cst_6 main_v17 main_v18 (Host.divf : (⟨S_, .f32⟩ : BufTy).Contents (Elt F) → (⟨S_, .f32⟩ : BufTy).Contents (Elt F) → (⟨S_, .f32⟩ : BufTy).Contents (Elt F)),
    StableHlo.unary main_v18 main_v19 (broadcastInDim S1024x1024 ![] bcast_S_S1024x1024 : (⟨S_, .f32⟩ : BufTy).Contents (Elt F) → (⟨S1024x1024, .f32⟩ : BufTy).Contents (Elt F)),
    StableHlo.binary main_arg3 main_v19 main_v20 (mulf : (⟨S1024x1024, .f32⟩ : BufTy).Contents (Elt F) → (⟨S1024x1024, .f32⟩ : BufTy).Contents (Elt F) → (⟨S1024x1024, .f32⟩ : BufTy).Contents (Elt F)),
    StableHlo.TRef.unary (.of main_v20 : StableHlo.TRef sig ⟨S1024x1024, .f32⟩) (.of main_v21 : StableHlo.TRef sig ⟨S1024x1024, .f32⟩) Host.roundeven,
    StableHlo.nullary main_c_7 (constantI S_ 32 4294967295#32),
    StableHlo.nullary main_c_8 (constantI S_ 32 1#32),
    StableHlo.TRef.unary (.of main_c_7 : StableHlo.TRef sig ⟨S_, .i32⟩) (.of main_call5_v0 : StableHlo.TRef sig ⟨S_, .f32⟩) (sitofp .f32),
    StableHlo.TRef.unary (.of main_call5_v0 : StableHlo.TRef sig ⟨S_, .f32⟩) (.of main_call5_v1 : StableHlo.TRef sig ⟨S1024x1024, .f32⟩) (broadcastInDim S1024x1024 ![] bcast_S_S1024x1024),
    StableHlo.TRef.binary (.of main_call5_v1 : StableHlo.TRef sig ⟨S1024x1024, .f32⟩) (.of main_v21 : StableHlo.TRef sig ⟨S1024x1024, .f32⟩) (.of main_call5_v2 : StableHlo.TRef sig ⟨S1024x1024, .f32⟩) maximumf,
    StableHlo.TRef.unary (.of main_c_8 : StableHlo.TRef sig ⟨S_, .i32⟩) (.of main_call5_v3 : StableHlo.TRef sig ⟨S_, .f32⟩) (sitofp .f32),
    StableHlo.TRef.unary (.of main_call5_v3 : StableHlo.TRef sig ⟨S_, .f32⟩) (.of main_call5_v4 : StableHlo.TRef sig ⟨S1024x1024, .f32⟩) (broadcastInDim S1024x1024 ![] bcast_S_S1024x1024),
    StableHlo.TRef.binary (.of main_call5_v4 : StableHlo.TRef sig ⟨S1024x1024, .f32⟩) (.of main_call5_v2 : StableHlo.TRef sig ⟨S1024x1024, .f32⟩) (.of main_v22 : StableHlo.TRef sig ⟨S1024x1024, .f32⟩) minimumf,
    StableHlo.unary main_v18 main_v23 (broadcastInDim S1024x1024 ![] bcast_S_S1024x1024 : (⟨S_, .f32⟩ : BufTy).Contents (Elt F) → (⟨S1024x1024, .f32⟩ : BufTy).Contents (Elt F)),
    StableHlo.binary main_v22 main_v23 main_v24 (Host.divf : (⟨S1024x1024, .f32⟩ : BufTy).Contents (Elt F) → (⟨S1024x1024, .f32⟩ : BufTy).Contents (Elt F) → (⟨S1024x1024, .f32⟩ : BufTy).Contents (Elt F)),
    StableHlo.binary main_v24 main_arg3 main_v25 (subf : (⟨S1024x1024, .f32⟩ : BufTy).Contents (Elt F) → (⟨S1024x1024, .f32⟩ : BufTy).Contents (Elt F) → (⟨S1024x1024, .f32⟩ : BufTy).Contents (Elt F)),
    StableHlo.binary main_arg3 main_v25 main_v26 (addf : (⟨S1024x1024, .f32⟩ : BufTy).Contents (Elt F) → (⟨S1024x1024, .f32⟩ : BufTy).Contents (Elt F) → (⟨S1024x1024, .f32⟩ : BufTy).Contents (Elt F)) ]
/-- The buffers that opsW3 writes. -/
abbrev wrW3 : List (Ref sig .tc) :=
  [main_v14, main_cst_3, main_v15, main_cst_4, main_v16, main_cst_5, main_call3_v0, main_v17, main_cst_6, main_v18, main_v19, main_v20, main_v21, main_c_7, main_c_8, main_call5_v0, main_call5_v1, main_call5_v2, main_call5_v3, main_call5_v4, main_v22, main_v23, main_v24, main_v25, main_v26]

/-- 5 consecutive operations, the last writing main_v31. -/
abbrev opsLin0 : List (HloOp τ sig (Elt F)) :=
  [ StableHlo.binary main_v13 main_v26 main_v27 ((fun l r => Host.dotGeneral dot_S4x8192x1024_S1024x1024_S4x8192x1024_2_1_01_0_n_n none l r) : (⟨S4x8192x1024, .f32⟩ : BufTy).Contents (Elt F) → (⟨S1024x1024, .f32⟩ : BufTy).Contents (Elt F) → (⟨S4x8192x1024, .f32⟩ : BufTy).Contents (Elt F)),
    StableHlo.unary main_arg4 main_v28 (broadcastInDim S1x1x1024 ![2] bcast_S1024_S1x1x1024_2 : (⟨S1024, .f32⟩ : BufTy).Contents (Elt F) → (⟨S1x1x1024, .f32⟩ : BufTy).Contents (Elt F)),
    StableHlo.unary main_v28 main_v29 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v27 main_v29 main_v30 (addf : (⟨S4x8192x1024, .f32⟩ : BufTy).Contents (Elt F) → (⟨S4x8192x1024, .f32⟩ : BufTy).Contents (Elt F) → (⟨S4x8192x1024, .f32⟩ : BufTy).Contents (Elt F)),
    StableHlo.reshape main_v30 main_v31 rfl shapeCasts_S4x8192x1024_S4x8192x16x64 ]
/-- The buffers that opsLin0 writes. -/
abbrev wrLin0 : List (Ref sig .tc) :=
  [main_v27, main_v28, main_v29, main_v30, main_v31]

/-- 24 consecutive operations, the last writing main_v43. -/
abbrev opsAct1a : List (HloOp τ sig (Elt F)) :=
  [ StableHlo.unary main_arg1 main_v32 (Host.absf : (⟨S4x8192x1024, .f32⟩ : BufTy).Contents (Elt F) → (⟨S4x8192x1024, .f32⟩ : BufTy).Contents (Elt F)),
    StableHlo.nullary main_cst_9 (constant S_ .f32 0xFF800000#32),
    StableHlo.binary main_v32 main_cst_9 main_v33 ((fun x v => Host.reduce FloatOps.maximumf x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v33 main_v34 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_10 (constant S_ .f32 0x3727C5AC#32),
    StableHlo.TRef.unary (.of main_cst_10 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S4x8192x1, .f32⟩) (broadcastInDim S4x8192x1 ![] bcast_S_S4x8192x1),
    StableHlo.TRef.binary (.of main_call6_v1 : StableHlo.TRef sig ⟨S4x8192x1, .f32⟩) (.of main_v34 : StableHlo.TRef sig ⟨S4x8192x1, .f32⟩) (.of main_v35 : StableHlo.TRef sig ⟨S4x8192x1, .f32⟩) maximumf,
    StableHlo.nullary main_cst_11 (constant S_ .f32 0x42FE0000#32),
    StableHlo.unary main_cst_11 main_v36 (broadcastInDim S4x8192x1 ![] bcast_S_S4x8192x1 : (⟨S_, .f32⟩ : BufTy).Contents (Elt F) → (⟨S4x8192x1, .f32⟩ : BufTy).Contents (Elt F)),
    StableHlo.binary main_v36 main_v35 main_v37 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v37 main_v38 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_arg1 main_v38 main_v39 (mulf : (⟨S4x8192x1024, .f32⟩ : BufTy).Contents (Elt F) → (⟨S4x8192x1024, .f32⟩ : BufTy).Contents (Elt F) → (⟨S4x8192x1024, .f32⟩ : BufTy).Contents (Elt F)),
    StableHlo.TRef.unary (.of main_v39 : StableHlo.TRef sig ⟨S4x8192x1024, .f32⟩) (.of main_v40 : StableHlo.TRef sig ⟨S4x8192x1024, .f32⟩) Host.roundeven,
    StableHlo.nullary main_c_12 (constantI S_ 32 4294967168#32),
    StableHlo.nullary main_c_13 (constantI S_ 32 127#32),
    StableHlo.TRef.unary (.of main_c_12 : StableHlo.TRef sig ⟨S_, .i32⟩) (.of main_call8_v0 : StableHlo.TRef sig ⟨S_, .f32⟩) (sitofp .f32),
    StableHlo.TRef.unary (.of main_call8_v0 : StableHlo.TRef sig ⟨S_, .f32⟩) (.of main_call8_v1 : StableHlo.TRef sig ⟨S4x8192x1024, .f32⟩) (broadcastInDim S4x8192x1024 ![] bcast_S_S4x8192x1024),
    StableHlo.TRef.binary (.of main_call8_v1 : StableHlo.TRef sig ⟨S4x8192x1024, .f32⟩) (.of main_v40 : StableHlo.TRef sig ⟨S4x8192x1024, .f32⟩) (.of main_call8_v2 : StableHlo.TRef sig ⟨S4x8192x1024, .f32⟩) maximumf,
    StableHlo.TRef.unary (.of main_c_13 : StableHlo.TRef sig ⟨S_, .i32⟩) (.of main_call8_v3 : StableHlo.TRef sig ⟨S_, .f32⟩) (sitofp .f32),
    StableHlo.TRef.unary (.of main_call8_v3 : StableHlo.TRef sig ⟨S_, .f32⟩) (.of main_call8_v4 : StableHlo.TRef sig ⟨S4x8192x1024, .f32⟩) (broadcastInDim S4x8192x1024 ![] bcast_S_S4x8192x1024),
    StableHlo.TRef.binary (.of main_call8_v4 : StableHlo.TRef sig ⟨S4x8192x1024, .f32⟩) (.of main_call8_v2 : StableHlo.TRef sig ⟨S4x8192x1024, .f32⟩) (.of main_v41 : StableHlo.TRef sig ⟨S4x8192x1024, .f32⟩) minimumf,
    StableHlo.unary main_v37 main_v42 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v41 main_v42 main_v43 (Host.divf : (⟨S4x8192x1024, .f32⟩ : BufTy).Contents (Elt F) → (⟨S4x8192x1024, .f32⟩ : BufTy).Contents (Elt F) → (⟨S4x8192x1024, .f32⟩ : BufTy).Contents (Elt F)) ]
/-- The buffers that opsAct1a writes. -/
abbrev wrAct1a : List (Ref sig .tc) :=
  [main_v32, main_cst_9, main_v33, main_v34, main_cst_10, main_call6_v0, main_call6_v1, main_v35, main_cst_11, main_v36, main_v37, main_v38, main_v39, main_v40, main_c_12, main_c_13, main_call8_v0, main_call8_v1, main_call8_v2, main_call8_v3, main_call8_v4, main_v41, main_v42, main_v43]

/-- 2 consecutive operations, the last writing main_v45. -/
abbrev opsAct1b : List (HloOp τ sig (Elt F)) :=
  [ StableHlo.binary main_v43 main_arg1 main_v44 (subf : (⟨S4x8192x1024, .f32⟩ : BufTy).Contents (Elt F) → (⟨S4x8192x1024, .f32⟩ : BufTy).Contents (Elt F) → (⟨S4x8192x1024, .f32⟩ : BufTy).Contents (Elt F)),
    StableHlo.binary main_arg1 main_v44 main_v45 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsAct1b writes. -/
abbrev wrAct1b : List (Ref sig .tc) :=
  [main_v44, main_v45]

/-- 25 consecutive operations, the last writing main_v58. -/
abbrev opsW5 : List (HloOp τ sig (Elt F)) :=
  [ StableHlo.unary main_arg5 main_v46 (Host.absf : (⟨S1024x1024, .f32⟩ : BufTy).Contents (Elt F) → (⟨S1024x1024, .f32⟩ : BufTy).Contents (Elt F)),
    StableHlo.nullary main_cst_14 (constant S_ .f32 0x00000000#32),
    StableHlo.binary main_v46 main_cst_14 main_v47 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_15 (constant S_ .f32 0x49800000#32),
    StableHlo.binary main_v47 main_cst_15 main_v48 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3727C5AC#32),
    StableHlo.TRef.unary (.of main_cst_16 : StableHlo.TRef sig ⟨S_, .f32⟩) (.of main_call9_v0 : StableHlo.TRef sig ⟨S_, .f32⟩) id,
    StableHlo.TRef.binary (.of main_call9_v0 : StableHlo.TRef sig ⟨S_, .f32⟩) (.of main_v48 : StableHlo.TRef sig ⟨S_, .f32⟩) (.of main_v49 : StableHlo.TRef sig ⟨S_, .f32⟩) maximumf,
    StableHlo.nullary main_cst_17 (constant S_ .f32 0x3F800000#32),
    StableHlo.binary main_cst_17 main_v49 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S1024x1024 ![] bcast_S_S1024x1024 : (⟨S_, .f32⟩ : BufTy).Contents (Elt F) → (⟨S1024x1024, .f32⟩ : BufTy).Contents (Elt F)),
    StableHlo.binary main_arg5 main_v51 main_v52 (mulf : (⟨S1024x1024, .f32⟩ : BufTy).Contents (Elt F) → (⟨S1024x1024, .f32⟩ : BufTy).Contents (Elt F) → (⟨S1024x1024, .f32⟩ : BufTy).Contents (Elt F)),
    StableHlo.TRef.unary (.of main_v52 : StableHlo.TRef sig ⟨S1024x1024, .f32⟩) (.of main_v53 : StableHlo.TRef sig ⟨S1024x1024, .f32⟩) Host.roundeven,
    StableHlo.nullary main_c_18 (constantI S_ 32 4294967295#32),
    StableHlo.nullary main_c_19 (constantI S_ 32 1#32),
    StableHlo.TRef.unary (.of main_c_18 : StableHlo.TRef sig ⟨S_, .i32⟩) (.of main_call11_v0 : StableHlo.TRef sig ⟨S_, .f32⟩) (sitofp .f32),
    StableHlo.TRef.unary (.of main_call11_v0 : StableHlo.TRef sig ⟨S_, .f32⟩) (.of main_call11_v1 : StableHlo.TRef sig ⟨S1024x1024, .f32⟩) (broadcastInDim S1024x1024 ![] bcast_S_S1024x1024),
    StableHlo.TRef.binary (.of main_call11_v1 : StableHlo.TRef sig ⟨S1024x1024, .f32⟩) (.of main_v53 : StableHlo.TRef sig ⟨S1024x1024, .f32⟩) (.of main_call11_v2 : StableHlo.TRef sig ⟨S1024x1024, .f32⟩) maximumf,
    StableHlo.TRef.unary (.of main_c_19 : StableHlo.TRef sig ⟨S_, .i32⟩) (.of main_call11_v3 : StableHlo.TRef sig ⟨S_, .f32⟩) (sitofp .f32),
    StableHlo.TRef.unary (.of main_call11_v3 : StableHlo.TRef sig ⟨S_, .f32⟩) (.of main_call11_v4 : StableHlo.TRef sig ⟨S1024x1024, .f32⟩) (broadcastInDim S1024x1024 ![] bcast_S_S1024x1024),
    StableHlo.TRef.binary (.of main_call11_v4 : StableHlo.TRef sig ⟨S1024x1024, .f32⟩) (.of main_call11_v2 : StableHlo.TRef sig ⟨S1024x1024, .f32⟩) (.of main_v54 : StableHlo.TRef sig ⟨S1024x1024, .f32⟩) minimumf,
    StableHlo.unary main_v50 main_v55 (broadcastInDim S1024x1024 ![] bcast_S_S1024x1024 : (⟨S_, .f32⟩ : BufTy).Contents (Elt F) → (⟨S1024x1024, .f32⟩ : BufTy).Contents (Elt F)),
    StableHlo.binary main_v54 main_v55 main_v56 (Host.divf : (⟨S1024x1024, .f32⟩ : BufTy).Contents (Elt F) → (⟨S1024x1024, .f32⟩ : BufTy).Contents (Elt F) → (⟨S1024x1024, .f32⟩ : BufTy).Contents (Elt F)),
    StableHlo.binary main_v56 main_arg5 main_v57 (subf : (⟨S1024x1024, .f32⟩ : BufTy).Contents (Elt F) → (⟨S1024x1024, .f32⟩ : BufTy).Contents (Elt F) → (⟨S1024x1024, .f32⟩ : BufTy).Contents (Elt F)),
    StableHlo.binary main_arg5 main_v57 main_v58 (addf : (⟨S1024x1024, .f32⟩ : BufTy).Contents (Elt F) → (⟨S1024x1024, .f32⟩ : BufTy).Contents (Elt F) → (⟨S1024x1024, .f32⟩ : BufTy).Contents (Elt F)) ]
/-- The buffers that opsW5 writes. -/
abbrev wrW5 : List (Ref sig .tc) :=
  [main_v46, main_cst_14, main_v47, main_cst_15, main_v48, main_cst_16, main_call9_v0, main_v49, main_cst_17, main_v50, main_v51, main_v52, main_v53, main_c_18, main_c_19, main_call11_v0, main_call11_v1, main_call11_v2, main_call11_v3, main_call11_v4, main_v54, main_v55, main_v56, main_v57, main_v58]

/-- 5 consecutive operations, the last writing main_v63. -/
abbrev opsLin1 : List (HloOp τ sig (Elt F)) :=
  [ StableHlo.binary main_v45 main_v58 main_v59 ((fun l r => Host.dotGeneral dot_S4x8192x1024_S1024x1024_S4x8192x1024_2_1_01_0_n_n none l r) : (⟨S4x8192x1024, .f32⟩ : BufTy).Contents (Elt F) → (⟨S1024x1024, .f32⟩ : BufTy).Contents (Elt F) → (⟨S4x8192x1024, .f32⟩ : BufTy).Contents (Elt F)),
    StableHlo.unary main_arg6 main_v60 (broadcastInDim S1x1x1024 ![2] bcast_S1024_S1x1x1024_2 : (⟨S1024, .f32⟩ : BufTy).Contents (Elt F) → (⟨S1x1x1024, .f32⟩ : BufTy).Contents (Elt F)),
    StableHlo.unary main_v60 main_v61 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v59 main_v61 main_v62 (addf : (⟨S4x8192x1024, .f32⟩ : BufTy).Contents (Elt F) → (⟨S4x8192x1024, .f32⟩ : BufTy).Contents (Elt F) → (⟨S4x8192x1024, .f32⟩ : BufTy).Contents (Elt F)),
    StableHlo.reshape main_v62 main_v63 rfl shapeCasts_S4x8192x1024_S4x8192x16x64 ]
/-- The buffers that opsLin1 writes. -/
abbrev wrLin1 : List (Ref sig .tc) :=
  [main_v59, main_v60, main_v61, main_v62, main_v63]

/-- 26 consecutive operations, the last writing main_v77. -/
abbrev opsAct2 : List (HloOp τ sig (Elt F)) :=
  [ StableHlo.unary main_arg2 main_v64 (Host.absf : (⟨S4x8192x1024, .f32⟩ : BufTy).Contents (Elt F) → (⟨S4x8192x1024, .f32⟩ : BufTy).Contents (Elt F)),
    StableHlo.nullary main_cst_20 (constant S_ .f32 0xFF800000#32),
    StableHlo.binary main_v64 main_cst_20 main_v65 ((fun x v => Host.reduce FloatOps.maximumf x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v65 main_v66 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_21 (constant S_ .f32 0x3727C5AC#32),
    StableHlo.TRef.unary (.of main_cst_21 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S4x8192x1, .f32⟩) (broadcastInDim S4x8192x1 ![] bcast_S_S4x8192x1),
    StableHlo.TRef.binary (.of main_call12_v1 : StableHlo.TRef sig ⟨S4x8192x1, .f32⟩) (.of main_v66 : StableHlo.TRef sig ⟨S4x8192x1, .f32⟩) (.of main_v67 : StableHlo.TRef sig ⟨S4x8192x1, .f32⟩) maximumf,
    StableHlo.nullary main_cst_22 (constant S_ .f32 0x42FE0000#32),
    StableHlo.unary main_cst_22 main_v68 (broadcastInDim S4x8192x1 ![] bcast_S_S4x8192x1 : (⟨S_, .f32⟩ : BufTy).Contents (Elt F) → (⟨S4x8192x1, .f32⟩ : BufTy).Contents (Elt F)),
    StableHlo.binary main_v68 main_v67 main_v69 (Host.divf : (⟨S4x8192x1, .f32⟩ : BufTy).Contents (Elt F) → (⟨S4x8192x1, .f32⟩ : BufTy).Contents (Elt F) → (⟨S4x8192x1, .f32⟩ : BufTy).Contents (Elt F)),
    StableHlo.unary main_v69 main_v70 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_arg2 main_v70 main_v71 (mulf : (⟨S4x8192x1024, .f32⟩ : BufTy).Contents (Elt F) → (⟨S4x8192x1024, .f32⟩ : BufTy).Contents (Elt F) → (⟨S4x8192x1024, .f32⟩ : BufTy).Contents (Elt F)),
    StableHlo.TRef.unary (.of main_v71 : StableHlo.TRef sig ⟨S4x8192x1024, .f32⟩) (.of main_v72 : StableHlo.TRef sig ⟨S4x8192x1024, .f32⟩) Host.roundeven,
    StableHlo.nullary main_c_23 (constantI S_ 32 4294967168#32),
    StableHlo.nullary main_c_24 (constantI S_ 32 127#32),
    StableHlo.TRef.unary (.of main_c_23 : StableHlo.TRef sig ⟨S_, .i32⟩) (.of main_call14_v0 : StableHlo.TRef sig ⟨S_, .f32⟩) (sitofp .f32),
    StableHlo.TRef.unary (.of main_call14_v0 : StableHlo.TRef sig ⟨S_, .f32⟩) (.of main_call14_v1 : StableHlo.TRef sig ⟨S4x8192x1024, .f32⟩) (broadcastInDim S4x8192x1024 ![] bcast_S_S4x8192x1024),
    StableHlo.TRef.binary (.of main_call14_v1 : StableHlo.TRef sig ⟨S4x8192x1024, .f32⟩) (.of main_v72 : StableHlo.TRef sig ⟨S4x8192x1024, .f32⟩) (.of main_call14_v2 : StableHlo.TRef sig ⟨S4x8192x1024, .f32⟩) maximumf,
    StableHlo.TRef.unary (.of main_c_24 : StableHlo.TRef sig ⟨S_, .i32⟩) (.of main_call14_v3 : StableHlo.TRef sig ⟨S_, .f32⟩) (sitofp .f32),
    StableHlo.TRef.unary (.of main_call14_v3 : StableHlo.TRef sig ⟨S_, .f32⟩) (.of main_call14_v4 : StableHlo.TRef sig ⟨S4x8192x1024, .f32⟩) (broadcastInDim S4x8192x1024 ![] bcast_S_S4x8192x1024),
    StableHlo.TRef.binary (.of main_call14_v4 : StableHlo.TRef sig ⟨S4x8192x1024, .f32⟩) (.of main_call14_v2 : StableHlo.TRef sig ⟨S4x8192x1024, .f32⟩) (.of main_v73 : StableHlo.TRef sig ⟨S4x8192x1024, .f32⟩) minimumf,
    StableHlo.unary main_v69 main_v74 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v73 main_v74 main_v75 (Host.divf : (⟨S4x8192x1024, .f32⟩ : BufTy).Contents (Elt F) → (⟨S4x8192x1024, .f32⟩ : BufTy).Contents (Elt F) → (⟨S4x8192x1024, .f32⟩ : BufTy).Contents (Elt F)),
    StableHlo.binary main_v75 main_arg2 main_v76 (subf : (⟨S4x8192x1024, .f32⟩ : BufTy).Contents (Elt F) → (⟨S4x8192x1024, .f32⟩ : BufTy).Contents (Elt F) → (⟨S4x8192x1024, .f32⟩ : BufTy).Contents (Elt F)),
    StableHlo.binary main_arg2 main_v76 main_v77 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsAct2 writes. -/
abbrev wrAct2 : List (Ref sig .tc) :=
  [main_v64, main_cst_20, main_v65, main_v66, main_cst_21, main_call12_v0, main_call12_v1, main_v67, main_cst_22, main_v68, main_v69, main_v70, main_v71, main_v72, main_c_23, main_c_24, main_call14_v0, main_call14_v1, main_call14_v2, main_call14_v3, main_call14_v4, main_v73, main_v74, main_v75, main_v76, main_v77]

/-- 21 consecutive operations, the last writing main_v86. -/
abbrev opsW7a : List (HloOp τ sig (Elt F)) :=
  [ StableHlo.unary main_arg7 main_v78 (Host.absf : (⟨S1024x1024, .f32⟩ : BufTy).Contents (Elt F) → (⟨S1024x1024, .f32⟩ : BufTy).Contents (Elt F)),
    StableHlo.nullary main_cst_25 (constant S_ .f32 0x00000000#32),
    StableHlo.binary main_v78 main_cst_25 main_v79 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_26 (constant S_ .f32 0x49800000#32),
    StableHlo.binary main_v79 main_cst_26 main_v80 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x3727C5AC#32),
    StableHlo.TRef.unary (.of main_cst_27 : StableHlo.TRef sig ⟨S_, .f32⟩) (.of main_call15_v0 : StableHlo.TRef sig ⟨S_, .f32⟩) id,
    StableHlo.TRef.binary (.of main_call15_v0 : StableHlo.TRef sig ⟨S_, .f32⟩) (.of main_v80 : StableHlo.TRef sig ⟨S_, .f32⟩) (.of main_v81 : StableHlo.TRef sig ⟨S_, .f32⟩) maximumf,
    StableHlo.nullary main_cst_28 (constant S_ .f32 0x3F800000#32),
    StableHlo.binary main_cst_28 main_v81 main_v82 (Host.divf : (⟨S_, .f32⟩ : BufTy).Contents (Elt F) → (⟨S_, .f32⟩ : BufTy).Contents (Elt F) → (⟨S_, .f32⟩ : BufTy).Contents (Elt F)),
    StableHlo.unary main_v82 main_v83 (broadcastInDim S1024x1024 ![] bcast_S_S1024x1024 : (⟨S_, .f32⟩ : BufTy).Contents (Elt F) → (⟨S1024x1024, .f32⟩ : BufTy).Contents (Elt F)),
    StableHlo.binary main_arg7 main_v83 main_v84 (mulf : (⟨S1024x1024, .f32⟩ : BufTy).Contents (Elt F) → (⟨S1024x1024, .f32⟩ : BufTy).Contents (Elt F) → (⟨S1024x1024, .f32⟩ : BufTy).Contents (Elt F)),
    StableHlo.TRef.unary (.of main_v84 : StableHlo.TRef sig ⟨S1024x1024, .f32⟩) (.of main_v85 : StableHlo.TRef sig ⟨S1024x1024, .f32⟩) Host.roundeven,
    StableHlo.nullary main_c_29 (constantI S_ 32 4294967295#32),
    StableHlo.nullary main_c_30 (constantI S_ 32 1#32),
    StableHlo.TRef.unary (.of main_c_29 : StableHlo.TRef sig ⟨S_, .i32⟩) (.of main_call17_v0 : StableHlo.TRef sig ⟨S_, .f32⟩) (sitofp .f32),
    StableHlo.TRef.unary (.of main_call17_v0 : StableHlo.TRef sig ⟨S_, .f32⟩) (.of main_call17_v1 : StableHlo.TRef sig ⟨S1024x1024, .f32⟩) (broadcastInDim S1024x1024 ![] bcast_S_S1024x1024),
    StableHlo.TRef.binary (.of main_call17_v1 : StableHlo.TRef sig ⟨S1024x1024, .f32⟩) (.of main_v85 : StableHlo.TRef sig ⟨S1024x1024, .f32⟩) (.of main_call17_v2 : StableHlo.TRef sig ⟨S1024x1024, .f32⟩) maximumf,
    StableHlo.TRef.unary (.of main_c_30 : StableHlo.TRef sig ⟨S_, .i32⟩) (.of main_call17_v3 : StableHlo.TRef sig ⟨S_, .f32⟩) (sitofp .f32),
    StableHlo.TRef.unary (.of main_call17_v3 : StableHlo.TRef sig ⟨S_, .f32⟩) (.of main_call17_v4 : StableHlo.TRef sig ⟨S1024x1024, .f32⟩) (broadcastInDim S1024x1024 ![] bcast_S_S1024x1024),
    StableHlo.TRef.binary (.of main_call17_v4 : StableHlo.TRef sig ⟨S1024x1024, .f32⟩) (.of main_call17_v2 : StableHlo.TRef sig ⟨S1024x1024, .f32⟩) (.of main_v86 : StableHlo.TRef sig ⟨S1024x1024, .f32⟩) minimumf ]
/-- The buffers that opsW7a writes. -/
abbrev wrW7a : List (Ref sig .tc) :=
  [main_v78, main_cst_25, main_v79, main_cst_26, main_v80, main_cst_27, main_call15_v0, main_v81, main_cst_28, main_v82, main_v83, main_v84, main_v85, main_c_29, main_c_30, main_call17_v0, main_call17_v1, main_call17_v2, main_call17_v3, main_call17_v4, main_v86]

/-- 4 consecutive operations, the last writing main_v90. -/
abbrev opsW7b : List (HloOp τ sig (Elt F)) :=
  [ StableHlo.unary main_v82 main_v87 (broadcastInDim S1024x1024 ![] bcast_S_S1024x1024 : (⟨S_, .f32⟩ : BufTy).Contents (Elt F) → (⟨S1024x1024, .f32⟩ : BufTy).Contents (Elt F)),
    StableHlo.binary main_v86 main_v87 main_v88 (Host.divf : (⟨S1024x1024, .f32⟩ : BufTy).Contents (Elt F) → (⟨S1024x1024, .f32⟩ : BufTy).Contents (Elt F) → (⟨S1024x1024, .f32⟩ : BufTy).Contents (Elt F)),
    StableHlo.binary main_v88 main_arg7 main_v89 (subf : (⟨S1024x1024, .f32⟩ : BufTy).Contents (Elt F) → (⟨S1024x1024, .f32⟩ : BufTy).Contents (Elt F) → (⟨S1024x1024, .f32⟩ : BufTy).Contents (Elt F)),
    StableHlo.binary main_arg7 main_v89 main_v90 (addf : (⟨S1024x1024, .f32⟩ : BufTy).Contents (Elt F) → (⟨S1024x1024, .f32⟩ : BufTy).Contents (Elt F) → (⟨S1024x1024, .f32⟩ : BufTy).Contents (Elt F)) ]
/-- The buffers that opsW7b writes. -/
abbrev wrW7b : List (Ref sig .tc) :=
  [main_v87, main_v88, main_v89, main_v90]

/-- 5 consecutive operations, the last writing main_v95. -/
abbrev opsLin2 : List (HloOp τ sig (Elt F)) :=
  [ StableHlo.binary main_v77 main_v90 main_v91 ((fun l r => Host.dotGeneral dot_S4x8192x1024_S1024x1024_S4x8192x1024_2_1_01_0_n_n none l r) : (⟨S4x8192x1024, .f32⟩ : BufTy).Contents (Elt F) → (⟨S1024x1024, .f32⟩ : BufTy).Contents (Elt F) → (⟨S4x8192x1024, .f32⟩ : BufTy).Contents (Elt F)),
    StableHlo.unary main_arg8 main_v92 (broadcastInDim S1x1x1024 ![2] bcast_S1024_S1x1x1024_2 : (⟨S1024, .f32⟩ : BufTy).Contents (Elt F) → (⟨S1x1x1024, .f32⟩ : BufTy).Contents (Elt F)),
    StableHlo.unary main_v92 main_v93 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v91 main_v93 main_v94 (addf : (⟨S4x8192x1024, .f32⟩ : BufTy).Contents (Elt F) → (⟨S4x8192x1024, .f32⟩ : BufTy).Contents (Elt F) → (⟨S4x8192x1024, .f32⟩ : BufTy).Contents (Elt F)),
    StableHlo.reshape main_v94 main_v95 rfl shapeCasts_S4x8192x1024_S4x8192x16x64 ]
/-- The buffers that opsLin2 writes. -/
abbrev wrLin2 : List (Ref sig .tc) :=
  [main_v91, main_v92, main_v93, main_v94, main_v95]

/-- 20 consecutive operations, the last writing main_v111. -/
abbrev opsMix : List (HloOp τ sig (Elt F)) :=
  [ StableHlo.nullary main_cst_31 (constant S_ .f32 0x41000000#32),
    StableHlo.unary main_cst_31 main_v96 (broadcastInDim S4x8192x16x64 ![] bcast_S_S4x8192x16x64 : (⟨S_, .f32⟩ : BufTy).Contents (Elt F) → (⟨S4x8192x16x64, .f32⟩ : BufTy).Contents (Elt F)),
    StableHlo.binary main_v31 main_v96 main_v97 (Host.divf : (⟨S4x8192x16x64, .f32⟩ : BufTy).Contents (Elt F) → (⟨S4x8192x16x64, .f32⟩ : BufTy).Contents (Elt F) → (⟨S4x8192x16x64, .f32⟩ : BufTy).Contents (Elt F)),
    StableHlo.binary main_v97 main_v63 main_v98 ((fun l r => Host.dotGeneral dot_S4x8192x16x64_S4x8192x16x64_S4x8192x16x16_3_3_2_2_01_01 none l r) : (⟨S4x8192x16x64, .f32⟩ : BufTy).Contents (Elt F) → (⟨S4x8192x16x64, .f32⟩ : BufTy).Contents (Elt F) → (⟨S4x8192x16x16, .f32⟩ : BufTy).Contents (Elt F)),
    StableHlo.nullary main_cst_32 (constant S_ .f32 0xFF800000#32),
    StableHlo.binary main_v98 main_cst_32 main_v99 ((fun x v => Host.reduce FloatOps.maximumf x v reducesTo_S4x8192x16x16_S4x8192x16_d3 h_S_) : (⟨S4x8192x16x16, .f32⟩ : BufTy).Contents (Elt F) → (⟨S_, .f32⟩ : BufTy).Contents (Elt F) → (⟨S4x8192x16, .f32⟩ : BufTy).Contents (Elt F)),
    StableHlo.nullary main_cst_33 (constant S_ .f32 0xFF800000#32),
    StableHlo.unary main_cst_33 main_v100 (broadcastInDim S4x8192x16 ![] bcast_S_S4x8192x16 : (⟨S_, .f32⟩ : BufTy).Contents (Elt F) → (⟨S4x8192x16, .f32⟩ : BufTy).Contents (Elt F)),
    StableHlo.binary main_v100 main_v99 main_v101 (maximumf : (⟨S4x8192x16, .f32⟩ : BufTy).Contents (Elt F) → (⟨S4x8192x16, .f32⟩ : BufTy).Contents (Elt F) → (⟨S4x8192x16, .f32⟩ : BufTy).Contents (Elt F)),
    StableHlo.unary main_v101 main_v102 (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)),
    StableHlo.unary main_v102 main_v103 (broadcastInDim S4x8192x16x16 ![0, 1, 2, 3] bcast_S4x8192x16x1_S4x8192x16x16_0_1_2_3 : (⟨S4x8192x16x1, .f32⟩ : BufTy).Contents (Elt F) → (⟨S4x8192x16x16, .f32⟩ : BufTy).Contents (Elt F)),
    StableHlo.binary main_v98 main_v103 main_v104 (subf : (⟨S4x8192x16x16, .f32⟩ : BufTy).Contents (Elt F) → (⟨S4x8192x16x16, .f32⟩ : BufTy).Contents (Elt F) → (⟨S4x8192x16x16, .f32⟩ : BufTy).Contents (Elt F)),
    StableHlo.unary main_v104 main_v105 (Host.exp : (⟨S4x8192x16x16, .f32⟩ : BufTy).Contents (Elt F) → (⟨S4x8192x16x16, .f32⟩ : BufTy).Contents (Elt F)),
    StableHlo.nullary main_cst_34 (constant S_ .f32 0x00000000#32),
    StableHlo.binary main_v105 main_cst_34 main_v106 ((fun x v => Host.reduceAdd x v reducesTo_S4x8192x16x16_S4x8192x16_d3 h_S_) : (⟨S4x8192x16x16, .f32⟩ : BufTy).Contents (Elt F) → (⟨S_, .f32⟩ : BufTy).Contents (Elt F) → (⟨S4x8192x16, .f32⟩ : BufTy).Contents (Elt F)),
    StableHlo.unary main_v106 main_v107 (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)),
    StableHlo.unary main_v107 main_v108 (broadcastInDim S4x8192x16x16 ![0, 1, 2, 3] bcast_S4x8192x16x1_S4x8192x16x16_0_1_2_3 : (⟨S4x8192x16x1, .f32⟩ : BufTy).Contents (Elt F) → (⟨S4x8192x16x16, .f32⟩ : BufTy).Contents (Elt F)),
    StableHlo.binary main_v105 main_v108 main_v109 (Host.divf : (⟨S4x8192x16x16, .f32⟩ : BufTy).Contents (Elt F) → (⟨S4x8192x16x16, .f32⟩ : BufTy).Contents (Elt F) → (⟨S4x8192x16x16, .f32⟩ : BufTy).Contents (Elt F)),
    StableHlo.binary main_v109 main_v95 main_v110 ((fun l r => Host.dotGeneral dot_S4x8192x16x16_S4x8192x16x64_S4x8192x16x64_3_2_2_3_01_01 none l r) : (⟨S4x8192x16x16, .f32⟩ : BufTy).Contents (Elt F) → (⟨S4x8192x16x64, .f32⟩ : BufTy).Contents (Elt F) → (⟨S4x8192x16x64, .f32⟩ : BufTy).Contents (Elt F)),
    StableHlo.reshape main_v110 main_v111 rfl shapeCasts_S4x8192x16x64_S4x8192x1024 ]
/-- The buffers that opsMix writes. -/
abbrev wrMix : List (Ref sig .tc) :=
  [main_cst_31, main_v96, main_v97, main_v98, main_cst_32, main_v99, main_cst_33, main_v100, main_v101, main_v102, main_v103, main_v104, main_v105, main_cst_34, main_v106, main_v107, main_v108, main_v109, main_v110, main_v111]

/-- 44 consecutive operations, the last writing main_v129. -/
abbrev opsNorm : List (HloOp τ sig (Elt F)) :=
  [ StableHlo.nullary main_cst_35 (constant S_ .f32 0x00000000#32),
    StableHlo.binary main_v111 main_cst_35 main_v112 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v112 main_v113 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_36 (constant S_ .f32 0x44800000#32),
    StableHlo.unary main_cst_36 main_v114 (broadcastInDim S4x8192x1 ![] bcast_S_S4x8192x1 : (⟨S_, .f32⟩ : BufTy).Contents (Elt F) → (⟨S4x8192x1, .f32⟩ : BufTy).Contents (Elt F)),
    StableHlo.binary main_v113 main_v114 main_v115 (Host.divf : (⟨S4x8192x1, .f32⟩ : BufTy).Contents (Elt F) → (⟨S4x8192x1, .f32⟩ : BufTy).Contents (Elt F) → (⟨S4x8192x1, .f32⟩ : BufTy).Contents (Elt F)),
    StableHlo.nullary main_c_37 (constantI S_ 32 0#32),
    StableHlo.TRef.nullary (.of main_call18_cst : StableHlo.TRef sig ⟨S_, .f32⟩) (constant S_ .f32 0x00000000#32),
    StableHlo.TRef.binary (.of main_v111 : StableHlo.TRef sig ⟨S4x8192x1024, .f32⟩) (.of main_call18_cst : StableHlo.TRef sig ⟨S_, .f32⟩) (.of main_call18_v0 : StableHlo.TRef sig ⟨S4x8192, .f32⟩) (fun x v => Host.reduceAdd x v reducesTo_S4x8192x1024_S4x8192_d2 h_S_),
    StableHlo.TRef.unary (.of main_call18_v0 : StableHlo.TRef sig ⟨S4x8192, .f32⟩) (.of main_call18_v1 : StableHlo.TRef sig ⟨S4x8192x1, .f32⟩) (broadcastInDim S4x8192x1 ![0, 1] bcast_S4x8192_S4x8192x1_0_1),
    StableHlo.TRef.nullary (.of main_call18_cst_0 : StableHlo.TRef sig ⟨S_, .f32⟩) (constant S_ .f32 0x44800000#32),
    StableHlo.TRef.unary (.of main_call18_cst_0 : StableHlo.TRef sig ⟨S_, .f32⟩) (.of main_call18_v2 : StableHlo.TRef sig ⟨S4x8192x1, .f32⟩) (broadcastInDim S4x8192x1 ![] bcast_S_S4x8192x1),
    StableHlo.TRef.binary (.of main_call18_v1 : StableHlo.TRef sig ⟨S4x8192x1, .f32⟩) (.of main_call18_v2 : StableHlo.TRef sig ⟨S4x8192x1, .f32⟩) (.of main_call18_v3 : StableHlo.TRef sig ⟨S4x8192x1, .f32⟩) Host.divf,
    StableHlo.TRef.unary (.of main_call18_v3 : StableHlo.TRef sig ⟨S4x8192x1, .f32⟩) (.of main_call18_v4 : StableHlo.TRef sig ⟨S4x8192x1024, .f32⟩) (broadcastInDim S4x8192x1024 ![0, 1, 2] bcast_S4x8192x1_S4x8192x1024_0_1_2),
    StableHlo.TRef.binary (.of main_v111 : StableHlo.TRef sig ⟨S4x8192x1024, .f32⟩) (.of main_call18_v4 : StableHlo.TRef sig ⟨S4x8192x1024, .f32⟩) (.of main_call18_v5 : StableHlo.TRef sig ⟨S4x8192x1024, .f32⟩) subf,
    StableHlo.TRef.binary (.of main_call18_v5 : StableHlo.TRef sig ⟨S4x8192x1024, .f32⟩) (.of main_call18_v5 : StableHlo.TRef sig ⟨S4x8192x1024, .f32⟩) (.of main_call18_v6 : StableHlo.TRef sig ⟨S4x8192x1024, .f32⟩) mulf,
    StableHlo.TRef.unary (.of main_c_37 : StableHlo.TRef sig ⟨S_, .i32⟩) (.of main_call18_v7 : StableHlo.TRef sig ⟨S_, .f32⟩) (sitofp .f32),
    StableHlo.TRef.nullary (.of main_call18_cst_1 : StableHlo.TRef sig ⟨S_, .f32⟩) (constant S_ .f32 0x44800000#32),
    StableHlo.TRef.binary (.of main_call18_cst_1 : StableHlo.TRef sig ⟨S_, .f32⟩) (.of main_call18_v7 : StableHlo.TRef sig ⟨S_, .f32⟩) (.of main_call18_v8 : StableHlo.TRef sig ⟨S_, .f32⟩) subf,
    StableHlo.TRef.nullary (.of main_call18_cst_2 : StableHlo.TRef sig ⟨S_, .f32⟩) (constant S_ .f32 0x00000000#32),
    StableHlo.TRef.binary (.of main_call18_v6 : StableHlo.TRef sig ⟨S4x8192x1024, .f32⟩) (.of main_call18_cst_2 : StableHlo.TRef sig ⟨S_, .f32⟩) (.of main_call18_v9 : StableHlo.TRef sig ⟨S4x8192, .f32⟩) (fun x v => Host.reduceAdd x v reducesTo_S4x8192x1024_S4x8192_d2 h_S_),
    StableHlo.TRef.unary (.of main_call18_v9 : StableHlo.TRef sig ⟨S4x8192, .f32⟩) (.of main_call18_v10 : StableHlo.TRef sig ⟨S4x8192x1, .f32⟩) (broadcastInDim S4x8192x1 ![0, 1] bcast_S4x8192_S4x8192x1_0_1),
    StableHlo.TRef.unary (.of main_call18_v8 : StableHlo.TRef sig ⟨S_, .f32⟩) (.of main_call18_v11 : StableHlo.TRef sig ⟨S4x8192x1, .f32⟩) (broadcastInDim S4x8192x1 ![] bcast_S_S4x8192x1),
    StableHlo.TRef.binary (.of main_call18_v10 : StableHlo.TRef sig ⟨S4x8192x1, .f32⟩) (.of main_call18_v11 : StableHlo.TRef sig ⟨S4x8192x1, .f32⟩) (.of main_call18_v12 : StableHlo.TRef sig ⟨S4x8192x1, .f32⟩) Host.divf,
    StableHlo.TRef.nullary (.of main_call18_cst_3 : StableHlo.TRef sig ⟨S_, .f32⟩) (constant S_ .f32 0x00000000#32),
    StableHlo.TRef.binary (.of main_call18_v8 : StableHlo.TRef sig ⟨S_, .f32⟩) (.of main_call18_cst_3 : StableHlo.TRef sig ⟨S_, .f32⟩) (.of main_call18_v13 : StableHlo.TRef sig ⟨S_, .i1⟩) (cmpf .ogt),
    StableHlo.TRef.nullary (.of main_call18_cst_4 : StableHlo.TRef sig ⟨S_, .f32⟩) (constant S_ .f32 0x7FC00000#32),
    StableHlo.TRef.unary (.of main_call18_cst_4 : StableHlo.TRef sig ⟨S_, .f32⟩) (.of main_call18_call0_v0 : StableHlo.TRef sig ⟨S_, .f32⟩) id,
    StableHlo.TRef.unary (.of main_call18_call0_v0 : StableHlo.TRef sig ⟨S_, .f32⟩) (.of main_call18_call0_v1 : StableHlo.TRef sig ⟨S4x8192x1, .f32⟩) (broadcastInDim S4x8192x1 ![] bcast_S_S4x8192x1),
    StableHlo.TRef.ternary (.of main_call18_v13 : StableHlo.TRef sig ⟨S_, .i1⟩) (.of main_call18_v12 : StableHlo.TRef sig ⟨S4x8192x1, .f32⟩) (.of main_call18_call0_v1 : StableHlo.TRef sig ⟨S4x8192x1, .f32⟩) (.of main_v116 : StableHlo.TRef sig ⟨S4x8192x1, .f32⟩) (fun p a b => select (broadcastInDim S4x8192x1 ![] bcast_S_S4x8192x1 p) a b),
    StableHlo.unary main_v115 main_v117 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v111 main_v117 main_v118 (subf : (⟨S4x8192x1024, .f32⟩ : BufTy).Contents (Elt F) → (⟨S4x8192x1024, .f32⟩ : BufTy).Contents (Elt F) → (⟨S4x8192x1024, .f32⟩ : BufTy).Contents (Elt F)),
    StableHlo.nullary main_cst_38 (constant S_ .f32 0x3727C5AC#32),
    StableHlo.unary main_cst_38 main_v119 (broadcastInDim S4x8192x1 ![] bcast_S_S4x8192x1 : (⟨S_, .f32⟩ : BufTy).Contents (Elt F) → (⟨S4x8192x1, .f32⟩ : BufTy).Contents (Elt F)),
    StableHlo.binary main_v116 main_v119 main_v120 (addf : (⟨S4x8192x1, .f32⟩ : BufTy).Contents (Elt F) → (⟨S4x8192x1, .f32⟩ : BufTy).Contents (Elt F) → (⟨S4x8192x1, .f32⟩ : BufTy).Contents (Elt F)),
    StableHlo.unary main_v120 main_v121 (Host.rsqrt : (⟨S4x8192x1, .f32⟩ : BufTy).Contents (Elt F) → (⟨S4x8192x1, .f32⟩ : BufTy).Contents (Elt F)),
    StableHlo.unary main_v121 main_v122 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v118 main_v122 main_v123 (mulf : (⟨S4x8192x1024, .f32⟩ : BufTy).Contents (Elt F) → (⟨S4x8192x1024, .f32⟩ : BufTy).Contents (Elt F) → (⟨S4x8192x1024, .f32⟩ : BufTy).Contents (Elt F)),
    StableHlo.unary main_arg9 main_v124 (broadcastInDim S1x1x1024 ![2] bcast_S1024_S1x1x1024_2 : (⟨S1024, .f32⟩ : BufTy).Contents (Elt F) → (⟨S1x1x1024, .f32⟩ : BufTy).Contents (Elt F)),
    StableHlo.unary main_v124 main_v125 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v123 main_v125 main_v126 (mulf : (⟨S4x8192x1024, .f32⟩ : BufTy).Contents (Elt F) → (⟨S4x8192x1024, .f32⟩ : BufTy).Contents (Elt F) → (⟨S4x8192x1024, .f32⟩ : BufTy).Contents (Elt F)),
    StableHlo.unary main_arg10 main_v127 (broadcastInDim S1x1x1024 ![2] bcast_S1024_S1x1x1024_2 : (⟨S1024, .f32⟩ : BufTy).Contents (Elt F) → (⟨S1x1x1024, .f32⟩ : BufTy).Contents (Elt F)),
    StableHlo.unary main_v127 main_v128 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v126 main_v128 main_v129 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsNorm writes. -/
abbrev wrNorm : List (Ref sig .tc) :=
  [main_cst_35, main_v112, main_v113, main_cst_36, main_v114, main_v115, main_c_37, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_v12, main_call18_cst_3, main_call18_v13, main_call18_cst_4, main_call18_call0_v0, main_call18_call0_v1, main_v116, main_v117, main_v118, main_cst_38, main_v119, main_v120, main_v121, main_v122, main_v123, main_v124, main_v125, main_v126, main_v127, main_v128, main_v129]

/-- 11 consecutive operations, the last writing main_v135. -/
abbrev opsAct3a : List (HloOp τ sig (Elt F)) :=
  [ StableHlo.unary main_v129 main_v130 (Host.absf : (⟨S4x8192x1024, .f32⟩ : BufTy).Contents (Elt F) → (⟨S4x8192x1024, .f32⟩ : BufTy).Contents (Elt F)),
    StableHlo.nullary main_cst_39 (constant S_ .f32 0xFF800000#32),
    StableHlo.binary main_v130 main_cst_39 main_v131 ((fun x v => Host.reduce FloatOps.maximumf x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    StableHlo.unary main_v131 main_v132 (broadcastInDim S4x8192x1 ![0, 1] bcast_S4x8192_S4x8192x1_0_1 : (⟨S4x8192, .f32⟩ : BufTy).Contents (Elt F) → (⟨S4x8192x1, .f32⟩ : BufTy).Contents (Elt F)),
    StableHlo.nullary main_cst_40 (constant S_ .f32 0x3727C5AC#32),
    StableHlo.TRef.unary (.of main_cst_40 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S4x8192x1, .f32⟩) (broadcastInDim S4x8192x1 ![] bcast_S_S4x8192x1),
    StableHlo.TRef.binary (.of main_call19_v1 : StableHlo.TRef sig ⟨S4x8192x1, .f32⟩) (.of main_v132 : StableHlo.TRef sig ⟨S4x8192x1, .f32⟩) (.of main_v133 : StableHlo.TRef sig ⟨S4x8192x1, .f32⟩) maximumf,
    StableHlo.nullary main_cst_41 (constant S_ .f32 0x42FE0000#32),
    StableHlo.unary main_cst_41 main_v134 (broadcastInDim S4x8192x1 ![] bcast_S_S4x8192x1 : (⟨S_, .f32⟩ : BufTy).Contents (Elt F) → (⟨S4x8192x1, .f32⟩ : BufTy).Contents (Elt F)),
    StableHlo.binary main_v134 main_v133 main_v135 (Host.divf : (⟨S4x8192x1, .f32⟩ : BufTy).Contents (Elt F) → (⟨S4x8192x1, .f32⟩ : BufTy).Contents (Elt F) → (⟨S4x8192x1, .f32⟩ : BufTy).Contents (Elt F)) ]
/-- The buffers that opsAct3a writes. -/
abbrev wrAct3a : List (Ref sig .tc) :=
  [main_v130, main_cst_39, main_v131, main_v132, main_cst_40, main_call19_v0, main_call19_v1, main_v133, main_cst_41, main_v134, main_v135]

/-- 15 consecutive operations, the last writing main_v143. -/
abbrev opsAct3b : List (HloOp τ sig (Elt F)) :=
  [ StableHlo.unary main_v135 main_v136 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v129 main_v136 main_v137 (mulf : (⟨S4x8192x1024, .f32⟩ : BufTy).Contents (Elt F) → (⟨S4x8192x1024, .f32⟩ : BufTy).Contents (Elt F) → (⟨S4x8192x1024, .f32⟩ : BufTy).Contents (Elt F)),
    StableHlo.TRef.unary (.of main_v137 : StableHlo.TRef sig ⟨S4x8192x1024, .f32⟩) (.of main_v138 : StableHlo.TRef sig ⟨S4x8192x1024, .f32⟩) Host.roundeven,
    StableHlo.nullary main_c_42 (constantI S_ 32 4294967168#32),
    StableHlo.nullary main_c_43 (constantI S_ 32 127#32),
    StableHlo.TRef.unary (.of main_c_42 : StableHlo.TRef sig ⟨S_, .i32⟩) (.of main_call21_v0 : StableHlo.TRef sig ⟨S_, .f32⟩) (sitofp .f32),
    StableHlo.TRef.unary (.of main_call21_v0 : StableHlo.TRef sig ⟨S_, .f32⟩) (.of main_call21_v1 : StableHlo.TRef sig ⟨S4x8192x1024, .f32⟩) (broadcastInDim S4x8192x1024 ![] bcast_S_S4x8192x1024),
    StableHlo.TRef.binary (.of main_call21_v1 : StableHlo.TRef sig ⟨S4x8192x1024, .f32⟩) (.of main_v138 : StableHlo.TRef sig ⟨S4x8192x1024, .f32⟩) (.of main_call21_v2 : StableHlo.TRef sig ⟨S4x8192x1024, .f32⟩) maximumf,
    StableHlo.TRef.unary (.of main_c_43 : StableHlo.TRef sig ⟨S_, .i32⟩) (.of main_call21_v3 : StableHlo.TRef sig ⟨S_, .f32⟩) (sitofp .f32),
    StableHlo.TRef.unary (.of main_call21_v3 : StableHlo.TRef sig ⟨S_, .f32⟩) (.of main_call21_v4 : StableHlo.TRef sig ⟨S4x8192x1024, .f32⟩) (broadcastInDim S4x8192x1024 ![] bcast_S_S4x8192x1024),
    StableHlo.TRef.binary (.of main_call21_v4 : StableHlo.TRef sig ⟨S4x8192x1024, .f32⟩) (.of main_call21_v2 : StableHlo.TRef sig ⟨S4x8192x1024, .f32⟩) (.of main_v139 : StableHlo.TRef sig ⟨S4x8192x1024, .f32⟩) minimumf,
    StableHlo.unary main_v135 main_v140 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    StableHlo.binary main_v139 main_v140 main_v141 (Host.divf : (⟨S4x8192x1024, .f32⟩ : BufTy).Contents (Elt F) → (⟨S4x8192x1024, .f32⟩ : BufTy).Contents (Elt F) → (⟨S4x8192x1024, .f32⟩ : BufTy).Contents (Elt F)),
    StableHlo.binary main_v141 main_v129 main_v142 (subf : (⟨S4x8192x1024, .f32⟩ : BufTy).Contents (Elt F) → (⟨S4x8192x1024, .f32⟩ : BufTy).Contents (Elt F) → (⟨S4x8192x1024, .f32⟩ : BufTy).Contents (Elt F)),
    StableHlo.binary main_v129 main_v142 main_v143 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsAct3b writes. -/
abbrev wrAct3b : List (Ref sig .tc) :=
  [main_v136, main_v137, main_v138, main_c_42, main_c_43, main_call21_v0, main_call21_v1, main_call21_v2, main_call21_v3, main_call21_v4, main_v139, main_v140, main_v141, main_v142, main_v143]

/-- 25 consecutive operations, the last writing main_v156. -/
abbrev opsW11 : List (HloOp τ sig (Elt F)) :=
  [ StableHlo.unary main_arg11 main_v144 (Host.absf : (⟨S1024x1024, .f32⟩ : BufTy).Contents (Elt F) → (⟨S1024x1024, .f32⟩ : BufTy).Contents (Elt F)),
    StableHlo.nullary main_cst_44 (constant S_ .f32 0x00000000#32),
    StableHlo.binary main_v144 main_cst_44 main_v145 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_45 (constant S_ .f32 0x49800000#32),
    StableHlo.binary main_v145 main_cst_45 main_v146 (Host.divf : (⟨S_, .f32⟩ : BufTy).Contents (Elt F) → (⟨S_, .f32⟩ : BufTy).Contents (Elt F) → (⟨S_, .f32⟩ : BufTy).Contents (Elt F)),
    StableHlo.nullary main_cst_46 (constant S_ .f32 0x3727C5AC#32),
    StableHlo.TRef.unary (.of main_cst_46 : StableHlo.TRef sig ⟨S_, .f32⟩) (.of main_call22_v0 : StableHlo.TRef sig ⟨S_, .f32⟩) id,
    StableHlo.TRef.binary (.of main_call22_v0 : StableHlo.TRef sig ⟨S_, .f32⟩) (.of main_v146 : StableHlo.TRef sig ⟨S_, .f32⟩) (.of main_v147 : StableHlo.TRef sig ⟨S_, .f32⟩) maximumf,
    StableHlo.nullary main_cst_47 (constant S_ .f32 0x3F800000#32),
    StableHlo.binary main_cst_47 main_v147 main_v148 (Host.divf : (⟨S_, .f32⟩ : BufTy).Contents (Elt F) → (⟨S_, .f32⟩ : BufTy).Contents (Elt F) → (⟨S_, .f32⟩ : BufTy).Contents (Elt F)),
    StableHlo.unary main_v148 main_v149 (broadcastInDim S1024x1024 ![] bcast_S_S1024x1024 : (⟨S_, .f32⟩ : BufTy).Contents (Elt F) → (⟨S1024x1024, .f32⟩ : BufTy).Contents (Elt F)),
    StableHlo.binary main_arg11 main_v149 main_v150 (mulf : (⟨S1024x1024, .f32⟩ : BufTy).Contents (Elt F) → (⟨S1024x1024, .f32⟩ : BufTy).Contents (Elt F) → (⟨S1024x1024, .f32⟩ : BufTy).Contents (Elt F)),
    StableHlo.TRef.unary (.of main_v150 : StableHlo.TRef sig ⟨S1024x1024, .f32⟩) (.of main_v151 : StableHlo.TRef sig ⟨S1024x1024, .f32⟩) Host.roundeven,
    StableHlo.nullary main_c_48 (constantI S_ 32 4294967295#32),
    StableHlo.nullary main_c_49 (constantI S_ 32 1#32),
    StableHlo.TRef.unary (.of main_c_48 : StableHlo.TRef sig ⟨S_, .i32⟩) (.of main_call24_v0 : StableHlo.TRef sig ⟨S_, .f32⟩) (sitofp .f32),
    StableHlo.TRef.unary (.of main_call24_v0 : StableHlo.TRef sig ⟨S_, .f32⟩) (.of main_call24_v1 : StableHlo.TRef sig ⟨S1024x1024, .f32⟩) (broadcastInDim S1024x1024 ![] bcast_S_S1024x1024),
    StableHlo.TRef.binary (.of main_call24_v1 : StableHlo.TRef sig ⟨S1024x1024, .f32⟩) (.of main_v151 : StableHlo.TRef sig ⟨S1024x1024, .f32⟩) (.of main_call24_v2 : StableHlo.TRef sig ⟨S1024x1024, .f32⟩) maximumf,
    StableHlo.TRef.unary (.of main_c_49 : StableHlo.TRef sig ⟨S_, .i32⟩) (.of main_call24_v3 : StableHlo.TRef sig ⟨S_, .f32⟩) (sitofp .f32),
    StableHlo.TRef.unary (.of main_call24_v3 : StableHlo.TRef sig ⟨S_, .f32⟩) (.of main_call24_v4 : StableHlo.TRef sig ⟨S1024x1024, .f32⟩) (broadcastInDim S1024x1024 ![] bcast_S_S1024x1024),
    StableHlo.TRef.binary (.of main_call24_v4 : StableHlo.TRef sig ⟨S1024x1024, .f32⟩) (.of main_call24_v2 : StableHlo.TRef sig ⟨S1024x1024, .f32⟩) (.of main_v152 : StableHlo.TRef sig ⟨S1024x1024, .f32⟩) minimumf,
    StableHlo.unary main_v148 main_v153 (broadcastInDim S1024x1024 ![] bcast_S_S1024x1024 : (⟨S_, .f32⟩ : BufTy).Contents (Elt F) → (⟨S1024x1024, .f32⟩ : BufTy).Contents (Elt F)),
    StableHlo.binary main_v152 main_v153 main_v154 (Host.divf : (⟨S1024x1024, .f32⟩ : BufTy).Contents (Elt F) → (⟨S1024x1024, .f32⟩ : BufTy).Contents (Elt F) → (⟨S1024x1024, .f32⟩ : BufTy).Contents (Elt F)),
    StableHlo.binary main_v154 main_arg11 main_v155 (subf : (⟨S1024x1024, .f32⟩ : BufTy).Contents (Elt F) → (⟨S1024x1024, .f32⟩ : BufTy).Contents (Elt F) → (⟨S1024x1024, .f32⟩ : BufTy).Contents (Elt F)),
    StableHlo.binary main_arg11 main_v155 main_v156 (addf : (⟨S1024x1024, .f32⟩ : BufTy).Contents (Elt F) → (⟨S1024x1024, .f32⟩ : BufTy).Contents (Elt F) → (⟨S1024x1024, .f32⟩ : BufTy).Contents (Elt F)) ]
/-- The buffers that opsW11 writes. -/
abbrev wrW11 : List (Ref sig .tc) :=
  [main_v144, main_cst_44, main_v145, main_cst_45, main_v146, main_cst_46, main_call22_v0, main_v147, main_cst_47, main_v148, main_v149, main_v150, main_v151, main_c_48, main_c_49, main_call24_v0, main_call24_v1, main_call24_v2, main_call24_v3, main_call24_v4, main_v152, main_v153, main_v154, main_v155, main_v156]

/-- 4 consecutive operations, the last writing main_v160. -/
abbrev opsLin3 : List (HloOp τ sig (Elt F)) :=
  [ StableHlo.binary main_v143 main_v156 main_v157 ((fun l r => Host.dotGeneral dot_S4x8192x1024_S1024x1024_S4x8192x1024_2_1_01_0_n_n none l r) : (⟨S4x8192x1024, .f32⟩ : BufTy).Contents (Elt F) → (⟨S1024x1024, .f32⟩ : BufTy).Contents (Elt F) → (⟨S4x8192x1024, .f32⟩ : BufTy).Contents (Elt F)),
    StableHlo.unary main_arg12 main_v158 (broadcastInDim S1x1x1024 ![2] bcast_S1024_S1x1x1024_2 : (⟨S1024, .f32⟩ : BufTy).Contents (Elt F) → (⟨S1x1x1024, .f32⟩ : BufTy).Contents (Elt F)),
    StableHlo.unary main_v158 main_v159 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    StableHlo.binary main_v157 main_v159 main_v160 (addf : (⟨S4x8192x1024, .f32⟩ : BufTy).Contents (Elt F) → (⟨S4x8192x1024, .f32⟩ : BufTy).Contents (Elt F) → (⟨S4x8192x1024, .f32⟩ : BufTy).Contents (Elt F)) ]
/-- The buffers that opsLin3 writes. -/
abbrev wrLin3 : List (Ref sig .tc) :=
  [main_v157, main_v158, main_v159, main_v160]

/-- All 287 operations, in order. -/
abbrev ops : List (HloOp τ sig (Elt F)) :=
  opsAct0 ++ (opsW3 ++ (opsLin0 ++ (opsAct1a ++ (opsAct1b ++ (opsW5 ++ (opsLin1 ++ (opsAct2 ++ (opsW7a ++ (opsW7b ++ (opsLin2 ++ (opsMix ++ (opsNorm ++ (opsAct3a ++ (opsAct3b ++ (opsW11 ++ (opsLin3))))))))))))))))

end Cert.ReferenceIdeal.RefRun

end
-- ==== Proof.RefRun.MainEq.lean ====
import proofs.«141461_j68564857913635_2_alg».proof.Proof.RefRun.Ops

/-! The reference's @main is the straight line of its operations: each of its four windows is the line of its
    own stretch of the list (the called functions' bodies unfold at their calls, over the calls' buffers, and
    sequencing reassociates by computation), and the windows run in order. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60). -/
def part0 : List (HloOp τ sig (Elt F)) := opsAct0 ++ (opsW3 ++ (opsLin0 ++ opsAct1a))
/-- The operations of @main's second window (statements 61 … 120). -/
def part1 : List (HloOp τ sig (Elt F)) := opsAct1b ++ (opsW5 ++ (opsLin1 ++ (opsAct2 ++ opsW7a)))
/-- The operations of @main's third window (statements 121 … 180). -/
def part2 : List (HloOp τ sig (Elt F)) := opsW7b ++ (opsLin2 ++ (opsMix ++ (opsNorm ++ opsAct3a)))
/-- The operations of @main's fourth window (statements 181 … 214). -/
def part3 : List (HloOp τ sig (Elt F)) := opsAct3b ++ (opsW11 ++ opsLin3)

set_option maxRecDepth 8192 in
set_option maxHeartbeats 4000000 in
theorem main_part0_eq (c : Dev nD) : main_part0 (F := F) c = seq part0 := rfl
set_option maxRecDepth 8192 in
set_option maxHeartbeats 4000000 in
theorem main_part1_eq (c : Dev nD) : main_part1 (F := F) c = seq part1 := rfl
set_option maxRecDepth 8192 in
set_option maxHeartbeats 4000000 in
theorem main_part2_eq (c : Dev nD) : main_part2 (F := F) c = seq part2 := rfl
set_option maxRecDepth 8192 in
set_option maxHeartbeats 4000000 in
theorem main_part3_eq (c : Dev nD) : main_part3 (F := F) c = seq part3 := rfl

/-- The whole list is the four windows' lists in order. -/
theorem ops_eq : (ops : List (HloOp τ sig (Elt F))) = part0 ++ (part1 ++ (part2 ++ part3)) := by
  unfold part0 part1 part2 part3
  simp only [ops, List.append_assoc]

/-- @main is the straight line of all the operations. -/
theorem main_eq (c : Dev nD) : main (F := F) c = seq ops := by
  rw [ops_eq, seq_append, seq_append, seq_append, ← main_part0_eq c, ← main_part1_eq c, ← main_part2_eq c,
    ← main_part3_eq c]
  rfl

end Cert.ReferenceIdeal.RefRun

end
-- ==== Proof.RefRun.Basic.lean ====
import Idealize.ShloMosaic.Lib.StableHlo.Run

/-! Two general facts about a straight line of host operations: an operation whose one written buffer is on a
    list writes into that list, and running two stretches in turn is running their concatenation. -/

namespace Cert.ReferenceIdeal.RefRun

open Idealize.ShloMosaic Idealize.ShloMosaic.StableHlo

variable {τ : Topo} {sig : RefSig} {Val : EltTy → Type}

/-- An operation that writes exactly the buffer `y`, a member of the list `W`, writes into `W`. -/
theorem writes_sub_of_mem {W : List (Ref sig .tc)} {op : HloOp τ sig Val} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The contents after a concatenation: the second stretch run from what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A buffer outside the list of what a stretch writes keeps its contents through the stretch. -/
theorem after_keep {W : List (Ref sig .tc)} (l : List (HloOp τ sig Val))
    (hW : l.Forall fun op => op.writes ⊆ (W.map (Proc.devRef (τ := τ) .tc)).toFinset)
    (V : Valuation τ sig Val) (r : Ref sig .tc) (hr : r ∉ W) :
    after l V (no_index (Proc.devRef .tc r)) = V (Proc.devRef .tc r) :=
  after_of_writes_sub l V hW hr

end Cert.ReferenceIdeal.RefRun
-- ==== Proof.RefRun.OpsFacts.lean ====
import proofs.«141461_j68564857913635_2_alg».proof.Proof.RefRun.Ops
import proofs.«141461_j68564857913635_2_alg».proof.Proof.RefRun.Basic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Per stretch of operations: every operation touches TensorCore references only, determines its results,
    and writes a buffer of the stretch's list; the stretch as a function from contents to contents, under which
    a buffer outside that list keeps its contents. -/

theorem opsAct0_sub : (opsAct0 : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsAct0_fresh : (opsAct0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsAct0_writes : (opsAct0 : List (HloOp τ sig (Elt F))).Forall fun op => op.writes ⊆ (wrAct0.map (Proc.devRef (τ := τ) .tc)).toFinset :=
  ⟨writes_sub_of_mem main_v0 rfl (by decide), writes_sub_of_mem main_cst rfl (by decide), writes_sub_of_mem main_v1 rfl (by decide), writes_sub_of_mem main_v2 rfl (by decide), writes_sub_of_mem main_cst_0 rfl (by decide), writes_sub_of_mem main_call0_v0 rfl (by decide), writes_sub_of_mem main_call0_v1 rfl (by decide), writes_sub_of_mem main_v3 rfl (by decide), writes_sub_of_mem main_cst_1 rfl (by decide), writes_sub_of_mem main_v4 rfl (by decide), writes_sub_of_mem main_v5 rfl (by decide), writes_sub_of_mem main_v6 rfl (by decide), writes_sub_of_mem main_v7 rfl (by decide), writes_sub_of_mem main_v8 rfl (by decide), writes_sub_of_mem main_c rfl (by decide), writes_sub_of_mem main_c_2 rfl (by decide), writes_sub_of_mem main_call2_v0 rfl (by decide), writes_sub_of_mem main_call2_v1 rfl (by decide), writes_sub_of_mem main_call2_v2 rfl (by decide), writes_sub_of_mem main_call2_v3 rfl (by decide), writes_sub_of_mem main_call2_v4 rfl (by decide), writes_sub_of_mem main_v9 rfl (by decide), writes_sub_of_mem main_v10 rfl (by decide), writes_sub_of_mem main_v11 rfl (by decide), writes_sub_of_mem main_v12 rfl (by decide), writes_sub_of_mem main_v13 rfl (by decide)⟩
/-- The contents after the first activation quantizer (of argument 0), from contents W. -/
def cAct0 (W : Valuation τ sig (Elt F)) : Valuation τ sig (Elt F) := after opsAct0 W
/-- A buffer that stretch does not write keeps its contents. -/
theorem cAct0_keep (W : Valuation τ sig (Elt F)) (r : Ref sig .tc) (h : r ∉ wrAct0) :
    cAct0 W (no_index (Proc.devRef .tc r)) = W (Proc.devRef .tc r) :=
  after_keep opsAct0 opsAct0_writes W r h

theorem opsW3_sub : (opsW3 : List (HloOp τ sig (Elt F))).Forall fun op => op.bufs ⊆ tcRefs τ sig :=
  ⟨unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem opsW3_writes : (opsW3 : List (HloOp τ sig (Elt F))).Forall fun op => op.writes ⊆ (wrW3.map (Proc.devRef (τ := τ) .tc)).toFinset :=
  ⟨writes_sub_of_mem main_v14 rfl (by decide), writes_sub_of_mem main_cst_3 rfl (by decide), writes_sub_of_mem main_v15 rfl (by decide), writes_sub_of_mem main_cst_4 rfl (by decide), writes_sub_of_mem main_v16 rfl (by decide), writes_sub_of_mem main_cst_5 rfl (by decide), writes_sub_of_mem main_call3_v0 rfl (by decide), writes_sub_of_mem main_v17 rfl (by decide), writes_sub_of_mem main_cst_6 rfl (by decide), writes_sub_of_mem main_v18 rfl (by decide), writes_sub_of_mem main_v19 rfl (by decide), writes_sub_of_mem main_v20 rfl (by decide), writes_sub_of_mem main_v21 rfl (by decide), writes_sub_of_mem main_c_7 rfl (by decide), writes_sub_of_mem main_c_8 rfl (by decide), writes_sub_of_mem main_call5_v0 rfl (by decide), writes_sub_of_mem main_call5_v1 rfl (by decide), writes_sub_of_mem main_call5_v2 rfl (by decide), writes_sub_of_mem main_call5_v3 rfl (by decide), writes_sub_of_mem main_call5_v4 rfl (by decide), writes_sub_of_mem main_v22 rfl (by decide), writes_sub_of_mem main_v23 rfl (by decide), writes_sub_of_mem main_v24 rfl (by decide), writes_sub_of_mem main_v25 rfl (by decide), writes_sub_of_mem main_v26 rfl (by decide)⟩
/-- The contents after the first weight quantizer (of argument 3), from contents W. -/
def cW3 (W : Valuation τ sig (Elt F)) : Valuation τ sig (Elt F) := after opsW3 W
/-- A buffer that stretch does not write keeps its contents. -/
theorem cW3_keep (W : Valuation τ sig (Elt F)) (r : Ref sig .tc) (h : r ∉ wrW3) :
    cW3 W (no_index (Proc.devRef .tc r)) = W (Proc.devRef .tc r) :=
  after_keep opsW3 opsW3_writes W r h

theorem opsLin0_sub : (opsLin0 : List (HloOp τ sig (Elt F))).Forall fun op => op.bufs ⊆ tcRefs τ sig :=
  ⟨binary_bufs_sub .., unary_bufs_sub .., unary_bufs_sub .., binary_bufs_sub .., reshape_bufs_sub ..⟩
theorem opsLin0_fresh : (opsLin0 : List (HloOp τ sig (Elt F))).Forall fun op => op.fresh = ∅ :=
  ⟨rfl, rfl, rfl, rfl, rfl⟩
theorem opsLin0_writes : (opsLin0 : List (HloOp τ sig (Elt F))).Forall fun op => op.writes ⊆ (wrLin0.map (Proc.devRef (τ := τ) .tc)).toFinset :=
  ⟨writes_sub_of_mem main_v27 rfl (by decide), writes_sub_of_mem main_v28 rfl (by decide), writes_sub_of_mem main_v29 rfl (by decide), writes_sub_of_mem main_v30 rfl (by decide), writes_sub_of_mem main_v31 rfl (by decide)⟩
/-- The contents after the first linear layer and its reading as heads, from contents W. -/
def cLin0 (W : Valuation τ sig (Elt F)) : Valuation τ sig (Elt F) := after opsLin0 W
/-- A buffer that stretch does not write keeps its contents. -/
theorem cLin0_keep (W : Valuation τ sig (Elt F)) (r : Ref sig .tc) (h : r ∉ wrLin0) :
    cLin0 W (no_index (Proc.devRef .tc r)) = W (Proc.devRef .tc r) :=
  after_keep opsLin0 opsLin0_writes W r h

theorem opsAct1a_sub : (opsAct1a : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub ..⟩
theorem opsAct1a_fresh : (opsAct1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem opsAct1a_writes : (opsAct1a : List (HloOp τ sig (Elt F))).Forall fun op => op.writes ⊆ (wrAct1a.map (Proc.devRef (τ := τ) .tc)).toFinset :=
  ⟨writes_sub_of_mem main_v32 rfl (by decide), writes_sub_of_mem main_cst_9 rfl (by decide), writes_sub_of_mem main_v33 rfl (by decide), writes_sub_of_mem main_v34 rfl (by decide), writes_sub_of_mem main_cst_10 rfl (by decide), writes_sub_of_mem main_call6_v0 rfl (by decide), writes_sub_of_mem main_call6_v1 rfl (by decide), writes_sub_of_mem main_v35 rfl (by decide), writes_sub_of_mem main_cst_11 rfl (by decide), writes_sub_of_mem main_v36 rfl (by decide), writes_sub_of_mem main_v37 rfl (by decide), writes_sub_of_mem main_v38 rfl (by decide), writes_sub_of_mem main_v39 rfl (by decide), writes_sub_of_mem main_v40 rfl (by decide), writes_sub_of_mem main_c_12 rfl (by decide), writes_sub_of_mem main_c_13 rfl (by decide), writes_sub_of_mem main_call8_v0 rfl (by decide), writes_sub_of_mem main_call8_v1 rfl (by decide), writes_sub_of_mem main_call8_v2 rfl (by decide), writes_sub_of_mem main_call8_v3 rfl (by decide), writes_sub_of_mem main_call8_v4 rfl (by decide), writes_sub_of_mem main_v41 rfl (by decide), writes_sub_of_mem main_v42 rfl (by decide), writes_sub_of_mem main_v43 rfl (by decide)⟩
/-- The contents after the second activation quantizer's first part (of argument 1), from contents W. -/
def cAct1a (W : Valuation τ sig (Elt F)) : Valuation τ sig (Elt F) := after opsAct1a W
/-- A buffer that stretch does not write keeps its contents. -/
theorem cAct1a_keep (W : Valuation τ sig (Elt F)) (r : Ref sig .tc) (h : r ∉ wrAct1a) :
    cAct1a W (no_index (Proc.devRef .tc r)) = W (Proc.devRef .tc r) :=
  after_keep opsAct1a opsAct1a_writes W r h

theorem opsAct1b_sub : (opsAct1b : List (HloOp τ sig (Elt F))).Forall fun op => op.bufs ⊆ tcRefs τ sig :=
  ⟨binary_bufs_sub .., binary_bufs_sub ..⟩
theorem opsAct1b_fresh : (opsAct1b : List (HloOp τ sig (Elt F))).Forall fun op => op.fresh = ∅ :=
  ⟨rfl, rfl⟩
theorem opsAct1b_writes : (opsAct1b : List (HloOp τ sig (Elt F))).Forall fun op => op.writes ⊆ (wrAct1b.map (Proc.devRef (τ := τ) .tc)).toFinset :=
  ⟨writes_sub_of_mem main_v44 rfl (by decide), writes_sub_of_mem main_v45 rfl (by decide)⟩
/-- The contents after the second activation quantizer's last two operations, from contents W. -/
def cAct1b (W : Valuation τ sig (Elt F)) : Valuation τ sig (Elt F) := after opsAct1b W
/-- A buffer that stretch does not write keeps its contents. -/
theorem cAct1b_keep (W : Valuation τ sig (Elt F)) (r : Ref sig .tc) (h : r ∉ wrAct1b) :
    cAct1b W (no_index (Proc.devRef .tc r)) = W (Proc.devRef .tc r) :=
  after_keep opsAct1b opsAct1b_writes W r h

theorem opsW5_sub : (opsW5 : List (HloOp τ sig (Elt F))).Forall fun op => op.bufs ⊆ tcRefs τ sig :=
  ⟨unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsW5_fresh : (opsW5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem opsW5_writes : (opsW5 : List (HloOp τ sig (Elt F))).Forall fun op => op.writes ⊆ (wrW5.map (Proc.devRef (τ := τ) .tc)).toFinset :=
  ⟨writes_sub_of_mem main_v46 rfl (by decide), writes_sub_of_mem main_cst_14 rfl (by decide), writes_sub_of_mem main_v47 rfl (by decide), writes_sub_of_mem main_cst_15 rfl (by decide), writes_sub_of_mem main_v48 rfl (by decide), writes_sub_of_mem main_cst_16 rfl (by decide), writes_sub_of_mem main_call9_v0 rfl (by decide), writes_sub_of_mem main_v49 rfl (by decide), writes_sub_of_mem main_cst_17 rfl (by decide), writes_sub_of_mem main_v50 rfl (by decide), writes_sub_of_mem main_v51 rfl (by decide), writes_sub_of_mem main_v52 rfl (by decide), writes_sub_of_mem main_v53 rfl (by decide), writes_sub_of_mem main_c_18 rfl (by decide), writes_sub_of_mem main_c_19 rfl (by decide), writes_sub_of_mem main_call11_v0 rfl (by decide), writes_sub_of_mem main_call11_v1 rfl (by decide), writes_sub_of_mem main_call11_v2 rfl (by decide), writes_sub_of_mem main_call11_v3 rfl (by decide), writes_sub_of_mem main_call11_v4 rfl (by decide), writes_sub_of_mem main_v54 rfl (by decide), writes_sub_of_mem main_v55 rfl (by decide), writes_sub_of_mem main_v56 rfl (by decide), writes_sub_of_mem main_v57 rfl (by decide), writes_sub_of_mem main_v58 rfl (by decide)⟩
/-- The contents after the second weight quantizer (of argument 5), from contents W. -/
def cW5 (W : Valuation τ sig (Elt F)) : Valuation τ sig (Elt F) := after opsW5 W
/-- A buffer that stretch does not write keeps its contents. -/
theorem cW5_keep (W : Valuation τ sig (Elt F)) (r : Ref sig .tc) (h : r ∉ wrW5) :
    cW5 W (no_index (Proc.devRef .tc r)) = W (Proc.devRef .tc r) :=
  after_keep opsW5 opsW5_writes W r h

theorem opsLin1_sub : (opsLin1 : List (HloOp τ sig (Elt F))).Forall fun op => op.bufs ⊆ tcRefs τ sig :=
  ⟨binary_bufs_sub .., unary_bufs_sub .., unary_bufs_sub .., binary_bufs_sub .., reshape_bufs_sub ..⟩
theorem opsLin1_fresh : (opsLin1 : List (HloOp τ sig (Elt F))).Forall fun op => op.fresh = ∅ :=
  ⟨rfl, rfl, rfl, rfl, rfl⟩
theorem opsLin1_writes : (opsLin1 : List (HloOp τ sig (Elt F))).Forall fun op => op.writes ⊆ (wrLin1.map (Proc.devRef (τ := τ) .tc)).toFinset :=
  ⟨writes_sub_of_mem main_v59 rfl (by decide), writes_sub_of_mem main_v60 rfl (by decide), writes_sub_of_mem main_v61 rfl (by decide), writes_sub_of_mem main_v62 rfl (by decide), writes_sub_of_mem main_v63 rfl (by decide)⟩
/-- The contents after the second linear layer and its reading as heads, from contents W. -/
def cLin1 (W : Valuation τ sig (Elt F)) : Valuation τ sig (Elt F) := after opsLin1 W
/-- A buffer that stretch does not write keeps its contents. -/
theorem cLin1_keep (W : Valuation τ sig (Elt F)) (r : Ref sig .tc) (h : r ∉ wrLin1) :
    cLin1 W (no_index (Proc.devRef .tc r)) = W (Proc.devRef .tc r) :=
  after_keep opsLin1 opsLin1_writes W r h

theorem opsAct2_sub : (opsAct2 : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsAct2_fresh : (opsAct2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsAct2_writes : (opsAct2 : List (HloOp τ sig (Elt F))).Forall fun op => op.writes ⊆ (wrAct2.map (Proc.devRef (τ := τ) .tc)).toFinset :=
  ⟨writes_sub_of_mem main_v64 rfl (by decide), writes_sub_of_mem main_cst_20 rfl (by decide), writes_sub_of_mem main_v65 rfl (by decide), writes_sub_of_mem main_v66 rfl (by decide), writes_sub_of_mem main_cst_21 rfl (by decide), writes_sub_of_mem main_call12_v0 rfl (by decide), writes_sub_of_mem main_call12_v1 rfl (by decide), writes_sub_of_mem main_v67 rfl (by decide), writes_sub_of_mem main_cst_22 rfl (by decide), writes_sub_of_mem main_v68 rfl (by decide), writes_sub_of_mem main_v69 rfl (by decide), writes_sub_of_mem main_v70 rfl (by decide), writes_sub_of_mem main_v71 rfl (by decide), writes_sub_of_mem main_v72 rfl (by decide), writes_sub_of_mem main_c_23 rfl (by decide), writes_sub_of_mem main_c_24 rfl (by decide), writes_sub_of_mem main_call14_v0 rfl (by decide), writes_sub_of_mem main_call14_v1 rfl (by decide), writes_sub_of_mem main_call14_v2 rfl (by decide), writes_sub_of_mem main_call14_v3 rfl (by decide), writes_sub_of_mem main_call14_v4 rfl (by decide), writes_sub_of_mem main_v73 rfl (by decide), writes_sub_of_mem main_v74 rfl (by decide), writes_sub_of_mem main_v75 rfl (by decide), writes_sub_of_mem main_v76 rfl (by decide), writes_sub_of_mem main_v77 rfl (by decide)⟩
/-- The contents after the third activation quantizer (of argument 2), from contents W. -/
def cAct2 (W : Valuation τ sig (Elt F)) : Valuation τ sig (Elt F) := after opsAct2 W
/-- A buffer that stretch does not write keeps its contents. -/
theorem cAct2_keep (W : Valuation τ sig (Elt F)) (r : Ref sig .tc) (h : r ∉ wrAct2) :
    cAct2 W (no_index (Proc.devRef .tc r)) = W (Proc.devRef .tc r) :=
  after_keep opsAct2 opsAct2_writes W r h

theorem opsW7a_sub : (opsW7a : List (HloOp τ sig (Elt F))).Forall fun op => op.bufs ⊆ tcRefs τ sig :=
  ⟨unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩
theorem opsW7a_fresh : (opsW7a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem opsW7a_writes : (opsW7a : List (HloOp τ sig (Elt F))).Forall fun op => op.writes ⊆ (wrW7a.map (Proc.devRef (τ := τ) .tc)).toFinset :=
  ⟨writes_sub_of_mem main_v78 rfl (by decide), writes_sub_of_mem main_cst_25 rfl (by decide), writes_sub_of_mem main_v79 rfl (by decide), writes_sub_of_mem main_cst_26 rfl (by decide), writes_sub_of_mem main_v80 rfl (by decide), writes_sub_of_mem main_cst_27 rfl (by decide), writes_sub_of_mem main_call15_v0 rfl (by decide), writes_sub_of_mem main_v81 rfl (by decide), writes_sub_of_mem main_cst_28 rfl (by decide), writes_sub_of_mem main_v82 rfl (by decide), writes_sub_of_mem main_v83 rfl (by decide), writes_sub_of_mem main_v84 rfl (by decide), writes_sub_of_mem main_v85 rfl (by decide), writes_sub_of_mem main_c_29 rfl (by decide), writes_sub_of_mem main_c_30 rfl (by decide), writes_sub_of_mem main_call17_v0 rfl (by decide), writes_sub_of_mem main_call17_v1 rfl (by decide), writes_sub_of_mem main_call17_v2 rfl (by decide), writes_sub_of_mem main_call17_v3 rfl (by decide), writes_sub_of_mem main_call17_v4 rfl (by decide), writes_sub_of_mem main_v86 rfl (by decide)⟩
/-- The contents after the third weight quantizer's first part (of argument 7), from contents W. -/
def cW7a (W : Valuation τ sig (Elt F)) : Valuation τ sig (Elt F) := after opsW7a W
/-- A buffer that stretch does not write keeps its contents. -/
theorem cW7a_keep (W : Valuation τ sig (Elt F)) (r : Ref sig .tc) (h : r ∉ wrW7a) :
    cW7a W (no_index (Proc.devRef .tc r)) = W (Proc.devRef .tc r) :=
  after_keep opsW7a opsW7a_writes W r h

theorem opsW7b_sub : (opsW7b : List (HloOp τ sig (Elt F))).Forall fun op => op.bufs ⊆ tcRefs τ sig :=
  ⟨unary_bufs_sub .., binary_bufs_sub .., binary_bufs_sub .., binary_bufs_sub ..⟩
theorem opsW7b_fresh : (opsW7b : List (HloOp τ sig (Elt F))).Forall fun op => op.fresh = ∅ :=
  ⟨rfl, rfl, rfl, rfl⟩
theorem opsW7b_writes : (opsW7b : List (HloOp τ sig (Elt F))).Forall fun op => op.writes ⊆ (wrW7b.map (Proc.devRef (τ := τ) .tc)).toFinset :=
  ⟨writes_sub_of_mem main_v87 rfl (by decide), writes_sub_of_mem main_v88 rfl (by decide), writes_sub_of_mem main_v89 rfl (by decide), writes_sub_of_mem main_v90 rfl (by decide)⟩
/-- The contents after the third weight quantizer's last four operations, from contents W. -/
def cW7b (W : Valuation τ sig (Elt F)) : Valuation τ sig (Elt F) := after opsW7b W
/-- A buffer that stretch does not write keeps its contents. -/
theorem cW7b_keep (W : Valuation τ sig (Elt F)) (r : Ref sig .tc) (h : r ∉ wrW7b) :
    cW7b W (no_index (Proc.devRef .tc r)) = W (Proc.devRef .tc r) :=
  after_keep opsW7b opsW7b_writes W r h

theorem opsLin2_sub : (opsLin2 : List (HloOp τ sig (Elt F))).Forall fun op => op.bufs ⊆ tcRefs τ sig :=
  ⟨binary_bufs_sub .., unary_bufs_sub .., unary_bufs_sub .., binary_bufs_sub .., reshape_bufs_sub ..⟩
theorem opsLin2_fresh : (opsLin2 : List (HloOp τ sig (Elt F))).Forall fun op => op.fresh = ∅ :=
  ⟨rfl, rfl, rfl, rfl, rfl⟩
theorem opsLin2_writes : (opsLin2 : List (HloOp τ sig (Elt F))).Forall fun op => op.writes ⊆ (wrLin2.map (Proc.devRef (τ := τ) .tc)).toFinset :=
  ⟨writes_sub_of_mem main_v91 rfl (by decide), writes_sub_of_mem main_v92 rfl (by decide), writes_sub_of_mem main_v93 rfl (by decide), writes_sub_of_mem main_v94 rfl (by decide), writes_sub_of_mem main_v95 rfl (by decide)⟩
/-- The contents after the third linear layer and its reading as heads, from contents W. -/
def cLin2 (W : Valuation τ sig (Elt F)) : Valuation τ sig (Elt F) := after opsLin2 W
/-- A buffer that stretch does not write keeps its contents. -/
theorem cLin2_keep (W : Valuation τ sig (Elt F)) (r : Ref sig .tc) (h : r ∉ wrLin2) :
    cLin2 W (no_index (Proc.devRef .tc r)) = W (Proc.devRef .tc r) :=
  after_keep opsLin2 opsLin2_writes W r h

theorem opsMix_sub : (opsMix : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub ..⟩
theorem opsMix_fresh : (opsMix : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsMix_writes : (opsMix : List (HloOp τ sig (Elt F))).Forall fun op => op.writes ⊆ (wrMix.map (Proc.devRef (τ := τ) .tc)).toFinset :=
  ⟨writes_sub_of_mem main_cst_31 rfl (by decide), writes_sub_of_mem main_v96 rfl (by decide), writes_sub_of_mem main_v97 rfl (by decide), writes_sub_of_mem main_v98 rfl (by decide), writes_sub_of_mem main_cst_32 rfl (by decide), writes_sub_of_mem main_v99 rfl (by decide), writes_sub_of_mem main_cst_33 rfl (by decide), writes_sub_of_mem main_v100 rfl (by decide), writes_sub_of_mem main_v101 rfl (by decide), writes_sub_of_mem main_v102 rfl (by decide), writes_sub_of_mem main_v103 rfl (by decide), writes_sub_of_mem main_v104 rfl (by decide), writes_sub_of_mem main_v105 rfl (by decide), writes_sub_of_mem main_cst_34 rfl (by decide), writes_sub_of_mem main_v106 rfl (by decide), writes_sub_of_mem main_v107 rfl (by decide), writes_sub_of_mem main_v108 rfl (by decide), writes_sub_of_mem main_v109 rfl (by decide), writes_sub_of_mem main_v110 rfl (by decide), writes_sub_of_mem main_v111 rfl (by decide)⟩
/-- The contents after the mixing of the heads, from contents W. -/
def cMix (W : Valuation τ sig (Elt F)) : Valuation τ sig (Elt F) := after opsMix W
/-- A buffer that stretch does not write keeps its contents. -/
theorem cMix_keep (W : Valuation τ sig (Elt F)) (r : Ref sig .tc) (h : r ∉ wrMix) :
    cMix W (no_index (Proc.devRef .tc r)) = W (Proc.devRef .tc r) :=
  after_keep opsMix opsMix_writes W r h

theorem opsNorm_sub : (opsNorm : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem opsNorm_fresh : (opsNorm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsNorm_writes : (opsNorm : List (HloOp τ sig (Elt F))).Forall fun op => op.writes ⊆ (wrNorm.map (Proc.devRef (τ := τ) .tc)).toFinset :=
  ⟨writes_sub_of_mem main_cst_35 rfl (by decide), writes_sub_of_mem main_v112 rfl (by decide), writes_sub_of_mem main_v113 rfl (by decide), writes_sub_of_mem main_cst_36 rfl (by decide), writes_sub_of_mem main_v114 rfl (by decide), writes_sub_of_mem main_v115 rfl (by decide), writes_sub_of_mem main_c_37 rfl (by decide), writes_sub_of_mem main_call18_cst rfl (by decide), writes_sub_of_mem main_call18_v0 rfl (by decide), writes_sub_of_mem main_call18_v1 rfl (by decide), writes_sub_of_mem main_call18_cst_0 rfl (by decide), writes_sub_of_mem main_call18_v2 rfl (by decide), writes_sub_of_mem main_call18_v3 rfl (by decide), writes_sub_of_mem main_call18_v4 rfl (by decide), writes_sub_of_mem main_call18_v5 rfl (by decide), writes_sub_of_mem main_call18_v6 rfl (by decide), writes_sub_of_mem main_call18_v7 rfl (by decide), writes_sub_of_mem main_call18_cst_1 rfl (by decide), writes_sub_of_mem main_call18_v8 rfl (by decide), writes_sub_of_mem main_call18_cst_2 rfl (by decide), writes_sub_of_mem main_call18_v9 rfl (by decide), writes_sub_of_mem main_call18_v10 rfl (by decide), writes_sub_of_mem main_call18_v11 rfl (by decide), writes_sub_of_mem main_call18_v12 rfl (by decide), writes_sub_of_mem main_call18_cst_3 rfl (by decide), writes_sub_of_mem main_call18_v13 rfl (by decide), writes_sub_of_mem main_call18_cst_4 rfl (by decide), writes_sub_of_mem main_call18_call0_v0 rfl (by decide), writes_sub_of_mem main_call18_call0_v1 rfl (by decide), writes_sub_of_mem main_v116 rfl (by decide), writes_sub_of_mem main_v117 rfl (by decide), writes_sub_of_mem main_v118 rfl (by decide), writes_sub_of_mem main_cst_38 rfl (by decide), writes_sub_of_mem main_v119 rfl (by decide), writes_sub_of_mem main_v120 rfl (by decide), writes_sub_of_mem main_v121 rfl (by decide), writes_sub_of_mem main_v122 rfl (by decide), writes_sub_of_mem main_v123 rfl (by decide), writes_sub_of_mem main_v124 rfl (by decide), writes_sub_of_mem main_v125 rfl (by decide), writes_sub_of_mem main_v126 rfl (by decide), writes_sub_of_mem main_v127 rfl (by decide), writes_sub_of_mem main_v128 rfl (by decide), writes_sub_of_mem main_v129 rfl (by decide)⟩
/-- The contents after the normalization, from contents W. -/
def cNorm (W : Valuation τ sig (Elt F)) : Valuation τ sig (Elt F) := after opsNorm W
/-- A buffer that stretch does not write keeps its contents. -/
theorem cNorm_keep (W : Valuation τ sig (Elt F)) (r : Ref sig .tc) (h : r ∉ wrNorm) :
    cNorm W (no_index (Proc.devRef .tc r)) = W (Proc.devRef .tc r) :=
  after_keep opsNorm opsNorm_writes W r h

theorem opsAct3a_sub : (opsAct3a : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub ..⟩
theorem opsAct3a_fresh : (opsAct3a : List (HloOp τ sig (Elt F))).Forall fun op => op.fresh = ∅ :=
  ⟨rfl, rfl, rfl, rfl, rfl, rfl, rfl, rfl, rfl, rfl, rfl⟩
theorem opsAct3a_writes : (opsAct3a : List (HloOp τ sig (Elt F))).Forall fun op => op.writes ⊆ (wrAct3a.map (Proc.devRef (τ := τ) .tc)).toFinset :=
  ⟨writes_sub_of_mem main_v130 rfl (by decide), writes_sub_of_mem main_cst_39 rfl (by decide), writes_sub_of_mem main_v131 rfl (by decide), writes_sub_of_mem main_v132 rfl (by decide), writes_sub_of_mem main_cst_40 rfl (by decide), writes_sub_of_mem main_call19_v0 rfl (by decide), writes_sub_of_mem main_call19_v1 rfl (by decide), writes_sub_of_mem main_v133 rfl (by decide), writes_sub_of_mem main_cst_41 rfl (by decide), writes_sub_of_mem main_v134 rfl (by decide), writes_sub_of_mem main_v135 rfl (by decide)⟩
/-- The contents after the fourth activation quantizer's first part (of the normalized array), from contents W. -/
def cAct3a (W : Valuation τ sig (Elt F)) : Valuation τ sig (Elt F) := after opsAct3a W
/-- A buffer that stretch does not write keeps its contents. -/
theorem cAct3a_keep (W : Valuation τ sig (Elt F)) (r : Ref sig .tc) (h : r ∉ wrAct3a) :
    cAct3a W (no_index (Proc.devRef .tc r)) = W (Proc.devRef .tc r) :=
  after_keep opsAct3a opsAct3a_writes W r h

theorem opsAct3b_sub : (opsAct3b : List (HloOp τ sig (Elt F))).Forall fun op => op.bufs ⊆ tcRefs τ sig :=
  ⟨unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsAct3b_fresh : (opsAct3b : List (HloOp τ sig (Elt F))).Forall fun op => op.fresh = ∅ :=
  ⟨rfl, rfl, rfl, rfl, rfl, rfl, rfl, rfl, rfl, rfl, rfl, rfl, rfl, rfl, rfl⟩
theorem opsAct3b_writes : (opsAct3b : List (HloOp τ sig (Elt F))).Forall fun op => op.writes ⊆ (wrAct3b.map (Proc.devRef (τ := τ) .tc)).toFinset :=
  ⟨writes_sub_of_mem main_v136 rfl (by decide), writes_sub_of_mem main_v137 rfl (by decide), writes_sub_of_mem main_v138 rfl (by decide), writes_sub_of_mem main_c_42 rfl (by decide), writes_sub_of_mem main_c_43 rfl (by decide), writes_sub_of_mem main_call21_v0 rfl (by decide), writes_sub_of_mem main_call21_v1 rfl (by decide), writes_sub_of_mem main_call21_v2 rfl (by decide), writes_sub_of_mem main_call21_v3 rfl (by decide), writes_sub_of_mem main_call21_v4 rfl (by decide), writes_sub_of_mem main_v139 rfl (by decide), writes_sub_of_mem main_v140 rfl (by decide), writes_sub_of_mem main_v141 rfl (by decide), writes_sub_of_mem main_v142 rfl (by decide), writes_sub_of_mem main_v143 rfl (by decide)⟩
/-- The contents after the fourth activation quantizer's second part, from contents W. -/
def cAct3b (W : Valuation τ sig (Elt F)) : Valuation τ sig (Elt F) := after opsAct3b W
/-- A buffer that stretch does not write keeps its contents. -/
theorem cAct3b_keep (W : Valuation τ sig (Elt F)) (r : Ref sig .tc) (h : r ∉ wrAct3b) :
    cAct3b W (no_index (Proc.devRef .tc r)) = W (Proc.devRef .tc r) :=
  after_keep opsAct3b opsAct3b_writes W r h

theorem opsW11_sub : (opsW11 : List (HloOp τ sig (Elt F))).Forall fun op => op.bufs ⊆ tcRefs τ sig :=
  ⟨unary_bufs_sub .., nullary_bufs_sub .., binary_bufs_sub .., nullary_bufs_sub .., binary_bufs_sub .., nullary_bufs_sub .., unary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem opsW11_fresh : (opsW11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩
theorem opsW11_writes : (opsW11 : List (HloOp τ sig (Elt F))).Forall fun op => op.writes ⊆ (wrW11.map (Proc.devRef (τ := τ) .tc)).toFinset :=
  ⟨writes_sub_of_mem main_v144 rfl (by decide), writes_sub_of_mem main_cst_44 rfl (by decide), writes_sub_of_mem main_v145 rfl (by decide), writes_sub_of_mem main_cst_45 rfl (by decide), writes_sub_of_mem main_v146 rfl (by decide), writes_sub_of_mem main_cst_46 rfl (by decide), writes_sub_of_mem main_call22_v0 rfl (by decide), writes_sub_of_mem main_v147 rfl (by decide), writes_sub_of_mem main_cst_47 rfl (by decide), writes_sub_of_mem main_v148 rfl (by decide), writes_sub_of_mem main_v149 rfl (by decide), writes_sub_of_mem main_v150 rfl (by decide), writes_sub_of_mem main_v151 rfl (by decide), writes_sub_of_mem main_c_48 rfl (by decide), writes_sub_of_mem main_c_49 rfl (by decide), writes_sub_of_mem main_call24_v0 rfl (by decide), writes_sub_of_mem main_call24_v1 rfl (by decide), writes_sub_of_mem main_call24_v2 rfl (by decide), writes_sub_of_mem main_call24_v3 rfl (by decide), writes_sub_of_mem main_call24_v4 rfl (by decide), writes_sub_of_mem main_v152 rfl (by decide), writes_sub_of_mem main_v153 rfl (by decide), writes_sub_of_mem main_v154 rfl (by decide), writes_sub_of_mem main_v155 rfl (by decide), writes_sub_of_mem main_v156 rfl (by decide)⟩
/-- The contents after the fourth weight quantizer (of argument 11), from contents W. -/
def cW11 (W : Valuation τ sig (Elt F)) : Valuation τ sig (Elt F) := after opsW11 W
/-- A buffer that stretch does not write keeps its contents. -/
theorem cW11_keep (W : Valuation τ sig (Elt F)) (r : Ref sig .tc) (h : r ∉ wrW11) :
    cW11 W (no_index (Proc.devRef .tc r)) = W (Proc.devRef .tc r) :=
  after_keep opsW11 opsW11_writes W r h

theorem opsLin3_sub : (opsLin3 : List (HloOp τ sig (Elt F))).Forall fun op => op.bufs ⊆ tcRefs τ sig :=
  ⟨binary_bufs_sub .., unary_bufs_sub .., unary_bufs_sub .., binary_bufs_sub ..⟩
theorem opsLin3_fresh : (opsLin3 : List (HloOp τ sig (Elt F))).Forall fun op => op.fresh = ∅ :=
  ⟨rfl, rfl, rfl, rfl⟩
theorem opsLin3_writes : (opsLin3 : List (HloOp τ sig (Elt F))).Forall fun op => op.writes ⊆ (wrLin3.map (Proc.devRef (τ := τ) .tc)).toFinset :=
  ⟨writes_sub_of_mem main_v157 rfl (by decide), writes_sub_of_mem main_v158 rfl (by decide), writes_sub_of_mem main_v159 rfl (by decide), writes_sub_of_mem main_v160 rfl (by decide)⟩
/-- The contents after the last linear layer, from contents W. -/
def cLin3 (W : Valuation τ sig (Elt F)) : Valuation τ sig (Elt F) := after opsLin3 W
/-- A buffer that stretch does not write keeps its contents. -/
theorem cLin3_keep (W : Valuation τ sig (Elt F)) (r : Ref sig .tc) (h : r ∉ wrLin3) :
    cLin3 W (no_index (Proc.devRef .tc r)) = W (Proc.devRef .tc r) :=
  after_keep opsLin3 opsLin3_writes W r h

end Cert.ReferenceIdeal.RefRun

end
-- ==== Proof.RefRun.Raw.lean ====
import proofs.«141461_j68564857913635_2_alg».proof.Proof.RefRun.MainEq
import proofs.«141461_j68564857913635_2_alg».proof.Proof.RefRun.OpsFacts

/-! The reference program's run. Its @main is a straight line of 287 host operations on a signature that scopes
    nothing, so every weakly fair execution terminates with each TensorCore buffer at the fold of the operations'
    results over the launch contents. The thirteen argument arrays are written by no operation, so they end
    unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: stretch by stretch. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h
    exacts [List.forall_iff_forall_mem.mp opsAct0_sub op h,
      List.forall_iff_forall_mem.mp opsW3_sub op h,
      List.forall_iff_forall_mem.mp opsLin0_sub op h,
      List.forall_iff_forall_mem.mp opsAct1a_sub op h,
      List.forall_iff_forall_mem.mp opsAct1b_sub op h,
      List.forall_iff_forall_mem.mp opsW5_sub op h,
      List.forall_iff_forall_mem.mp opsLin1_sub op h,
      List.forall_iff_forall_mem.mp opsAct2_sub op h,
      List.forall_iff_forall_mem.mp opsW7a_sub op h,
      List.forall_iff_forall_mem.mp opsW7b_sub op h,
      List.forall_iff_forall_mem.mp opsLin2_sub op h,
      List.forall_iff_forall_mem.mp opsMix_sub op h,
      List.forall_iff_forall_mem.mp opsNorm_sub op h,
      List.forall_iff_forall_mem.mp opsAct3a_sub op h,
      List.forall_iff_forall_mem.mp opsAct3b_sub op h,
      List.forall_iff_forall_mem.mp opsW11_sub op h,
      List.forall_iff_forall_mem.mp opsLin3_sub op h]

/-- Every operation determines its results: stretch by stretch. -/
theorem ops_fresh : ∀ op ∈ (ops : List (HloOp τ sig (Elt F))), op.fresh = ∅ := fun op h => by
  simp only [ops, List.mem_append] at h
  rcases h with h | h | h | h | h | h | h | h | h | h | h | h | h | h | h | h | h
  exacts [List.forall_iff_forall_mem.mp opsAct0_fresh op h,
    List.forall_iff_forall_mem.mp opsW3_fresh op h,
    List.forall_iff_forall_mem.mp opsLin0_fresh op h,
    List.forall_iff_forall_mem.mp opsAct1a_fresh op h,
    List.forall_iff_forall_mem.mp opsAct1b_fresh op h,
    List.forall_iff_forall_mem.mp opsW5_fresh op h,
    List.forall_iff_forall_mem.mp opsLin1_fresh op h,
    List.forall_iff_forall_mem.mp opsAct2_fresh op h,
    List.forall_iff_forall_mem.mp opsW7a_fresh op h,
    List.forall_iff_forall_mem.mp opsW7b_fresh op h,
    List.forall_iff_forall_mem.mp opsLin2_fresh op h,
    List.forall_iff_forall_mem.mp opsMix_fresh op h,
    List.forall_iff_forall_mem.mp opsNorm_fresh op h,
    List.forall_iff_forall_mem.mp opsAct3a_fresh op h,
    List.forall_iff_forall_mem.mp opsAct3b_fresh op h,
    List.forall_iff_forall_mem.mp opsW11_fresh op h,
    List.forall_iff_forall_mem.mp opsLin3_fresh op h]

/-- Every buffer some operation writes, in program order. -/
abbrev wrAll : List (Ref sig .tc) :=
  wrAct0 ++ (wrW3 ++ (wrLin0 ++ (wrAct1a ++ (wrAct1b ++ (wrW5 ++ (wrLin1 ++ (wrAct2 ++ (wrW7a ++ (wrW7b ++ (wrLin2 ++ (wrMix ++ (wrNorm ++ (wrAct3a ++ (wrAct3b ++ (wrW11 ++ (wrLin3))))))))))))))))

/-- A buffer no operation writes keeps its contents through the whole line: stretch by stretch, last first. -/
theorem ops_keep (V : Valuation τ sig (Elt F)) (r : Ref sig .tc) (h : r ∉ wrAll) :
    after ops V (Proc.devRef .tc r) = V (Proc.devRef .tc r) := by
  simp only [wrAll, List.mem_append, not_or] at h
  obtain ⟨h0, h1, h2, h3, h4, h5, h6, h7, h8, h9, h10, h11, h12, h13, h14, h15, h16⟩ := h
  simp only [ops, after_app]
  rw [after_of_writes_sub opsLin3 _ opsLin3_writes h16,
    after_of_writes_sub opsW11 _ opsW11_writes h15,
    after_of_writes_sub opsAct3b _ opsAct3b_writes h14,
    after_of_writes_sub opsAct3a _ opsAct3a_writes h13,
    after_of_writes_sub opsNorm _ opsNorm_writes h12,
    after_of_writes_sub opsMix _ opsMix_writes h11,
    after_of_writes_sub opsLin2 _ opsLin2_writes h10,
    after_of_writes_sub opsW7b _ opsW7b_writes h9,
    after_of_writes_sub opsW7a _ opsW7a_writes h8,
    after_of_writes_sub opsAct2 _ opsAct2_writes h7,
    after_of_writes_sub opsLin1 _ opsLin1_writes h6,
    after_of_writes_sub opsW5 _ opsW5_writes h5,
    after_of_writes_sub opsAct1b _ opsAct1b_writes h4,
    after_of_writes_sub opsAct1a _ opsAct1a_writes h3,
    after_of_writes_sub opsLin0 _ opsLin0_writes h2,
    after_of_writes_sub opsW3 _ opsW3_writes h1,
    after_of_writes_sub opsAct0 _ opsAct0_writes h0]

/-- On every device, for any float values, from any memory with zero counters: every weakly fair execution of
    @main terminates with the result buffer at the fold of the 287 operations over the launch contents, and the
    thirteen argument arrays unchanged. -/
theorem run_raw (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v160) = after (ops (F := F)) (fun b => m (c, b)) (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v160,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide))⟩)
    (run_seq scopedRefs_eq scopedSems_eq defs main (fun _ => ops) main_eq (fun _ => ops_sub) m ρ (fun _ => ops_fresh))

end Cert.ReferenceIdeal.RefRun

end
-- ==== Proof.RefRun.Contents.lean ====
import proofs.«141461_j68564857913635_2_alg».proof.Proof.RefRun.OpsFacts

/-! The whole line of the reference's operations is its seventeen stretches composed in order, each a function from
    the device's buffer contents to contents. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after the whole line: the seventeen stretches in order. -/
theorem after_ops (V : Valuation τ sig (Elt F)) :
    after ops V = cLin3 (cW11 (cAct3b (cAct3a (cNorm (cMix (cLin2 (cW7b (cW7a (cAct2 (cLin1 (cW5 (cAct1b (cAct1a (cLin0 (cW3 (cAct0 V)))))))))))))))) := by
  simp only [ops, after_app]
  rfl

end Cert.ReferenceIdeal.RefRun

end
-- ==== Proof.RefRun.Casts.lean ====
import Idealize.ShloMosaic.Lib.StableHlo

/-! A called function's operations move contents between a buffer's own type and the type of the tensor value it
    holds. The two are one type, so the moves are identities: a move there and back cancels, and at a buffer whose
    own type is the value's type by definition a single move is the identity. -/

namespace Cert.ReferenceIdeal.RefRun

open Idealize.ShloMosaic Idealize.ShloMosaic.StableHlo

variable {sig : RefSig} {Val : EltTy → Type}

/-- Contents moved to a buffer's own type and back are unchanged. -/
theorem ofBuf_toBuf {T : BufTy} (x : TRef sig T) (v : T.Contents Val) : x.ofBuf (x.toBuf v) = v := by
  obtain ⟨r, rfl, hd, hs⟩ := x
  rfl

/-- At a buffer typed by its own type, the move to the buffer's type is the identity. -/
theorem toBuf_self (r : Ref sig .tc) (hd : r.space ≠ .host) (hs : r.isScoped = false) (v : r.ty.Contents Val) :
    (TRef.of (T := r.ty) r rfl hd hs).toBuf v = v := rfl

/-- At a buffer typed by its own type, the move from the buffer's type is the identity. -/
theorem ofBuf_self (r : Ref sig .tc) (hd : r.space ≠ .host) (hs : r.isScoped = false) (v : r.ty.Contents Val) :
    (TRef.of (T := r.ty) r rfl hd hs).ofBuf v = v := rfl

end Cert.ReferenceIdeal.RefRun
-- ==== Proof.RefStagesLinear.lean ====
/-
  The reference's quantizers and its linear layer as functions of arrays: the host operations of the reference
  program, composed in program order at the ideal values.

  An activation array [4, 8192, 1024] is quantized row by row: the row's largest absolute entry (a maximum started
  from minus infinity), floored at a small constant, divides 127 to give the row's scale; every entry is multiplied by
  the scale, rounded to the nearest integer (ties to even), clamped to [-128, 127] (the bounds converted from
  integers) and divided by the scale again.  The program writes the quantized array as x + (q(x) - x).

  A weight matrix [1024, 1024] is quantized as a whole: the sum of its absolute entries (started from zero) divided
  by the number of entries, floored at the same constant, is inverted to give the scale; every entry is multiplied by
  the scale, rounded, clamped to [-1, 1] and divided by the scale again.  The same form w + (q(w) - w).

  The linear layer contracts the last axis of the activations against the second axis of the weights and adds the
  bias, broadcast along the first two axes.
-/
import proofs.«141461_j68564857913635_2_alg».proof.ReferenceIdeal
import Idealize.ShloMosaic.PureOps.Ideal

noncomputable section

namespace Cert.ReferenceIdeal.Stages

open Idealize.ShloMosaic Idealize.SL.Sem
open Cert.ReferenceIdeal
open Cert.ReferenceIdeal.Facts₀ Cert.ReferenceIdeal.Facts

variable [Facts]

/-! ## The activation quantizer -/

/-- The scale of each row: 127 over the row's largest absolute entry, that entry floored at the small constant. -/
abbrev actScaleV (x : FVec Ideal S4x8192x1024 .f32) : FVec Ideal S4x8192x1 .f32 :=
  Host.divf (F := Ideal)
    (broadcastInDim S4x8192x1 ![] bcast_S_S4x8192x1 (constant (F := Ideal) S_ .f32 0x42FE0000#32))
    (maximumf (F := Ideal)
      (broadcastInDim S4x8192x1 ![] bcast_S_S4x8192x1 (id (constant (F := Ideal) S_ .f32 0x3727C5AC#32)))
      (broadcastInDim S4x8192x1 ![0, 1] bcast_S4x8192_S4x8192x1_0_1
        (Host.reduce (FloatOps.maximumf (F := Ideal)) (Host.absf (F := Ideal) x)
          (constant (F := Ideal) S_ .f32 0xFF800000#32) reducesTo_S4x8192x1024_S4x8192_d2 h_S_)))

/-- The entries scaled, rounded and clamped to [-128, 127]. -/
abbrev actClamped (x : FVec Ideal S4x8192x1024 .f32) : FVec Ideal S4x8192x1024 .f32 :=
  minimumf (F := Ideal)
    (broadcastInDim S4x8192x1024 ![] bcast_S_S4x8192x1024
      (sitofp (F := Ideal) .f32 (constantI S_ 32 127#32)))
    (maximumf (F := Ideal)
      (broadcastInDim S4x8192x1024 ![] bcast_S_S4x8192x1024
        (sitofp (F := Ideal) .f32 (constantI S_ 32 4294967168#32)))
      (Host.roundeven (F := Ideal)
        (mulf (F := Ideal) x
          (broadcastInDim S4x8192x1024 ![0, 1, 2] bcast_S4x8192x1_S4x8192x1024_0_1_2 (actScaleV x)))))

/-- The quantized activations, in the form x + (q(x) - x). -/
abbrev steAct (x : FVec Ideal S4x8192x1024 .f32) : FVec Ideal S4x8192x1024 .f32 :=
  addf (F := Ideal) x
    (subf (F := Ideal)
      (Host.divf (F := Ideal) (actClamped x)
        (broadcastInDim S4x8192x1024 ![0, 1, 2] bcast_S4x8192x1_S4x8192x1024_0_1_2 (actScaleV x)))
      x)

/-! ## The weight quantizer -/

/-- The scale of a matrix: one over its mean absolute entry, that mean floored at the small constant. -/
abbrev wScaleV (w : FVec Ideal S1024x1024 .f32) : FVec Ideal S_ .f32 :=
  Host.divf (F := Ideal)
    (constant (F := Ideal) S_ .f32 0x3F800000#32)
    (maximumf (F := Ideal)
      (id (constant (F := Ideal) S_ .f32 0x3727C5AC#32))
      (Host.divf (F := Ideal)
        (Host.reduceAdd (F := Ideal) (Host.absf (F := Ideal) w) (constant (F := Ideal) S_ .f32 0x00000000#32)
          reducesTo_S1024x1024_S_d0_1 h_S_)
        (constant (F := Ideal) S_ .f32 0x49800000#32)))

/-- The entries scaled, rounded and clamped to [-1, 1]. -/
abbrev wClamped (w : FVec Ideal S1024x1024 .f32) : FVec Ideal S1024x1024 .f32 :=
  minimumf (F := Ideal)
    (broadcastInDim S1024x1024 ![] bcast_S_S1024x1024
      (sitofp (F := Ideal) .f32 (constantI S_ 32 1#32)))
    (maximumf (F := Ideal)
      (broadcastInDim S1024x1024 ![] bcast_S_S1024x1024
        (sitofp (F := Ideal) .f32 (constantI S_ 32 4294967295#32)))
      (Host.roundeven (F := Ideal)
        (mulf (F := Ideal) w (broadcastInDim S1024x1024 ![] bcast_S_S1024x1024 (wScaleV w)))))

/-- The quantized weights, in the form w + (q(w) - w). -/
abbrev steWeight (w : FVec Ideal S1024x1024 .f32) : FVec Ideal S1024x1024 .f32 :=
  addf (F := Ideal) w
    (subf (F := Ideal)
      (Host.divf (F := Ideal) (wClamped w) (broadcastInDim S1024x1024 ![] bcast_S_S1024x1024 (wScaleV w)))
      w)

/-! ## The linear layer -/

/-- The contraction of the activations' last axis against the weights' second axis, plus the broadcast bias. -/
abbrev project (xs : FVec Ideal S4x8192x1024 .f32) (ws : FVec Ideal S1024x1024 .f32) (b : FVec Ideal S1024 .f32) :
    FVec Ideal S4x8192x1024 .f32 :=
  addf (F := Ideal)
    (Host.dotGeneral (F := Ideal) dot_S4x8192x1024_S1024x1024_S4x8192x1024_2_1_01_0_n_n none xs ws)
    (broadcastInDim S4x8192x1024 ![0, 1, 2] bcast_S1x1x1024_S4x8192x1024_0_1_2
      (broadcastInDim S1x1x1024 ![2] bcast_S1024_S1x1x1024_2 b))

end Cert.ReferenceIdeal.Stages

end
-- ==== Proof.RefRun.StretchAct.lean ====
import proofs.«141461_j68564857913635_2_alg».proof.Proof.RefRun.Contents
import proofs.«141461_j68564857913635_2_alg».proof.Proof.RefRun.Casts
import proofs.«141461_j68564857913635_2_alg».proof.Proof.RefStagesLinear

/-! Each of the four activation-quantizer stretches leaves, in its last buffer, the quantizer applied to what its
    input buffer held: the stretch's operations composed, each result read where it is written, and the called
    functions' moves between a buffer's type and its value's type dropped (they are identities). -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

set_option maxRecDepth 8192 in
set_option maxHeartbeats 2000000 in
/-- The first activation quantizer's result. -/
theorem act0_out (W : Valuation τ sig (Elt Ideal)) :
    cAct0 W (no_index (Proc.devRef .tc main_v13)) = steAct (W (Proc.devRef .tc main_arg0)) := by
  unfold cAct0
  simp only [opsAct0]
  after_results_simp
  simp only [ofBuf_toBuf]
  repeat (first | rw [toBuf_self] | rw [ofBuf_self])
  first | done | rfl

set_option maxRecDepth 8192 in
set_option maxHeartbeats 2000000 in
/-- The second activation quantizer's result (two stretches). -/
theorem act1_out (W : Valuation τ sig (Elt Ideal)) :
    cAct1b (cAct1a W) (no_index (Proc.devRef .tc main_v45)) = steAct (W (Proc.devRef .tc main_arg1)) := by
  unfold cAct1b cAct1a
  simp only [opsAct1a, opsAct1b]
  after_results_simp
  simp only [ofBuf_toBuf]
  repeat (first | rw [toBuf_self] | rw [ofBuf_self])
  first | done | rfl

set_option maxRecDepth 8192 in
set_option maxHeartbeats 2000000 in
/-- The third activation quantizer's result. -/
theorem act2_out (W : Valuation τ sig (Elt Ideal)) :
    cAct2 W (no_index (Proc.devRef .tc main_v77)) = steAct (W (Proc.devRef .tc main_arg2)) := by
  unfold cAct2
  simp only [opsAct2]
  after_results_simp
  simp only [ofBuf_toBuf]
  repeat (first | rw [toBuf_self] | rw [ofBuf_self])
  first | done | rfl

set_option maxRecDepth 8192 in
set_option maxHeartbeats 2000000 in
/-- The fourth activation quantizer's result (two stretches), of the normalized array. -/
theorem act3_out (W : Valuation τ sig (Elt Ideal)) :
    cAct3b (cAct3a W) (no_index (Proc.devRef .tc main_v143)) = steAct (W (Proc.devRef .tc main_v129)) := by
  unfold cAct3b cAct3a
  simp only [opsAct3a, opsAct3b]
  after_results_simp
  simp only [ofBuf_toBuf]
  repeat (first | rw [toBuf_self] | rw [ofBuf_self])
  first | done | rfl

end Cert.ReferenceIdeal.RefRun

end
-- ==== Proof.RefRun.StretchWeight.lean ====
import proofs.«141461_j68564857913635_2_alg».proof.Proof.RefRun.Contents
import proofs.«141461_j68564857913635_2_alg».proof.Proof.RefStagesLinear

/-! Each of the four weight-quantizer stretches leaves, in its last buffer, the quantizer applied to what its
    input buffer held. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

set_option maxRecDepth 8192 in
set_option maxHeartbeats 2000000 in
/-- The first weight quantizer's result. -/
theorem w3_out (W : Valuation τ sig (Elt Ideal)) :
    cW3 W (no_index (Proc.devRef .tc main_v26)) = steWeight (W (Proc.devRef .tc main_arg3)) := by
  unfold cW3
  simp only [opsW3]
  after_results_simp
  first | done | rfl

set_option maxRecDepth 8192 in
set_option maxHeartbeats 2000000 in
/-- The second weight quantizer's result. -/
theorem w5_out (W : Valuation τ sig (Elt Ideal)) :
    cW5 W (no_index (Proc.devRef .tc main_v58)) = steWeight (W (Proc.devRef .tc main_arg5)) := by
  unfold cW5
  simp only [opsW5]
  after_results_simp
  first | done | rfl

set_option maxRecDepth 8192 in
set_option maxHeartbeats 2000000 in
/-- The third weight quantizer's result (two stretches). -/
theorem w7_out (W : Valuation τ sig (Elt Ideal)) :
    cW7b (cW7a W) (no_index (Proc.devRef .tc main_v90)) = steWeight (W (Proc.devRef .tc main_arg7)) := by
  unfold cW7b cW7a
  simp only [opsW7a, opsW7b]
  after_results_simp
  first | done | rfl

set_option maxRecDepth 8192 in
set_option maxHeartbeats 2000000 in
/-- The fourth weight quantizer's result. -/
theorem w11_out (W : Valuation τ sig (Elt Ideal)) :
    cW11 W (no_index (Proc.devRef .tc main_v156)) = steWeight (W (Proc.devRef .tc main_arg11)) := by
  unfold cW11
  simp only [opsW11]
  after_results_simp
  first | done | rfl

end Cert.ReferenceIdeal.RefRun

end
-- ==== Proof.RefStagesMix.lean ====
/-
  The reference's head mixing and its normalization as two functions of arrays: the host operations of the reference
  program between the three projected arrays and the input of the last linear layer, composed in program order.

  Mixing.  Each [4, 8192, 1024] array is read as [4, 8192, 16, 64]; the query is divided by the constant 8; the scores
  are the contraction of query and key over the last axis, batched over the first two; the softmax over the last axis
  of the scores is a maximum started from minus infinity, a maximum against minus infinity, a subtraction, an
  exponential, a sum started from zero and a division; the weights are contracted with the value heads and the result
  is read back as [4, 8192, 1024].

  Normalization.  The mean over the last axis is a sum started from zero divided by the constant 1024.  The mean
  squared deviation recomputes that mean, squares the deviations, sums them and divides by 1024 minus the
  integer 0 converted to a float, keeping the quotient where that divisor is positive.  The result is
  (x - mean) * rsqrt (msd + eps) * gamma + beta.
-/
import proofs.«141461_j68564857913635_2_alg».proof.ReferenceIdeal
import Idealize.ShloMosaic.PureOps.Ideal

noncomputable section

namespace Cert.ReferenceIdeal.Stages

open Idealize.ShloMosaic Idealize.SL.Sem
open Cert.ReferenceIdeal Cert.ReferenceIdeal.Facts₀ Cert.ReferenceIdeal.Facts

variable [Facts]

/-! ## Mixing the heads -/

/-- A [4, 8192, 1024] array read as 16 heads of 64 per token. -/
abbrev heads (x : FVec Ideal S4x8192x1024 .f32) : FVec Ideal S4x8192x16x64 .f32 :=
  shapeCast S4x8192x16x64 x shapeCasts_S4x8192x1024_S4x8192x16x64

/-- The query heads divided by the constant 8. -/
abbrev scaled (q : FVec Ideal S4x8192x1024 .f32) : FVec Ideal S4x8192x16x64 .f32 :=
  Host.divf (F := Ideal) (heads q)
    (broadcastInDim S4x8192x16x64 ![] bcast_S_S4x8192x16x64 (constant (F := Ideal) S_ .f32 0x41000000#32))

/-- The scores: scaled query heads against key heads, contracted over the 64 positions. -/
abbrev scores (q k : FVec Ideal S4x8192x1024 .f32) : FVec Ideal S4x8192x16x16 .f32 :=
  Host.dotGeneral (F := Ideal) dot_S4x8192x16x64_S4x8192x16x64_S4x8192x16x16_3_3_2_2_01_01 none (scaled q) (heads k)

/-- The shift of the softmax: the maximum over the last axis started from minus infinity, then a maximum against
    minus infinity. -/
abbrev rowMax (s : FVec Ideal S4x8192x16x16 .f32) : FVec Ideal S4x8192x16 .f32 :=
  maximumf (F := Ideal)
    (broadcastInDim S4x8192x16 ![] bcast_S_S4x8192x16 (constant (F := Ideal) S_ .f32 0xFF800000#32))
    (Host.reduce (FloatOps.maximumf (F := Ideal) (φ := .f32)) s (constant (F := Ideal) S_ .f32 0xFF800000#32)
      reducesTo_S4x8192x16x16_S4x8192x16_d3 h_S_)

/-- A per-head number spread back over the last axis. -/
abbrev spread (m : FVec Ideal S4x8192x16 .f32) : FVec Ideal S4x8192x16x16 .f32 :=
  broadcastInDim S4x8192x16x16 ![0, 1, 2, 3] bcast_S4x8192x16x1_S4x8192x16x16_0_1_2_3
    (broadcastInDim S4x8192x16x1 ![0, 1, 2] bcast_S4x8192x16_S4x8192x16x1_0_1_2 m)

/-- The shifted exponentials. -/
abbrev expo (s : FVec Ideal S4x8192x16x16 .f32) : FVec Ideal S4x8192x16x16 .f32 :=
  Host.exp (F := Ideal) (subf (F := Ideal) s (spread (rowMax s)))

/-- The sum of the shifted exponentials over the last axis, started from zero. -/
abbrev expoSum (p : FVec Ideal S4x8192x16x16 .f32) : FVec Ideal S4x8192x16 .f32 :=
  Host.reduceAdd (F := Ideal) p (constant (F := Ideal) S_ .f32 0x00000000#32) reducesTo_S4x8192x16x16_S4x8192x16_d3 h_S_

/-- The softmax weights. -/
abbrev weights (s : FVec Ideal S4x8192x16x16 .f32) : FVec Ideal S4x8192x16x16 .f32 :=
  Host.divf (F := Ideal) (expo s) (spread (expoSum (expo s)))

/-- The mixed array: the weights contracted with the value heads, read back as [4, 8192, 1024]. -/
abbrev mixStage (q k v : FVec Ideal S4x8192x1024 .f32) : FVec Ideal S4x8192x1024 .f32 :=
  shapeCast S4x8192x1024
    (Host.dotGeneral (F := Ideal) dot_S4x8192x16x16_S4x8192x16x64_S4x8192x16x64_3_2_2_3_01_01 none
      (weights (scores q k)) (heads v))
    shapeCasts_S4x8192x16x64_S4x8192x1024

/-! ## Normalization -/

/-- The sum over the last axis started from zero, kept as a column. -/
abbrev sumCol (x : FVec Ideal S4x8192x1024 .f32) : FVec Ideal S4x8192x1 .f32 :=
  broadcastInDim S4x8192x1 ![0, 1] bcast_S4x8192_S4x8192x1_0_1
    (Host.reduceAdd (F := Ideal) x (constant (F := Ideal) S_ .f32 0x00000000#32) reducesTo_S4x8192x1024_S4x8192_d2 h_S_)

/-- The mean over the last axis, as a column: the sum divided by the constant 1024. -/
abbrev meanCol (x : FVec Ideal S4x8192x1024 .f32) : FVec Ideal S4x8192x1 .f32 :=
  Host.divf (F := Ideal) (sumCol x)
    (broadcastInDim S4x8192x1 ![] bcast_S_S4x8192x1 (constant (F := Ideal) S_ .f32 0x44800000#32))

/-- A column spread over the last axis. -/
abbrev spreadCol (c : FVec Ideal S4x8192x1 .f32) : FVec Ideal S4x8192x1024 .f32 :=
  broadcastInDim S4x8192x1024 ![0, 1, 2] bcast_S4x8192x1_S4x8192x1024_0_1_2 c

/-- The squared deviations from the mean. -/
abbrev sqDev (x : FVec Ideal S4x8192x1024 .f32) : FVec Ideal S4x8192x1024 .f32 :=
  mulf (F := Ideal) (subf (F := Ideal) x (spreadCol (meanCol x))) (subf (F := Ideal) x (spreadCol (meanCol x)))

/-- The count the squared deviations are divided by: 1024 minus the integer 0 converted to a float. -/
abbrev count : FVec Ideal S_ .f32 :=
  subf (F := Ideal) (constant (F := Ideal) S_ .f32 0x44800000#32) (sitofp (F := Ideal) .f32 (constantI S_ 32 0#32))

/-- The mean squared deviation, as a column: the quotient where the count is positive, the not-a-number word
    elsewhere. -/
abbrev varCol (x : FVec Ideal S4x8192x1024 .f32) : FVec Ideal S4x8192x1 .f32 :=
  select
    (broadcastInDim S4x8192x1 ![] bcast_S_S4x8192x1
      (cmpf (F := Ideal) .ogt count (constant (F := Ideal) S_ .f32 0x00000000#32)))
    (Host.divf (F := Ideal) (sumCol (sqDev x)) (broadcastInDim S4x8192x1 ![] bcast_S_S4x8192x1 count))
    (broadcastInDim S4x8192x1 ![] bcast_S_S4x8192x1 (id (constant (F := Ideal) S_ .f32 0x7FC00000#32)))

/-- A [1024] array spread over the tokens. -/
abbrev spreadVec (g : FVec Ideal S1024 .f32) : FVec Ideal S4x8192x1024 .f32 :=
  broadcastInDim S4x8192x1024 ![0, 1, 2] bcast_S1x1x1024_S4x8192x1024_0_1_2
    (broadcastInDim S1x1x1024 ![2] bcast_S1024_S1x1x1024_2 g)

/-- The normalized array: (x - mean) * rsqrt (msd + eps) * gamma + beta. -/
abbrev normStage (x : FVec Ideal S4x8192x1024 .f32) (g b : FVec Ideal S1024 .f32) : FVec Ideal S4x8192x1024 .f32 :=
  addf (F := Ideal)
    (mulf (F := Ideal)
      (mulf (F := Ideal)
        (subf (F := Ideal) x (spreadCol (meanCol x)))
        (spreadCol (Host.rsqrt (F := Ideal)
          (addf (F := Ideal) (varCol x)
            (broadcastInDim S4x8192x1 ![] bcast_S_S4x8192x1 (constant (F := Ideal) S_ .f32 0x3727C5AC#32))))))
      (spreadVec g))
    (spreadVec b)

end Cert.ReferenceIdeal.Stages

end
-- ==== Proof.RefRun.StretchLin.lean ====
import proofs.«141461_j68564857913635_2_alg».proof.Proof.RefRun.Contents
import proofs.«141461_j68564857913635_2_alg».proof.Proof.RefStagesLinear
import proofs.«141461_j68564857913635_2_alg».proof.Proof.RefStagesMix

/-! Each linear-layer stretch leaves the layer applied to the quantized activations, the quantized weights and the
    bias it finds; the first three also read the result as 16 heads of 64. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

set_option maxRecDepth 8192 in
set_option maxHeartbeats 2000000 in
/-- The first linear layer's result, read as heads. -/
theorem lin0_out (W : Valuation τ sig (Elt Ideal)) :
    cLin0 W (no_index (Proc.devRef .tc main_v31)) = heads (project (W (Proc.devRef .tc main_v13)) (W (Proc.devRef .tc main_v26)) (W (Proc.devRef .tc main_arg4))) := by
  unfold cLin0
  simp only [opsLin0]
  after_results_simp
  first | done | rfl

set_option maxRecDepth 8192 in
set_option maxHeartbeats 2000000 in
/-- The second linear layer's result, read as heads. -/
theorem lin1_out (W : Valuation τ sig (Elt Ideal)) :
    cLin1 W (no_index (Proc.devRef .tc main_v63)) = heads (project (W (Proc.devRef .tc main_v45)) (W (Proc.devRef .tc main_v58)) (W (Proc.devRef .tc main_arg6))) := by
  unfold cLin1
  simp only [opsLin1]
  after_results_simp
  first | done | rfl

set_option maxRecDepth 8192 in
set_option maxHeartbeats 2000000 in
/-- The third linear layer's result, read as heads. -/
theorem lin2_out (W : Valuation τ sig (Elt Ideal)) :
    cLin2 W (no_index (Proc.devRef .tc main_v95)) = heads (project (W (Proc.devRef .tc main_v77)) (W (Proc.devRef .tc main_v90)) (W (Proc.devRef .tc main_arg8))) := by
  unfold cLin2
  simp only [opsLin2]
  after_results_simp
  first | done | rfl

set_option maxRecDepth 8192 in
set_option maxHeartbeats 2000000 in
/-- The last linear layer's result. -/
theorem lin3_out (W : Valuation τ sig (Elt Ideal)) :
    cLin3 W (no_index (Proc.devRef .tc main_v160)) = project (W (Proc.devRef .tc main_v143)) (W (Proc.devRef .tc main_v156)) (W (Proc.devRef .tc main_arg12)) := by
  unfold cLin3
  simp only [opsLin3]
  after_results_simp
  first | done | rfl

end Cert.ReferenceIdeal.RefRun

end
-- ==== Proof.RefRun.StretchMixNorm.lean ====
import proofs.«141461_j68564857913635_2_alg».proof.Proof.RefRun.Contents
import proofs.«141461_j68564857913635_2_alg».proof.Proof.RefStagesMix

/-! The mixing stretch leaves the mixing stage applied to the three arrays of heads it finds; the normalization
    stretch leaves the normalization stage applied to the mixed array and the two parameter vectors. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

/-- The mixing stage over arrays already read as heads. -/
abbrev mixHeads (qh kh vh : FVec Ideal S4x8192x16x64 .f32) : FVec Ideal S4x8192x1024 .f32 :=
  shapeCast S4x8192x1024
    (Host.dotGeneral (F := Ideal) dot_S4x8192x16x16_S4x8192x16x64_S4x8192x16x64_3_2_2_3_01_01 none
      (weights
        (Host.dotGeneral (F := Ideal) dot_S4x8192x16x64_S4x8192x16x64_S4x8192x16x16_3_3_2_2_01_01 none
          (Host.divf (F := Ideal) qh
            (broadcastInDim S4x8192x16x64 ![] bcast_S_S4x8192x16x64 (constant (F := Ideal) S_ .f32 0x41000000#32)))
          kh))
      vh)
    shapeCasts_S4x8192x16x64_S4x8192x1024

/-- The mixing stage reads its three arrays as heads first. -/
theorem mixStage_eq (q k v : FVec Ideal S4x8192x1024 .f32) :
    mixStage q k v = mixHeads (heads q) (heads k) (heads v) := rfl

set_option maxRecDepth 8192 in
set_option maxHeartbeats 2000000 in
/-- The mixing stretch's result. -/
theorem mix_out (W : Valuation τ sig (Elt Ideal)) :
    cMix W (no_index (Proc.devRef .tc main_v111)) = mixHeads (W (Proc.devRef .tc main_v31)) (W (Proc.devRef .tc main_v63)) (W (Proc.devRef .tc main_v95)) := by
  unfold cMix
  simp only [opsMix]
  after_results_simp
  first | done | rfl

set_option maxRecDepth 8192 in
set_option maxHeartbeats 2000000 in
/-- The normalization stretch's result. -/
theorem norm_out (W : Valuation τ sig (Elt Ideal)) :
    cNorm W (no_index (Proc.devRef .tc main_v129)) = normStage (W (Proc.devRef .tc main_v111)) (W (Proc.devRef .tc main_arg9)) (W (Proc.devRef .tc main_arg10)) := by
  unfold cNorm
  simp only [opsNorm]
  after_results_simp
  first | done | rfl

end Cert.ReferenceIdeal.RefRun

end
-- ==== Proof.RefRun.Result.lean ====
import proofs.«141461_j68564857913635_2_alg».proof.Proof.RefRun.Contents
import proofs.«141461_j68564857913635_2_alg».proof.Proof.RefRun.StretchAct
import proofs.«141461_j68564857913635_2_alg».proof.Proof.RefRun.StretchWeight
import proofs.«141461_j68564857913635_2_alg».proof.Proof.RefRun.StretchLin
import proofs.«141461_j68564857913635_2_alg».proof.Proof.RefRun.StretchMixNorm

/-! The reference's result as a function of its thirteen argument arrays. Stretch by stretch, last first, the result
    buffer's contents are read back: each stretch's last buffer holds its stage applied to the buffers it reads, and
    a buffer a stretch does not write is read through it unchanged, down to the launch contents of the arguments. -/

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages

set_option maxRecDepth 8192 in
set_option maxHeartbeats 2000000 in
/-- The result buffer after the whole line, from contents `V`: three quantized linear layers, the mixing of their
    heads, the normalization, and a fourth quantized linear layer, over what `V` holds at the arguments. -/
theorem after_ops_result (V : Valuation τ sig (Elt Ideal)) :
    after (ops (F := Ideal)) V (Proc.devRef .tc main_v160)
      = project
          (steAct (normStage
            (mixStage
              (project (steAct (V (Proc.devRef .tc main_arg0))) (steWeight (V (Proc.devRef .tc main_arg3))) (V (Proc.devRef .tc main_arg4)))
              (project (steAct (V (Proc.devRef .tc main_arg1))) (steWeight (V (Proc.devRef .tc main_arg5))) (V (Proc.devRef .tc main_arg6)))
              (project (steAct (V (Proc.devRef .tc main_arg2))) (steWeight (V (Proc.devRef .tc main_arg7))) (V (Proc.devRef .tc main_arg8))))
            (V (Proc.devRef .tc main_arg9)) (V (Proc.devRef .tc main_arg10))))
          (steWeight (V (Proc.devRef .tc main_arg11))) (V (Proc.devRef .tc main_arg12)) := by
  rw [after_ops]
  simp (disch := decide) only [lin3_out, w11_out, act3_out, norm_out, mix_out, lin2_out, w7_out, act2_out, lin1_out,
    w5_out, act1_out, lin0_out, w3_out, act0_out,
    cLin3_keep, cW11_keep, cAct3b_keep, cAct3a_keep, cNorm_keep, cMix_keep, cLin2_keep, cW7b_keep, cW7a_keep, cAct2_keep, cLin1_keep, cW5_keep, cAct1b_keep, cAct1a_keep, cLin0_keep, cW3_keep, cAct0_keep]
  first | done | rfl

end Cert.ReferenceIdeal.RefRun

end
-- ==== Proof.SpecMath.lean ====
/-
  The literals of the specification as the extended reals they denote, and three small facts about arithmetic on
  the extended reals: a row of real numbers, the cancellation x + (y - x) = y at a real x, and division by eight as
  multiplication by one eighth.
-/
import proofs.«141461_j68564857913635_2_alg».proof.Proof.Spec

noncomputable section

namespace Cert.BitAttn

open Idealize.ShloMosaic

/-- Every entry of a family of extended reals is a real number. -/
def IsReal {α : Type} (x : α → EReal) : Prop := ∀ i, ∃ r : ℝ, x i = (r : EReal)

/-- At a real x, adding y - x to x gives y, whatever y is (the infinities included). -/
theorem ste_cancel (x y : EReal) (hx : ∃ r : ℝ, x = (r : EReal)) : x + (y - x) = y := by
  obtain ⟨r, rfl⟩ := hx
  induction y using EReal.rec with
  | bot => simp
  | top => simp
  | coe s => rw [← EReal.coe_sub, ← EReal.coe_add]; congr 1; ring

/-! ## The literals -/

/-- The small constant, as a real number: 10995116 · 2⁻⁴⁰. -/
def eps : ℝ := 10995116 / 1099511627776

theorem eps_pos : 0 < eps := by unfold eps; norm_num

theorem cEps_eq : cEps = ((eps : ℝ) : EReal) := by
  unfold cEps eps
  simp [Ideal.ofBits, Ideal.ieee, -EReal.coe_mul]; norm_num

theorem c127_eq : c127 = ((127 : ℝ) : EReal) := by
  unfold c127
  simp [Ideal.ofBits, Ideal.ieee, -EReal.coe_mul]; norm_num

theorem cM128_eq : cM128 = ((-128 : ℝ) : EReal) := by
  unfold cM128
  simp [Ideal.ofBits, Ideal.ieee, -EReal.coe_mul]; norm_num

theorem cOne_eq : cOne = 1 := by
  unfold cOne
  simp [Ideal.ofBits, Ideal.ieee, -EReal.coe_mul]; norm_num

theorem cM1_eq : cM1 = -1 := by
  unfold cM1
  simp [Ideal.ofBits, Ideal.ieee, -EReal.coe_mul]; norm_num

theorem cNegInf_eq : cNegInf = ⊥ := by
  unfold cNegInf
  simp [Ideal.ofBits, Ideal.ieee]

theorem cCount_eq : cCount = ((1048576 : ℝ) : EReal) := by
  unfold cCount
  simp [Ideal.ofBits, Ideal.ieee, -EReal.coe_mul]; norm_num

theorem c1024_eq : c1024 = ((1024 : ℝ) : EReal) := by
  unfold c1024
  simp [Ideal.ofBits, Ideal.ieee, -EReal.coe_mul]; norm_num

theorem cEighth_eq : cEighth = ((1 / 8 : ℝ) : EReal) := by
  unfold cEighth
  simp [Ideal.ofBits, Ideal.ieee, -EReal.coe_mul]; norm_num

/-- The pattern of 8 denotes the real 8. -/
theorem ofBits_eight : Ideal.ofBits .f32 0x41000000#32 = ((8 : ℝ) : EReal) := by
  simp [Ideal.ofBits, Ideal.ieee, -EReal.coe_mul]; norm_num

/-- Dividing by 8 is multiplying by one eighth, at the infinities too. -/
theorem div_eight (x : EReal) : Ideal.div x (Ideal.ofBits .f32 0x41000000#32) = x * cEighth := by
  rw [ofBits_eight, cEighth_eq]
  exact Ideal.div_coe (by norm_num) x

/-! ## Integers converted to floats: the signed value of a 32-bit word, as a real -/

theorem toInt_m128 : (((4294967168#32 : BitVec 32).toInt : ℝ) : EReal) = cM128 := by
  rw [cM128_eq, show (4294967168#32 : BitVec 32).toInt = -128 from by decide]; norm_num

theorem toInt_127 : (((127#32 : BitVec 32).toInt : ℝ) : EReal) = c127 := by
  rw [c127_eq, show (127#32 : BitVec 32).toInt = 127 from by decide]; norm_num

theorem toInt_m1 : (((4294967295#32 : BitVec 32).toInt : ℝ) : EReal) = cM1 := by
  rw [cM1_eq, show (4294967295#32 : BitVec 32).toInt = -1 from by decide]; norm_num

theorem toInt_one : (((1#32 : BitVec 32).toInt : ℝ) : EReal) = cOne := by
  rw [cOne_eq, show (1#32 : BitVec 32).toInt = 1 from by decide]; norm_num

theorem toInt_1024 : (((1024#32 : BitVec 32).toInt : ℝ) : EReal) = c1024 := by
  rw [c1024_eq, show (1024#32 : BitVec 32).toInt = 1024 from by decide]; norm_num

end Cert.BitAttn

end
-- ==== Proof.RefReadLinear.lean ====
/-
  The reference's quantizers and its linear layer read at an index.

  The activation quantizer at entry (b, n, e) is the 8-bit quantization of row (b, n) at e; the weight quantizer at
  (o, e) is the ternary quantization of the matrix at (o, e); the linear layer at (b, n, o) is the sum over e of the
  activations at (b, n, e) times the weights at (o, e), plus the bias at o.  The two quantizers are written by the
  program as x + (q(x) - x), which is q(x) wherever x is a real number.
-/
import proofs.«141461_j68564857913635_2_alg».proof.Proof.RefStagesLinear
import proofs.«141461_j68564857913635_2_alg».proof.Proof.Spec
import proofs.«141461_j68564857913635_2_alg».proof.Proof.SpecMath
import Idealize.ShloMosaic.PureOps.Ideal.Laws
import Idealize.ShloMosaic.Lib.Pipeline.Value
import Idealize.ShloMosaic.Lib.ValueIdx

noncomputable section

open scoped BigOperators

namespace Cert.ReferenceIdeal.Read.Linear

open Idealize.ShloMosaic Idealize.ShloMosaic.ValueIdx
open Cert.ReferenceIdeal Cert.ReferenceIdeal.Stages Cert.BitAttn
open Cert.ReferenceIdeal.Facts₀ Cert.ReferenceIdeal.Facts

variable [Facts]

/-! ## Broadcasts at an index -/

/-- A broadcast scalar reads the scalar at every index. -/
theorem bcast_scalar_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A per-row value [4, 8192, 1] broadcast along the row reads the row's value. -/
theorem bcast_row_apply {α : Type} (h : S4x8192x1.BroadcastsInDim S4x8192x1024 (![0, 1, 2] : Fin 3 → Fin S4x8192x1024.rank))
    (v : S4x8192x1.Idx → α) (b : Fin 4) (n : Fin 8192) (e : Fin 1024) :
    broadcastInDim S4x8192x1024 ![0, 1, 2] h v (ix3 b n e) = v (ix3 b n (0 : Fin 1)) :=
  broadcastInDim_apply _ h v (ix3 b n e) (ix3 b n (0 : Fin 1)) (fun a =>
    match a with
    | ⟨0, _⟩ => by show b.val = if (4 : Nat) = 1 then 0 else b.val; rw [if_neg (by decide)]
    | ⟨1, _⟩ => by show n.val = if (8192 : Nat) = 1 then 0 else n.val; rw [if_neg (by decide)]
    | ⟨2, _⟩ => by show (0 : Fin 1).val = if (1 : Nat) = 1 then 0 else e.val; rw [if_pos rfl]; rfl)

/-- A per-row value [4, 8192] given a trailing unit axis reads the row's value. -/
theorem bcast_unit_apply {α : Type} (h : S4x8192.BroadcastsInDim S4x8192x1 (![0, 1] : Fin 2 → Fin S4x8192x1.rank))
    (v : S4x8192.Idx → α) (b : Fin 4) (n : Fin 8192) (z : Fin 1) :
    broadcastInDim S4x8192x1 ![0, 1] h v (ix3 b n z) = v (ix2 b n) :=
  broadcastInDim_apply _ h v (ix3 b n z) (ix2 b n) (fun a =>
    match a with
    | ⟨0, _⟩ => by show b.val = if (4 : Nat) = 1 then 0 else b.val; rw [if_neg (by decide)]
    | ⟨1, _⟩ => by show n.val = if (8192 : Nat) = 1 then 0 else n.val; rw [if_neg (by decide)])

/-- A vector [1024] broadcast to [1, 1, 1024] and then along the first two axes reads the vector at the last coordinate. -/
theorem bcast_bias_apply {α : Type} (h1 : S1024.BroadcastsInDim S1x1x1024 (![2] : Fin 1 → Fin S1x1x1024.rank))
    (h2 : S1x1x1024.BroadcastsInDim S4x8192x1024 (![0, 1, 2] : Fin 3 → Fin S4x8192x1024.rank))
    (v : S1024.Idx → α) (b : Fin 4) (n : Fin 8192) (o : Fin 1024) :
    broadcastInDim S4x8192x1024 ![0, 1, 2] h2 (broadcastInDim S1x1x1024 ![2] h1 v) (ix3 b n o) = v (ix1 o) := by
  refine (broadcastInDim_apply _ h2 _ (ix3 b n o) (ix3 (0 : Fin 1) (0 : Fin 1) o) (fun a => ?_)).trans ?_
  · match a with
    | ⟨0, _⟩ => show (0 : Fin 1).val = if (1 : Nat) = 1 then 0 else b.val; rw [if_pos rfl]; rfl
    | ⟨1, _⟩ => show (0 : Fin 1).val = if (1 : Nat) = 1 then 0 else n.val; rw [if_pos rfl]; rfl
    | ⟨2, _⟩ => show o.val = if (1024 : Nat) = 1 then 0 else o.val; rw [if_neg (by decide)]
  · refine broadcastInDim_apply _ h1 v (ix3 (0 : Fin 1) (0 : Fin 1) o) (ix1 o) (fun a => ?_)
    match a with
    | ⟨0, _⟩ => show o.val = if (1024 : Nat) = 1 then 0 else o.val; rw [if_neg (by decide)]

/-! ## Host operations at an index, at the ideal values -/

section HostAt
variable {s : Shape} {φ : FTy}

/-- The host's quotient at an index is the quotient of the elements. -/
theorem hostDivf_apply (a c : FVec Ideal s φ) (i : s.Idx) : Host.divf (F := Ideal) a c i = Ideal.div (a i) (c i) := rfl
/-- The host's rounding to nearest even at an index rounds the element. -/
theorem hostRoundeven_apply (a : FVec Ideal s φ) (i : s.Idx) : Host.roundeven (F := Ideal) a i = rne (a i) := rfl
/-- The host's absolute value at an index is the larger of the element and its negation. -/
theorem hostAbsf_apply (a : FVec Ideal s φ) (i : s.Idx) : Host.absf (F := Ideal) a i = max (a i) (-(a i)) := rfl
/-- An integer splat reads its word. -/
theorem constantI_apply (w : Nat) (c : BitVec w) (i : s.Idx) : constantI s w c i = c := rfl
/-- A 32-bit integer converted on the host reads as the real number of its signed value. -/
theorem sitofp_const_apply (c : BitVec 32) (i : s.Idx) :
    sitofp (F := Ideal) .f32 (constantI s 32 c) i = (((c.toInt : ℝ)) : EReal) := rfl

end HostAt
/-! ## The weight quantizer -/

/-- The program's weight scale is the scale of the matrix. -/
theorem wScaleV_apply (w : FVec Ideal S1024x1024 .f32) : wScaleV w ix0 = wScale (mat w) := by
  show Ideal.div (Ideal.ofBits .f32 0x3F800000#32) (max (Ideal.ofBits .f32 0x3727C5AC#32)
      (Ideal.div (Ideal.hostReduceAdd reducesTo_S1024x1024_S_d0_1 (Host.absf (F := Ideal) w)
        (Ideal.ofBits .f32 0x00000000#32) ix0) (Ideal.ofBits .f32 0x49800000#32))) = _
  rw [Ideal.hostReduceAdd_total reducesTo_S1024x1024_S_d0_1 (fun b => b.elim0), Ideal.ofBits_zero_f32, zero_add, sum_idx2]
  rfl

/-- The program's clamped weights at (o, e). -/
theorem wClamped_apply (w : FVec Ideal S1024x1024 .f32) (o e : Fin 1024) :
    wClamped w (ix2 o e) = min cOne (max cM1 (rne (w (ix2 o e) * wScale (mat w)))) := by
  show min (broadcastInDim S1024x1024 ![] bcast_S_S1024x1024 (sitofp (F := Ideal) .f32 (constantI S_ 32 1#32)) (ix2 o e))
      (max (broadcastInDim S1024x1024 ![] bcast_S_S1024x1024 (sitofp (F := Ideal) .f32 (constantI S_ 32 4294967295#32)) (ix2 o e))
        (rne (w (ix2 o e) * broadcastInDim S1024x1024 ![] bcast_S_S1024x1024 (wScaleV w) (ix2 o e)))) = _
  rw [bcast_scalar_apply, bcast_scalar_apply, bcast_scalar_apply, wScaleV_apply]
  show min ((((1#32 : BitVec 32).toInt : ℝ) : EReal)) (max ((((4294967295#32 : BitVec 32).toInt : ℝ) : EReal)) _) = _
  rw [toInt_one, toInt_m1]

/-- THE WEIGHT QUANTIZER AT (o, e). -/
theorem _root_.Cert.ReferenceIdeal.Read.steWeight_apply (w : FVec Ideal S1024x1024 .f32) (hw : ∀ i, ∃ r : ℝ, w i = (r : EReal)) (o e : Fin 1024) :
    steWeight w (ix2 o e) = Cert.BitAttn.wQ (Cert.BitAttn.mat w) o e := by
  show w (ix2 o e) + (Ideal.div (wClamped w (ix2 o e))
      (broadcastInDim S1024x1024 ![] bcast_S_S1024x1024 (wScaleV w) (ix2 o e)) - w (ix2 o e)) = _
  rw [ste_cancel _ _ (hw _), bcast_scalar_apply, wScaleV_apply, wClamped_apply]
  rfl

/-! ## The activation quantizer -/

/-- The reduction along the last axis, as the relation that names the inserted coordinate. -/
theorem reduces_row : S4x8192x1024.Reduces [2] S4x8192 := by decide

/-- Row (b, n) with the coordinate k inserted on the last axis is (b, n, k). -/
theorem lift_row (b : Fin 4) (n : Fin 8192) (k : Fin 1024) : reduces_row.lift (ix2 b n) k = ix3 b n k :=
  funext fun a => Fin.ext (by
    match a with
    | ⟨0, _⟩ => rfl
    | ⟨1, _⟩ => rfl
    | ⟨2, _⟩ => rfl)

/-- The program's row maximum of absolute values is the largest absolute entry of the row. -/
theorem rowMax_apply (x : FVec Ideal S4x8192x1024 .f32) (b : Fin 4) (n : Fin 8192) :
    Host.reduce (FloatOps.maximumf (F := Ideal)) (Host.absf (F := Ideal) x) (constant (F := Ideal) S_ .f32 0xFF800000#32)
      reducesTo_S4x8192x1024_S4x8192_d2 h_S_ (ix2 b n) = absMax (row3 x b n) := by
  refine (Host.reduce_eq_fold_single (FloatOps.maximumf (F := Ideal)) (Host.absf (F := Ideal) x) _
    reducesTo_S4x8192x1024_S4x8192_d2 reduces_row h_S_ (ix2 b n)).trans ?_
  unfold absMax
  refine Finset.fold_congr (fun k _ => ?_)
  have hk : reduces_row.lift (ix2 b n) k = ix3 b n k := lift_row b n k
  exact congrArg (fun i => max (x i) (-(x i))) hk

/-- The program's activation scale of row (b, n). -/
theorem actScaleV_apply (x : FVec Ideal S4x8192x1024 .f32) (b : Fin 4) (n : Fin 8192) (z : Fin 1) :
    actScaleV x (ix3 b n z) = actScale (row3 x b n) := by
  unfold actScaleV
  rw [hostDivf_apply, maximumf_apply, bcast_scalar_apply, bcast_scalar_apply, bcast_unit_apply, rowMax_apply]
  rfl

/-- The program's clamped activations at (b, n, e). -/
theorem actClamped_apply (x : FVec Ideal S4x8192x1024 .f32) (b : Fin 4) (n : Fin 8192) (e : Fin 1024) :
    actClamped x (ix3 b n e) = min c127 (max cM128 (rne (x (ix3 b n e) * actScale (row3 x b n)))) := by
  unfold actClamped
  rw [minimumf_apply, maximumf_apply, hostRoundeven_apply, mulf_apply, bcast_scalar_apply, bcast_scalar_apply,
    bcast_row_apply, actScaleV_apply, sitofp_const_apply, sitofp_const_apply, toInt_127, toInt_m128]

/-- THE ACTIVATION QUANTIZER AT (b, n, e). -/
theorem _root_.Cert.ReferenceIdeal.Read.steAct_apply (x : FVec Ideal S4x8192x1024 .f32) (hx : ∀ i, ∃ r : ℝ, x i = (r : EReal)) (b : Fin 4) (n : Fin 8192)
    (e : Fin 1024) : steAct x (ix3 b n e) = Cert.BitAttn.actQ (Cert.BitAttn.row3 x b n) e := by
  unfold steAct
  rw [addf_apply, subf_apply, ste_cancel _ _ (hx _), hostDivf_apply, bcast_row_apply, actScaleV_apply, actClamped_apply]
  rfl

/-! ## The linear layer -/

/-- A host product that contracts ONE axis, read at an index: the sum over that axis's coordinates. -/
theorem dotGeneral_single_apply {sl sr so : Shape} {φ₁ φ₂ : FTy} (d : DotDims sl sr so) (prec : Option ContractPrecision)
    (m : Nat) (hr : d.contr.rank = 1) (hs : d.contr.size ⟨0, by omega⟩ = m)
    (lhs : FVec Ideal sl φ₁) (rhs : FVec Ideal sr φ₂) (j : so.Idx) :
    Host.dotGeneral (F := Ideal) d prec lhs rhs j
      = ∑ k : Fin m, lhs (d.lhsIdx j ((contrEquiv1 d m hr hs).symm k)) * rhs (d.rhsIdx j ((contrEquiv1 d m hr hs).symm k)) := by
  simp only [Host.dotGeneral]
  rw [Ideal.dotGeneral_apply, ← Equiv.sum_comp (contrEquiv1 d m hr hs).symm]

/-- The product's dimension numbers contract one axis … -/
theorem dot_contr_rank : dot_S4x8192x1024_S1024x1024_S4x8192x1024_2_1_01_0_n_n.contr.rank = 1 := rfl
/-- … of 1024 entries. -/
theorem dot_contr_size : dot_S4x8192x1024_S1024x1024_S4x8192x1024_2_1_01_0_n_n.contr.size ⟨0, by rw [dot_contr_rank]; exact Nat.one_pos⟩ = 1024 := rfl

/-- The left operand's index at output (b, n, o) and contraction coordinate k is (b, n, k). -/
theorem dot_lhsIdx (bb : Fin 4) (n : Fin 8192) (o k : Fin 1024) :
    dot_S4x8192x1024_S1024x1024_S4x8192x1024_2_1_01_0_n_n.lhsIdx (ix3 bb n o)
      ((contrEquiv1 dot_S4x8192x1024_S1024x1024_S4x8192x1024_2_1_01_0_n_n 1024 dot_contr_rank dot_contr_size).symm k) = ix3 bb n k :=
  funext fun a => Fin.ext (by
    match a with
    | ⟨0, _⟩ => rfl
    | ⟨1, _⟩ => rfl
    | ⟨2, _⟩ =>
      exact (dot_S4x8192x1024_S1024x1024_S4x8192x1024_2_1_01_0_n_n.lhsIdx_val_of_single rfl _ _).trans
        (contrEquiv1_symm_val dot_S4x8192x1024_S1024x1024_S4x8192x1024_2_1_01_0_n_n 1024 dot_contr_rank dot_contr_size k))

/-- The right operand's index at output (b, n, o) and contraction coordinate k is (o, k). -/
theorem dot_rhsIdx (bb : Fin 4) (n : Fin 8192) (o k : Fin 1024) :
    dot_S4x8192x1024_S1024x1024_S4x8192x1024_2_1_01_0_n_n.rhsIdx (ix3 bb n o)
      ((contrEquiv1 dot_S4x8192x1024_S1024x1024_S4x8192x1024_2_1_01_0_n_n 1024 dot_contr_rank dot_contr_size).symm k) = ix2 o k :=
  funext fun a => Fin.ext (by
    match a with
    | ⟨0, _⟩ => rfl
    | ⟨1, _⟩ =>
      exact (dot_S4x8192x1024_S1024x1024_S4x8192x1024_2_1_01_0_n_n.rhsIdx_val_of_single rfl _ _).trans
        (contrEquiv1_symm_val dot_S4x8192x1024_S1024x1024_S4x8192x1024_2_1_01_0_n_n 1024 dot_contr_rank dot_contr_size k))

/-- THE LINEAR LAYER AT (b, n, o). -/
theorem _root_.Cert.ReferenceIdeal.Read.project_apply (xs : FVec Ideal S4x8192x1024 .f32) (ws : FVec Ideal S1024x1024 .f32) (bias : FVec Ideal S1024 .f32)
    (bb : Fin 4) (n : Fin 8192) (o : Fin 1024) :
    project xs ws bias (ix3 bb n o)
      = Cert.BitAttn.lin (Cert.BitAttn.row3 xs bb n) (Cert.BitAttn.mat ws) (Cert.BitAttn.vec bias) o := by
  unfold project
  rw [addf_apply, bcast_bias_apply,
    dotGeneral_single_apply dot_S4x8192x1024_S1024x1024_S4x8192x1024_2_1_01_0_n_n none 1024 dot_contr_rank dot_contr_size]
  unfold lin
  refine congrArg (· + bias (ix1 o)) (Finset.sum_congr rfl fun k _ => ?_)
  rw [dot_lhsIdx, dot_rhsIdx]
  rfl

end Cert.ReferenceIdeal.Read.Linear

end
-- ==== Proof.RefReadMix.lean ====
/-
  The reference's head mixing read at an index: entry `(b, n, e)` of the mixed array is entry `e` of the mixed row
  of token `(b, n)`, as the specification states it.

  Each operation of the stage is read at an index in turn.  A [4, 8192, 1024] array read as [4, 8192, 16, 64] has at
  `(b, n, h, d)` the entry `64 h + d` of row `(b, n)` (the two row-major positions agree).  Dividing by the constant 8
  is multiplying by one eighth.  A contraction batched over the first two axes reads, at `(b, n, h, g)`, the sum over the
  contracted coordinate of the products of the operands at `(b, n, h, ·)` and `(b, n, g, ·)`.  A maximum over the last
  axis started from minus infinity is the fold of `max` over its 16 coordinates; a sum started from zero is the plain
  sum.  A number per `(b, n, h)` spread over the last axis reads that number.  Together these give the softmax weights of
  the specification, and the second contraction gives the mixed head, read back at `e = 64 h + d`.
-/
import proofs.«141461_j68564857913635_2_alg».proof.Proof.RefStagesMix
import proofs.«141461_j68564857913635_2_alg».proof.Proof.Spec
import proofs.«141461_j68564857913635_2_alg».proof.Proof.SpecMath
import Idealize.ShloMosaic.Lib.IdealHost
import Idealize.ShloMosaic.Lib.Pipeline.Value

namespace Cert.ReferenceIdeal.Read.Mix

open Idealize.ShloMosaic Idealize.ShloMosaic.ValueIdx
open Cert.ReferenceIdeal Cert.ReferenceIdeal.Facts₀ Cert.ReferenceIdeal.Stages
open Cert.BitAttn (row3 head score shift expShift softmax cEighth)

variable [Facts]

/-- A head entry of the array read as heads is that entry of the token's row. -/
theorem heads_apply (x : FVec Ideal S4x8192x1024 .f32) (b : Fin 4) (n : Fin 8192) (h : Fin 16) (d : Fin 64) :
    heads x (ix4 b n h d) = head (row3 x b n) h d := by
  refine (shapeCast_apply x shapeCasts_S4x8192x1024_S4x8192x16x64 (ix4 b n h d)
    (ix3 b n (⟨h.val * 64 + d.val, by omega⟩ : Fin 1024)) ?_).trans rfl
  rw [Shape.rowMajor_val_three, Shape.rowMajor_val_four]
  show ((b.val * 8192 + n.val) * 1024 + (h.val * 64 + d.val)) = ((b.val * 8192 + n.val) * 16 + h.val) * 64 + d.val
  omega

/-- The scaled query: the head entry times one eighth. -/
theorem scaled_apply (q : FVec Ideal S4x8192x1024 .f32) (b : Fin 4) (n : Fin 8192) (h : Fin 16) (d : Fin 64) :
    scaled q (ix4 b n h d) = head (row3 q b n) h d * cEighth := by
  show Ideal.div (heads q (ix4 b n h d))
    (broadcastInDim S4x8192x16x64 ![] bcast_S_S4x8192x16x64 (constant (F := Ideal) S_ .f32 0x41000000#32) (ix4 b n h d)) = _
  rw [broadcastInDim_scalar_apply, heads_apply]
  exact Cert.BitAttn.div_eight _

/-- The score of query head `h` against key head `g` of one token. -/
theorem scores_apply (q k : FVec Ideal S4x8192x1024 .f32) (b : Fin 4) (n : Fin 8192) (h g : Fin 16) :
    scores q k (ix4 b n h g) = score (row3 q b n) (row3 k b n) h g := by
  unfold scores
  simp only [Host.dotGeneral]
  rw [Ideal.dotGeneral_apply,
    ← Equiv.sum_comp (contrEquiv1 dot_S4x8192x16x64_S4x8192x16x64_S4x8192x16x16_3_3_2_2_01_01 64 rfl rfl).symm]
  unfold score
  refine Finset.sum_congr rfl fun d _ => ?_
  have hl : dot_S4x8192x16x64_S4x8192x16x64_S4x8192x16x16_3_3_2_2_01_01.lhsIdx (ix4 b n h g)
      ((contrEquiv1 dot_S4x8192x16x64_S4x8192x16x64_S4x8192x16x16_3_3_2_2_01_01 64 rfl rfl).symm d) = ix4 b n h d := by
    funext a; apply Fin.ext
    match a with
    | ⟨0, _⟩ => rfl
    | ⟨1, _⟩ => rfl
    | ⟨2, _⟩ => rfl
    | ⟨3, _⟩ => rfl
  have hr : dot_S4x8192x16x64_S4x8192x16x64_S4x8192x16x16_3_3_2_2_01_01.rhsIdx (ix4 b n h g)
      ((contrEquiv1 dot_S4x8192x16x64_S4x8192x16x64_S4x8192x16x16_3_3_2_2_01_01 64 rfl rfl).symm d) = ix4 b n g d := by
    funext a; apply Fin.ext
    match a with
    | ⟨0, _⟩ => rfl
    | ⟨1, _⟩ => rfl
    | ⟨2, _⟩ => rfl
    | ⟨3, _⟩ => rfl
  rw [hl, hr, scaled_apply, heads_apply]
/-- The reduced index `(b, n, h)` with coordinate `g` put back on the last axis. -/
theorem lift_last (hred : S4x8192x16x16.Reduces [3] S4x8192x16) (b : Fin 4) (n : Fin 8192) (h : Fin 16)
    (g : Fin (S4x8192x16x16.size 3)) : hred.lift (ix3 b n h) g = ix4 b n h (⟨g.val, g.isLt⟩ : Fin 16) := by
  funext a; apply Fin.ext
  match a with
  | ⟨0, _⟩ => rfl
  | ⟨1, _⟩ => rfl
  | ⟨2, _⟩ => rfl
  | ⟨3, _⟩ => rfl

theorem rowMax_apply (s : FVec Ideal S4x8192x16x16 .f32) (b : Fin 4) (n : Fin 8192) (h : Fin 16) :
    rowMax s (ix3 b n h) = shift (fun g => s (ix4 b n h g)) := by
  have hred : S4x8192x16x16.Reduces [3] S4x8192x16 := by decide
  unfold rowMax
  rw [maximumf_apply, broadcastInDim_scalar_apply, constant_apply]
  rw [Host.reduce_eq_fold_single (FloatOps.maximumf (F := Ideal) (φ := .f32)) s _ reducesTo_S4x8192x16x16_S4x8192x16_d3 hred h_S_]
  rw [constant_apply]
  have hf : (s ∘ hred.lift (ix3 b n h)) = fun g : Fin (S4x8192x16x16.size 3) => s (ix4 b n h (⟨g.val, g.isLt⟩ : Fin 16)) :=
    funext fun g => congrArg s (lift_last hred b n h g)
  rw [hf]
  rfl

/-- The host's exponential at an index. -/
theorem hostExp_apply {s : Shape} (x : FVec Ideal s .f32) (i : s.Idx) : Host.exp (F := Ideal) x i = Ideal.exp (x i) := rfl

/-- A per-head number spread over the last axis reads that number. -/
theorem spread_apply (m : FVec Ideal S4x8192x16 .f32) (b : Fin 4) (n : Fin 8192) (h g : Fin 16) :
    spread m (ix4 b n h g) = m (ix3 b n h) := by
  unfold spread
  refine (broadcastInDim_apply ![0, 1, 2, 3] bcast_S4x8192x16x1_S4x8192x16x16_0_1_2_3 _ (ix4 b n h g)
    (ix4 b n h (0 : Fin 1)) (fun a => by
      match a with
      | ⟨0, _⟩ => rfl
      | ⟨1, _⟩ => rfl
      | ⟨2, _⟩ => rfl
      | ⟨3, _⟩ => rfl)).trans ?_
  exact broadcastInDim_apply ![0, 1, 2] bcast_S4x8192x16_S4x8192x16x1_0_1_2 m (ix4 b n h (0 : Fin 1)) (ix3 b n h)
    (fun a => by
      match a with
      | ⟨0, _⟩ => rfl
      | ⟨1, _⟩ => rfl
      | ⟨2, _⟩ => rfl)

/-- A shifted exponential of head `h`'s scores. -/
theorem expo_apply (s : FVec Ideal S4x8192x16x16 .f32) (b : Fin 4) (n : Fin 8192) (h g : Fin 16) :
    expo s (ix4 b n h g) = expShift (fun g' => s (ix4 b n h g')) g := by
  unfold expo
  rw [hostExp_apply, subf_apply, spread_apply, rowMax_apply]
  rfl

/-- The sum over the last axis started from zero is the plain sum of the 16 entries. -/
theorem expoSum_apply (p : FVec Ideal S4x8192x16x16 .f32) (b : Fin 4) (n : Fin 8192) (h : Fin 16) :
    expoSum p (ix3 b n h) = ∑ g : Fin 16, p (ix4 b n h g) := by
  have hred : S4x8192x16x16.Reduces [3] S4x8192x16 := by decide
  unfold expoSum
  rw [hostReduceAdd_apply, Ideal.hostReduceAdd_single reducesTo_S4x8192x16x16_S4x8192x16_d3 hred, constant_apply,
    Ideal.ofBits_zero_f32, zero_add]
  refine (Finset.sum_congr rfl fun g _ => congrArg p (lift_last hred b n h g)).trans ?_
  rfl

/-- The softmax weight of entry `g` among head `h`'s scores. -/
theorem weights_apply (s : FVec Ideal S4x8192x16x16 .f32) (b : Fin 4) (n : Fin 8192) (h g : Fin 16) :
    weights s (ix4 b n h g) = softmax (fun g' => s (ix4 b n h g')) g := by
  unfold weights
  rw [hostDivf_apply, spread_apply, expoSum_apply, expo_apply]
  unfold softmax
  exact congrArg _ (Finset.sum_congr rfl fun g' _ => expo_apply s b n h g')

end Cert.ReferenceIdeal.Read.Mix

namespace Cert.ReferenceIdeal.Read

open Idealize.ShloMosaic Idealize.ShloMosaic.ValueIdx
open Cert.ReferenceIdeal Cert.ReferenceIdeal.Facts₀ Cert.ReferenceIdeal.Stages Cert.ReferenceIdeal.Read.Mix
open Cert.BitAttn (row3 head ofHeads score softmax mixHead mix)

variable [Facts]

/-- The mixed array at `(b, n, e)` is entry `e` of the token's mixed row. -/
theorem mixStage_apply (q k v : FVec Ideal S4x8192x1024 .f32) (b : Fin 4) (n : Fin 8192) (e : Fin 1024) :
    mixStage q k v (ix3 b n e) = mix (row3 q b n) (row3 k b n) (row3 v b n) e := by
  unfold mixStage
  refine (shapeCast_apply _ shapeCasts_S4x8192x16x64_S4x8192x1024 (ix3 b n e)
    (ix4 b n (⟨e.val / 64, by omega⟩ : Fin 16) (⟨e.val % 64, Nat.mod_lt _ (by decide)⟩ : Fin 64)) ?_).trans ?_
  · rw [Shape.rowMajor_val_three, Shape.rowMajor_val_four]
    show ((b.val * 8192 + n.val) * 16 + e.val / 64) * 64 + e.val % 64 = (b.val * 8192 + n.val) * 1024 + e.val
    omega
  · simp only [Host.dotGeneral]
    rw [Ideal.dotGeneral_apply,
      ← Equiv.sum_comp (contrEquiv1 dot_S4x8192x16x16_S4x8192x16x64_S4x8192x16x64_3_2_2_3_01_01 16 rfl rfl).symm]
    unfold mix ofHeads mixHead
    refine Finset.sum_congr rfl fun g _ => ?_
    have hl : dot_S4x8192x16x16_S4x8192x16x64_S4x8192x16x64_3_2_2_3_01_01.lhsIdx
        (ix4 b n (⟨e.val / 64, by omega⟩ : Fin 16) (⟨e.val % 64, Nat.mod_lt _ (by decide)⟩ : Fin 64))
        ((contrEquiv1 dot_S4x8192x16x16_S4x8192x16x64_S4x8192x16x64_3_2_2_3_01_01 16 rfl rfl).symm g)
        = ix4 b n (⟨e.val / 64, by omega⟩ : Fin 16) g := by
      funext a; apply Fin.ext
      match a with
      | ⟨0, _⟩ => rfl
      | ⟨1, _⟩ => rfl
      | ⟨2, _⟩ => rfl
      | ⟨3, _⟩ => rfl
    have hr : dot_S4x8192x16x16_S4x8192x16x64_S4x8192x16x64_3_2_2_3_01_01.rhsIdx
        (ix4 b n (⟨e.val / 64, by omega⟩ : Fin 16) (⟨e.val % 64, Nat.mod_lt _ (by decide)⟩ : Fin 64))
        ((contrEquiv1 dot_S4x8192x16x16_S4x8192x16x64_S4x8192x16x64_3_2_2_3_01_01 16 rfl rfl).symm g)
        = ix4 b n g (⟨e.val % 64, Nat.mod_lt _ (by decide)⟩ : Fin 64) := by
      funext a; apply Fin.ext
      match a with
      | ⟨0, _⟩ => rfl
      | ⟨1, _⟩ => rfl
      | ⟨2, _⟩ => rfl
      | ⟨3, _⟩ => rfl
    have hs : (fun g' => scores q k (ix4 b n (⟨e.val / 64, by omega⟩ : Fin 16) g'))
        = score (row3 q b n) (row3 k b n) (⟨e.val / 64, by omega⟩ : Fin 16) :=
      funext fun g' => scores_apply q k b n _ g'
    rw [hl, hr, weights_apply, heads_apply, hs]

end Cert.ReferenceIdeal.Read
-- ==== Proof.RefReadNorm.lean ====
/-
  The reference's normalization read at an index.

  At entry (b, n, e) the normalized array is the normalization of row (b, n) at e: the row's mean is the sum of its
  1024 entries (started from zero) divided by 1024; its mean squared deviation is the sum of the squared deviations
  divided by a count the program computes as 1024 minus the integer 0, under a selection on that count being
  positive, which it is; the entry minus the mean is multiplied by the reciprocal square root of the mean squared
  deviation plus a small constant, then by gamma at e, and beta at e is added.
-/
import proofs.«141461_j68564857913635_2_alg».proof.Proof.RefStagesMix
import proofs.«141461_j68564857913635_2_alg».proof.Proof.RefReadLinear

noncomputable section

open scoped BigOperators

namespace Cert.ReferenceIdeal.Read.Norm

open Idealize.ShloMosaic Idealize.ShloMosaic.ValueIdx
open Cert.ReferenceIdeal Cert.ReferenceIdeal.Stages Cert.BitAttn Cert.ReferenceIdeal.Read.Linear
open Cert.ReferenceIdeal.Facts₀ Cert.ReferenceIdeal.Facts

variable [Facts]

/-- The host's reciprocal square root at an index is that of the element. -/
theorem hostRsqrt_apply {s : Shape} {φ : FTy} (a : FVec Ideal s φ) (i : s.Idx) :
    Host.rsqrt (F := Ideal) a i = Ideal.rsqrt (a i) := rfl

/-! ## Sums along a row -/

/-- The host's sum over the last axis, started from zero, at row (b, n): the sum of the row's 1024 entries. -/
theorem rowSum_apply (y : FVec Ideal S4x8192x1024 .f32) (bb : Fin 4) (n : Fin 8192) :
    Host.reduceAdd (F := Ideal) y (constant (F := Ideal) S_ .f32 0x00000000#32) reducesTo_S4x8192x1024_S4x8192_d2 h_S_ (ix2 bb n)
      = ∑ e : Fin 1024, y (ix3 bb n e) := by
  refine (Ideal.hostReduceAdd_single reducesTo_S4x8192x1024_S4x8192_d2 reduces_row y (Ideal.ofBits .f32 0x00000000#32)
    (ix2 bb n)).trans ?_
  rw [Ideal.ofBits_zero_f32, zero_add]
  exact Finset.sum_congr rfl (fun k _ => congrArg y (lift_row bb n k))

/-- The same sum kept as a column. -/
theorem sumCol_apply (y : FVec Ideal S4x8192x1024 .f32) (bb : Fin 4) (n : Fin 8192) (z : Fin 1) :
    sumCol y (ix3 bb n z) = ∑ e : Fin 1024, y (ix3 bb n e) := by
  unfold sumCol
  rw [bcast_unit_apply, rowSum_apply]

/-! ## Mean and mean squared deviation -/

/-- The program's mean of row (b, n). -/
theorem meanCol_apply (x : FVec Ideal S4x8192x1024 .f32) (bb : Fin 4) (n : Fin 8192) (z : Fin 1) :
    meanCol x (ix3 bb n z) = mean (row3 x bb n) := by
  unfold meanCol
  rw [hostDivf_apply, sumCol_apply, bcast_scalar_apply]
  rfl

/-- The program's squared deviation at (b, n, e). -/
theorem sqDev_apply (x : FVec Ideal S4x8192x1024 .f32) (bb : Fin 4) (n : Fin 8192) (e : Fin 1024) :
    sqDev x (ix3 bb n e)
      = (x (ix3 bb n e) - mean (row3 x bb n)) * (x (ix3 bb n e) - mean (row3 x bb n)) := by
  unfold sqDev spreadCol
  rw [mulf_apply, subf_apply, bcast_row_apply, meanCol_apply]

/-- The integer 0 converted to a float is zero. -/
theorem toInt_zero : ((((0#32 : BitVec 32).toInt : ℝ)) : EReal) = 0 := by simp

/-- The count the program divides by is 1024. -/
theorem count_apply : Stages.count ix0 = c1024 := by
  unfold Stages.count
  rw [subf_apply, sitofp_const_apply, constant_apply, toInt_zero, sub_zero]
  rfl

/-- The count is positive: the comparison's bit is 1. -/
theorem count_pos_bit :
    FloatOps.cmpf (F := Ideal) (φ := .f32) .ogt c1024 (Ideal.ofBits .f32 0x00000000#32) = 1#1 := by
  rw [Ideal.cmpf_def, Ideal.ofBits_zero_f32, c1024_eq]
  have h : (0 : EReal) < ((1024 : ℝ) : EReal) := by exact_mod_cast (by norm_num : (0 : ℝ) < 1024)
  show BitVec.ofBool (decide ((0 : EReal) < ((1024 : ℝ) : EReal))) = 1#1
  rw [decide_eq_true h]
  rfl

/-- The program's mean squared deviation of row (b, n). -/
theorem varCol_apply (x : FVec Ideal S4x8192x1024 .f32) (bb : Fin 4) (n : Fin 8192) (z : Fin 1) :
    varCol x (ix3 bb n z) = msd (row3 x bb n) := by
  unfold varCol
  rw [select_apply, bcast_scalar_apply, cmpf_apply, count_apply, constant_apply, count_pos_bit, select_one,
    hostDivf_apply, sumCol_apply, bcast_scalar_apply, count_apply]
  simp only [sqDev_apply]
  rfl

/-! ## The normalized array -/

/-- THE NORMALIZATION AT (b, n, e). -/
theorem _root_.Cert.ReferenceIdeal.Read.normStage_apply (x : FVec Ideal S4x8192x1024 .f32) (g b : FVec Ideal S1024 .f32)
    (bb : Fin 4) (n : Fin 8192) (e : Fin 1024) :
    normStage x g b (ix3 bb n e)
      = Cert.BitAttn.norm (Cert.BitAttn.row3 x bb n) (Cert.BitAttn.vec g) (Cert.BitAttn.vec b) e := by
  unfold normStage spreadCol spreadVec
  rw [addf_apply, mulf_apply, mulf_apply, subf_apply, bcast_row_apply, bcast_row_apply, meanCol_apply, hostRsqrt_apply,
    addf_apply, varCol_apply, bcast_scalar_apply, bcast_bias_apply, bcast_bias_apply]
  rfl

end Cert.ReferenceIdeal.Read.Norm

end
-- ==== Proof.SpecMathB.lean ====
/-
  Closure of the real numbers inside the extended reals under the operations the specification uses: sums, products,
  differences, maxima, a clamp between two real bounds, division by a nonzero real, finite sums, and a maximum folded
  from minus infinity.
-/
import proofs.«141461_j68564857913635_2_alg».proof.Proof.SpecMath

noncomputable section

namespace Cert.BitAttn

open Idealize.ShloMosaic

/-- An extended real that is a real number. -/
abbrev IsR (x : EReal) : Prop := ∃ r : ℝ, x = (r : EReal)

/-- An extended real that is a positive real number. -/
abbrev IsPos (x : EReal) : Prop := ∃ r : ℝ, 0 < r ∧ x = (r : EReal)

theorem isR_of_isPos {x : EReal} (h : IsPos x) : IsR x := by
  obtain ⟨r, _, hr⟩ := h; exact ⟨r, hr⟩

theorem isR_add {x y : EReal} (hx : IsR x) (hy : IsR y) : IsR (x + y) := by
  obtain ⟨a, rfl⟩ := hx; obtain ⟨b, rfl⟩ := hy; exact ⟨a + b, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_neg {x : EReal} (hx : IsR x) : IsR (-x) := by
  obtain ⟨a, rfl⟩ := hx; exact ⟨-a, (EReal.coe_neg a).symm⟩

theorem isR_max {x y : EReal} (hx : IsR x) (hy : IsR y) : IsR (max x y) := by
  rcases max_choice x y with h | h <;> rw [h] <;> assumption

/-- A clamp between two real bounds is real, whatever is clamped. -/
theorem isR_clamp {c c' : EReal} (hc : IsR c) (hc' : IsR c') (y : EReal) : IsR (min c (max c' y)) := by
  obtain ⟨a, rfl⟩ := hc; obtain ⟨b, rfl⟩ := hc'
  have h1 : min (a : EReal) (max (b : EReal) y) ≠ ⊤ :=
    ne_top_of_le_ne_top (EReal.coe_ne_top a) (min_le_left _ _)
  have h2 : min (a : EReal) (max (b : EReal) y) ≠ ⊥ := by
    have h : ((min a b : ℝ) : EReal) ≤ min (a : EReal) (max (b : EReal) y) := by
      apply le_min
      · exact EReal.coe_le_coe_iff.mpr (min_le_left a b)
      · exact le_trans (EReal.coe_le_coe_iff.mpr (min_le_right a b)) (le_max_left _ _)
    exact ne_bot_of_le_ne_bot (EReal.coe_ne_bot _) h
  exact ⟨_, (EReal.coe_toReal h1 h2).symm⟩

/-- A real divided by a nonzero real is real. -/
theorem isR_div {x y : EReal} (hx : IsR x) {r : ℝ} (hy : y = (r : EReal)) (hr : r ≠ 0) : IsR (Ideal.div x y) := by
  subst hy; rw [Ideal.div_coe hr]; exact isR_mul hx ⟨_, rfl⟩

theorem isR_div_pos {x y : EReal} (hx : IsR x) (hy : IsPos y) : IsR (Ideal.div x y) := by
  obtain ⟨r, hr, hy⟩ := hy; exact isR_div hx hy hr.ne'

/-- A positive real divided by a positive real is a positive real. -/
theorem isPos_div {x y : EReal} (hx : IsPos x) (hy : IsPos y) : IsPos (Ideal.div x y) := by
  obtain ⟨a, ha, rfl⟩ := hx; obtain ⟨b, hb, rfl⟩ := hy
  rw [Ideal.div_coe hb.ne', ← EReal.coe_mul]
  exact ⟨_, mul_pos ha (one_div_pos.mpr hb), rfl⟩

/-- The small constant as a floor: above minus infinity or a real, the maximum is a positive real. -/
theorem isPos_max_eps (y : EReal) (hy : y = ⊥ ∨ IsR y) : IsPos (max cEps y) := by
  rw [cEps_eq]
  rcases hy with rfl | ⟨r, rfl⟩
  · rw [max_bot_right]; exact ⟨eps, eps_pos, rfl⟩
  · rcases le_total eps r with h | h
    · rw [max_eq_right (EReal.coe_le_coe_iff.mpr h)]; exact ⟨r, lt_of_lt_of_le eps_pos h, rfl⟩
    · rw [max_eq_left (EReal.coe_le_coe_iff.mpr h)]; exact ⟨eps, eps_pos, rfl⟩

/-- The embedding of the reals commutes with finite sums. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isR_sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact isR_add (h a (Finset.mem_insert_self a s)) (ih fun i hi => h i (Finset.mem_insert_of_mem hi))

/-- A sum of positive reals over a nonempty finite type is a positive real. -/
theorem isPos_sum_univ {ι : Type} [Fintype ι] [Nonempty ι] (f : ι → EReal) (h : ∀ i, IsPos (f i)) :
    IsPos (∑ i, f i) := by
  choose r hpos hr using h
  refine ⟨∑ i, r i, Finset.sum_pos (fun i _ => hpos i) Finset.univ_nonempty, ?_⟩
  rw [← coe_finset_sum]; exact Finset.sum_congr rfl fun i _ => hr i

/-- A maximum of reals folded from minus infinity is minus infinity or a real. -/
theorem fold_max_bot_or_isR {ι : Type} (s : Finset ι) (f : ι → EReal) (h : ∀ i, IsR (f i)) :
    s.fold max ⊥ f = ⊥ ∨ IsR (s.fold max ⊥ f) := by
  classical
  induction s using Finset.induction_on with
  | empty => left; exact Finset.fold_empty
  | insert a s ha ih =>
    right; rw [Finset.fold_insert ha]
    rcases ih with ih | ih
    · rw [ih, max_bot_right]; exact h a
    · exact isR_max (h a) ih

/-- Over a set with a member it is a real. -/
theorem fold_max_isR {ι : Type} (s : Finset ι) (f : ι → EReal) (h : ∀ i, IsR (f i)) (a : ι) (ha : a ∈ s) :
    IsR (s.fold max ⊥ f) := by
  rcases fold_max_bot_or_isR s f h with h0 | h0
  · exfalso
    have hle : f a ≤ s.fold max ⊥ f := (Finset.le_fold_max (f a)).mpr (Or.inr ⟨a, ha, le_rfl⟩)
    obtain ⟨r, hr⟩ := h a
    rw [h0, hr] at hle
    exact EReal.coe_ne_bot r (le_bot_iff.mp hle)
  · exact h0

/-- The reciprocal square root of a positive real is real. -/
theorem rsqrt_isR_of_pos {r : ℝ} (h : 0 < r) : IsR (Ideal.rsqrt (r : EReal)) := by
  rw [Ideal.rsqrt_coe, if_neg (not_lt.mpr h.le), if_neg h.ne']; exact ⟨_, rfl⟩

end Cert.BitAttn

end
-- ==== Proof.SpecMathC.lean ====
/-
  One token's normalized mixed row is a row of real numbers when the inputs are: each stage of the specification maps
  real rows to real rows. The quantized operands are real because a clamp between real bounds is real and the scales
  are positive reals; sums of products of reals are real; the softmax weights are quotients of positive reals; the mean
  squared deviation is a nonnegative real, so the reciprocal square root is taken at a positive real.
-/
import proofs.«141461_j68564857913635_2_alg».proof.Proof.SpecMathB

noncomputable section

namespace Cert.BitAttn

open Idealize.ShloMosaic

/-! ## Quantization -/

theorem absMax_bot_or_isR {x : Fin 1024 → EReal} (hx : IsReal x) : absMax x = ⊥ ∨ IsR (absMax x) := by
  unfold absMax; rw [cNegInf_eq]
  exact fold_max_bot_or_isR _ _ fun e => isR_max (hx e) (isR_neg (hx e))

theorem actScale_isPos {x : Fin 1024 → EReal} (hx : IsReal x) : IsPos (actScale x) := by
  unfold actScale; rw [c127_eq]
  exact isPos_div ⟨127, by norm_num, rfl⟩ (isPos_max_eps _ (absMax_bot_or_isR hx))

theorem actQ_isReal {x : Fin 1024 → EReal} (hx : IsReal x) : IsReal (actQ x) := fun e => by
  unfold actQ; rw [c127_eq, cM128_eq]
  exact isR_div_pos (isR_clamp ⟨_, rfl⟩ ⟨_, rfl⟩ _) (actScale_isPos hx)

theorem absSum_isR {w : Fin 1024 → Fin 1024 → EReal} (hw : ∀ o, IsReal (w o)) : IsR (absSum w) := by
  unfold absSum
  exact isR_sum _ _ fun o _ => isR_sum _ _ fun e _ => isR_max (hw o e) (isR_neg (hw o e))

theorem wScale_isPos {w : Fin 1024 → Fin 1024 → EReal} (hw : ∀ o, IsReal (w o)) : IsPos (wScale w) := by
  unfold wScale; rw [cOne_eq, cCount_eq]
  exact isPos_div ⟨1, one_pos, EReal.coe_one.symm⟩
    (isPos_max_eps _ (Or.inr (isR_div (absSum_isR hw) rfl (by norm_num))))

theorem wQ_isReal {w : Fin 1024 → Fin 1024 → EReal} (hw : ∀ o, IsReal (w o)) (o : Fin 1024) : IsReal (wQ w o) :=
  fun e => by
    unfold wQ; rw [cOne_eq, cM1_eq]
    exact isR_div_pos (isR_clamp ⟨1, EReal.coe_one.symm⟩ (isR_neg ⟨1, EReal.coe_one.symm⟩) _) (wScale_isPos hw)

theorem lin_isReal {x : Fin 1024 → EReal} {w : Fin 1024 → Fin 1024 → EReal} {b : Fin 1024 → EReal}
    (hx : IsReal x) (hw : ∀ o, IsReal (w o)) (hb : IsReal b) : IsReal (lin x w b) := fun o => by
  unfold lin
  exact isR_add (isR_sum _ _ fun e _ => isR_mul (hx e) (hw o e)) (hb o)

theorem bitLin_isReal {x : Fin 1024 → EReal} {w : Fin 1024 → Fin 1024 → EReal} {b : Fin 1024 → EReal}
    (hx : IsReal x) (hw : ∀ o, IsReal (w o)) (hb : IsReal b) : IsReal (bitLin x w b) :=
  lin_isReal (actQ_isReal hx) (wQ_isReal hw) hb

/-! ## Mixing the heads -/

theorem score_isR {q k : Fin 1024 → EReal} (hq : IsReal q) (hk : IsReal k) (h g : Fin 16) : IsR (score q k h g) := by
  unfold score head; rw [cEighth_eq]
  exact isR_sum _ _ fun d _ => isR_mul (isR_mul (hq _) ⟨_, rfl⟩) (hk _)

theorem shift_isR {s : Fin 16 → EReal} (hs : IsReal s) : IsR (shift s) := by
  unfold shift; rw [cNegInf_eq, max_bot_left]
  exact fold_max_isR _ _ hs 0 (Finset.mem_univ _)

theorem expShift_isPos {s : Fin 16 → EReal} (hs : IsReal s) (g : Fin 16) : IsPos (expShift s g) := by
  unfold expShift
  obtain ⟨a, ha⟩ := hs g; obtain ⟨b, hb⟩ := shift_isR hs
  rw [ha, hb, ← EReal.coe_sub, Ideal.exp_coe]; exact ⟨_, Real.exp_pos _, rfl⟩

theorem softmax_isR {s : Fin 16 → EReal} (hs : IsReal s) (g : Fin 16) : IsR (softmax s g) := by
  unfold softmax
  exact isR_div_pos (isR_of_isPos (expShift_isPos hs g)) (isPos_sum_univ _ (expShift_isPos hs))

theorem mixHead_isR {q k v : Fin 1024 → EReal} (hq : IsReal q) (hk : IsReal k) (hv : IsReal v) (h : Fin 16)
    (d : Fin 64) : IsR (mixHead q k v h d) := by
  unfold mixHead head
  exact isR_sum _ _ fun g _ => isR_mul (softmax_isR (fun g' => score_isR hq hk h g') g) (hv _)

theorem mix_isReal {q k v : Fin 1024 → EReal} (hq : IsReal q) (hk : IsReal k) (hv : IsReal v) :
    IsReal (mix q k v) := fun e => by
  unfold mix ofHeads
  exact mixHead_isR hq hk hv _ _

/-! ## Normalization -/

theorem mean_isR {x : Fin 1024 → EReal} (hx : IsReal x) : IsR (mean x) := by
  unfold mean
  exact isR_div (isR_sum _ _ fun e _ => hx e) c1024_eq (by norm_num)

/-- The mean squared deviation of a real row is a nonnegative real. -/
theorem msd_nonneg {x : Fin 1024 → EReal} (hx : IsReal x) : ∃ r : ℝ, 0 ≤ r ∧ msd x = (r : EReal) := by
  obtain ⟨m, hm⟩ := mean_isR hx
  have hx' : ∀ e, ∃ r : ℝ, x e = (r : EReal) := hx
  choose a ha using hx'
  have hsum : ∑ e : Fin 1024, (x e - mean x) * (x e - mean x)
      = ((∑ e : Fin 1024, (a e - m) * (a e - m) : ℝ) : EReal) := by
    rw [← coe_finset_sum]
    refine Finset.sum_congr rfl fun e _ => ?_
    rw [hm, ha e, ← EReal.coe_sub, ← EReal.coe_mul]
  unfold msd
  rw [hsum, c1024_eq, Ideal.div_coe (by norm_num), ← EReal.coe_mul]
  exact ⟨_, mul_nonneg (Finset.sum_nonneg fun e _ => mul_self_nonneg _) (by norm_num), rfl⟩

theorem norm_isReal {x g b : Fin 1024 → EReal} (hx : IsReal x) (hg : IsReal g) (hb : IsReal b) :
    IsReal (norm x g b) := fun e => by
  unfold norm
  obtain ⟨v, hv0, hv⟩ := msd_nonneg hx
  have hr : IsR (Ideal.rsqrt (msd x + cEps)) := by
    rw [hv, cEps_eq, ← EReal.coe_add]
    exact rsqrt_isR_of_pos (add_pos_of_nonneg_of_pos hv0 eps_pos)
  exact isR_add (isR_mul (isR_mul (isR_sub (hx e) (mean_isR hx)) hr) (hg e)) (hb e)

/-! ## The normalized mixed row of one token -/

/-- With real inputs, the row the last quantized layer receives is a row of real numbers. -/
theorem norm_mix_isReal (xq xk xv : Fin 1024 → EReal) (Wq Wk Wv : Fin 1024 → Fin 1024 → EReal)
    (bq bk bv gamma beta : Fin 1024 → EReal) (hxq : IsReal xq) (hxk : IsReal xk) (hxv : IsReal xv)
    (hWq : ∀ o, IsReal (Wq o)) (hWk : ∀ o, IsReal (Wk o)) (hWv : ∀ o, IsReal (Wv o)) (hbq : IsReal bq)
    (hbk : IsReal bk) (hbv : IsReal bv) (hg : IsReal gamma) (hb : IsReal beta) :
    IsReal (norm (mix (bitLin xq Wq bq) (bitLin xk Wk bk) (bitLin xv Wv bv)) gamma beta) :=
  norm_isReal (mix_isReal (bitLin_isReal hxq hWq hbq) (bitLin_isReal hxk hWk hbk) (bitLin_isReal hxv hWv hbv)) hg hb

end Cert.BitAttn

end
-- ==== Proof.RefOut.lean ====
/-
  The reference's stages composed into one function of the thirteen input arrays, and its equality with the
  specification's result when every input is real.

  Each stage read at an index is the specification's function of the token's rows.  The last quantizer is written
  x + (q(x) - x), which cancels only at a real x: the row it receives is the normalized mixed row, real because the
  inputs are.
-/
import proofs.«141461_j68564857913635_2_alg».proof.Proof.RefReadLinear
import proofs.«141461_j68564857913635_2_alg».proof.Proof.RefReadMix
import proofs.«141461_j68564857913635_2_alg».proof.Proof.RefReadNorm
import proofs.«141461_j68564857913635_2_alg».proof.Proof.SpecMathC

noncomputable section

namespace Cert.ReferenceIdeal.Read

open Idealize.ShloMosaic Idealize.SL.Sem Idealize.ShloMosaic.ValueIdx
open Cert.ReferenceIdeal Cert.BitAttn

variable [Cert.ReferenceIdeal.Facts]

/-! ## The stages read row by row -/

/-- A row of the quantized activations is the quantized row. -/
theorem row3_steAct (x : FVec Ideal S4x8192x1024 .f32) (hx : IsReal x) (b : Fin 4) (n : Fin 8192) :
    row3 (Stages.steAct x) b n = actQ (row3 x b n) :=
  funext fun e => steAct_apply x hx b n e

/-- The quantized weights, by coordinates, are the quantized matrix. -/
theorem mat_steWeight (w : FVec Ideal S1024x1024 .f32) (hw : IsReal w) : mat (Stages.steWeight w) = wQ (mat w) :=
  funext fun o => funext fun e => steWeight_apply w hw o e

/-- A row of the linear layer is the layer applied to the row. -/
theorem row3_project (xs : FVec Ideal S4x8192x1024 .f32) (ws : FVec Ideal S1024x1024 .f32) (bias : FVec Ideal S1024 .f32)
    (b : Fin 4) (n : Fin 8192) : row3 (Stages.project xs ws bias) b n = lin (row3 xs b n) (mat ws) (vec bias) :=
  funext fun o => project_apply xs ws bias b n o

/-- A row of the mixed array is the mixing of the three rows. -/
theorem row3_mixStage (q k v : FVec Ideal S4x8192x1024 .f32) (b : Fin 4) (n : Fin 8192) :
    row3 (Stages.mixStage q k v) b n = mix (row3 q b n) (row3 k b n) (row3 v b n) :=
  funext fun e => mixStage_apply q k v b n e

/-- A row of the normalized array is the normalized row. -/
theorem row3_normStage (x : FVec Ideal S4x8192x1024 .f32) (g bb : FVec Ideal S1024 .f32) (b : Fin 4) (n : Fin 8192) :
    row3 (Stages.normStage x g bb) b n = BitAttn.norm (row3 x b n) (vec g) (vec bb) :=
  funext fun e => normStage_apply x g bb b n e

/-- A row of a quantized linear layer of real operands is the specification's quantized layer of the row. -/
theorem row3_projSte (x : FVec Ideal S4x8192x1024 .f32) (w : FVec Ideal S1024x1024 .f32) (bias : FVec Ideal S1024 .f32)
    (hx : IsReal x) (hw : IsReal w) (b : Fin 4) (n : Fin 8192) :
    row3 (Stages.project (Stages.steAct x) (Stages.steWeight w) bias) b n = bitLin (row3 x b n) (mat w) (vec bias) :=
  (row3_project _ _ _ b n).trans (by rw [row3_steAct x hx b n, mat_steWeight w hw]; rfl)

/-! ## Real arrays, by rows -/

theorem isReal_row3 {x : FVec Ideal S4x8192x1024 .f32} (hx : IsReal x) (b : Fin 4) (n : Fin 8192) : IsReal (row3 x b n) :=
  fun e => hx (ix3 b n e)

theorem isReal_mat {w : FVec Ideal S1024x1024 .f32} (hw : IsReal w) (o : Fin 1024) : IsReal (mat w o) :=
  fun e => hw (ix2 o e)

theorem isReal_vec {v : FVec Ideal S1024 .f32} (hv : IsReal v) : IsReal (vec v) := fun e => hv (ix1 e)

/-! ## The reference's result -/

/-- The reference's stages composed: three quantized linear layers, the head mixing, the normalization, and the last
    quantized linear layer. -/
abbrev out (a0 a1 a2 : FVec Ideal S4x8192x1024 .f32) (a3 : FVec Ideal S1024x1024 .f32) (a4 : FVec Ideal S1024 .f32)
    (a5 : FVec Ideal S1024x1024 .f32) (a6 : FVec Ideal S1024 .f32) (a7 : FVec Ideal S1024x1024 .f32)
    (a8 a9 a10 : FVec Ideal S1024 .f32) (a11 : FVec Ideal S1024x1024 .f32) (a12 : FVec Ideal S1024 .f32) :
    FVec Ideal S4x8192x1024 .f32 :=
  Stages.project
    (Stages.steAct
      (Stages.normStage
        (Stages.mixStage (Stages.project (Stages.steAct a0) (Stages.steWeight a3) a4)
          (Stages.project (Stages.steAct a1) (Stages.steWeight a5) a6)
          (Stages.project (Stages.steAct a2) (Stages.steWeight a7) a8))
        a9 a10))
    (Stages.steWeight a11) a12

/-- The specification's result at an index by coordinates is the token's output row at the last coordinate. -/
theorem result_apply (a0 a1 a2 : FVec Ideal S4x8192x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 a9 a10 : FVec Ideal S1024 .f32) (a11 : FVec Ideal S1024x1024 .f32)
    (a12 : FVec Ideal S1024 .f32) (b : Fin 4) (n : Fin 8192) (o : Fin 1024) :
    result a0 a1 a2 a3 a4 a5 a6 a7 a8 a9 a10 a11 a12 (ix3 b n o)
      = tokenOut (row3 a0 b n) (row3 a1 b n) (row3 a2 b n) (mat a3) (vec a4) (mat a5) (vec a6) (mat a7) (vec a8)
          (vec a9) (vec a10) (mat a11) (vec a12) o := rfl

/-- With real inputs the reference's composed stages are the specification's result. -/
theorem out_eq_result (a0 a1 a2 : FVec Ideal S4x8192x1024 .f32) (a3 : FVec Ideal S1024x1024 .f32)
    (a4 : FVec Ideal S1024 .f32) (a5 : FVec Ideal S1024x1024 .f32) (a6 : FVec Ideal S1024 .f32)
    (a7 : FVec Ideal S1024x1024 .f32) (a8 a9 a10 : FVec Ideal S1024 .f32) (a11 : FVec Ideal S1024x1024 .f32)
    (a12 : FVec Ideal S1024 .f32) (h0 : IsReal a0) (h1 : IsReal a1) (h2 : IsReal a2) (h3 : IsReal a3) (h4 : IsReal a4)
    (h5 : IsReal a5) (h6 : IsReal a6) (h7 : IsReal a7) (h8 : IsReal a8) (h9 : IsReal a9) (h10 : IsReal a10)
    (h11 : IsReal a11) (h12 : IsReal a12) :
    out a0 a1 a2 a3 a4 a5 a6 a7 a8 a9 a10 a11 a12 = result a0 a1 a2 a3 a4 a5 a6 a7 a8 a9 a10 a11 a12 := by
  -- the row the last quantizer receives, token by token
  have hrow : ∀ (b : Fin 4) (n : Fin 8192),
      row3 (Stages.normStage
        (Stages.mixStage (Stages.project (Stages.steAct a0) (Stages.steWeight a3) a4)
          (Stages.project (Stages.steAct a1) (Stages.steWeight a5) a6)
          (Stages.project (Stages.steAct a2) (Stages.steWeight a7) a8)) a9 a10) b n
        = BitAttn.norm (mix (bitLin (row3 a0 b n) (mat a3) (vec a4)) (bitLin (row3 a1 b n) (mat a5) (vec a6))
            (bitLin (row3 a2 b n) (mat a7) (vec a8))) (vec a9) (vec a10) := fun b n => by
    rw [row3_normStage, row3_mixStage, row3_projSte a0 a3 a4 h0 h3, row3_projSte a1 a5 a6 h1 h5,
      row3_projSte a2 a7 a8 h2 h7]
  -- it is real
  have hreal : IsReal (Stages.normStage
        (Stages.mixStage (Stages.project (Stages.steAct a0) (Stages.steWeight a3) a4)
          (Stages.project (Stages.steAct a1) (Stages.steWeight a5) a6)
          (Stages.project (Stages.steAct a2) (Stages.steWeight a7) a8)) a9 a10) := fun i => by
    obtain ⟨b, n, e, rfl⟩ : ∃ b n e, i = ix3 b n e := ⟨i 0, i 1, i 2, eq_ix3 i⟩
    have h := norm_mix_isReal (row3 a0 b n) (row3 a1 b n) (row3 a2 b n) (mat a3) (mat a5) (mat a7) (vec a4) (vec a6)
      (vec a8) (vec a9) (vec a10) (isReal_row3 h0 b n) (isReal_row3 h1 b n) (isReal_row3 h2 b n) (isReal_mat h3)
      (isReal_mat h5) (isReal_mat h7) (isReal_vec h4) (isReal_vec h6) (isReal_vec h8) (isReal_vec h9)
      (isReal_vec h10) e
    rw [← hrow b n] at h
    exact h
  funext i
  obtain ⟨b, n, o, rfl⟩ : ∃ b n o, i = ix3 b n o := ⟨i 0, i 1, i 2, eq_ix3 i⟩
  rw [result_apply]
  refine (project_apply _ _ _ b n o).trans ?_
  rw [row3_steAct _ hreal b n, mat_steWeight a11 h11, hrow b n]
  rfl

end Cert.ReferenceIdeal.Read

end
-- ==== Proof.RefRun.lean ====
import proofs.«141461_j68564857913635_2_alg».proof.Proof.RefRun.Raw
import proofs.«141461_j68564857913635_2_alg».proof.Proof.RefRun.Result
import proofs.«141461_j68564857913635_2_alg».proof.Proof.RefOut

/-! The reference program's run with its result named: every weakly fair execution terminates with the result buffer
    at the composed stages of the thirteen argument arrays' launch contents, and the arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

/-- On every device, at the ideal values, from any memory with zero counters: every weakly fair execution of @main
    terminates with the result buffer at `Read.out` of the arguments' launch contents and the thirteen argument
    arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v160)
          = Cert.ReferenceIdeal.Read.out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10))
              (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (after_ops_result _), (h c).2⟩) (run_raw m ρ)

end Cert.ReferenceIdeal.RefRun

end
-- ==== Proof.PreFinite.lean ====
/-
  From the precondition to real inputs.  The precondition is a conjunction of thirteen tests, one per argument array:
  every entry's absolute value is below plus infinity.  On the extended reals the absolute value of an entry is the
  larger of the entry and its negation, which is plus infinity exactly at the two infinities; so an entry that passes
  the test is a real number.
-/
import proofs.«141461_j68564857913635_2_alg».proof.Defs
import proofs.«141461_j68564857913635_2_alg».proof.Proof.SpecMath
import Idealize.ShloMosaic.Lib.ReduceAll

noncomputable section

namespace Cert.PreFinite

open Idealize.ShloMosaic Idealize.SL.Sem Idealize.ShloMosaic.ValueIdx
open Cert.BitAttn (IsReal)

/-- The scalar shape has one index. -/
instance : Subsingleton Cert.Pre_finite_inputs.S_.Idx := ⟨fun _ _ => funext fun d => d.elim0⟩

/-- The pattern of plus infinity denotes plus infinity. -/
theorem ofBits_inf : Ideal.ofBits .f32 0x7F800000#32 = ⊤ := by simp [Ideal.ofBits, Ideal.ieee]

/-- An extended real whose absolute value is below plus infinity is a real number. -/
theorem real_of_abs_lt_inf (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One test of the precondition, at any shape: if the conjunction over all entries of "the absolute value is below
    plus infinity" is one, every entry is a real number. -/
theorem isReal_of_all {s : Shape} {axes : List (Fin s.rank)} (x inf : FVec Ideal s .f32)
    (hinf : ∀ i, inf i = Ideal.ofBits .f32 0x7F800000#32) (init : IVec Cert.Pre_finite_inputs.S_ 1)
    (h : s.ReducesTo axes Cert.Pre_finite_inputs.S_) (hu : 0 < Cert.Pre_finite_inputs.S_.numel)
    (e : Host.reduce IntOp.andi (cmpf (F := Ideal) .olt (Host.absf (F := Ideal) x) inf) init h hu ix0 = 1#1) :
    IsReal x := fun i => by
  have hi : Ideal.cmp .olt (max (x i) (-(x i))) (inf i) = 1#1 := Host.reduce_andi_all _ init h hu ix0 e i
  rw [hinf i] at hi
  exact real_of_abs_lt_inf (x i) hi

/-- A conjunction of two one-bit arrays that is one at an index has both one there. -/
theorem andi_one {s : Shape} (a b : IVec s 1) (i : s.Idx) (h : andi a b i = 1#1) : a i = 1#1 ∧ b i = 1#1 :=
  IntOp.andi_eq_one.1 h

section
variable [Cert.Pre_finite_inputs.Facts]
open Cert.Pre_finite_inputs

/-- The printed precondition, over any thirteen arrays: where it is one, every array is real. -/
theorem of_fn (a0 a1 a2 : FVec Ideal S4x8192x1024 .f32) (a3 : FVec Ideal S1024x1024 .f32) (a4 : FVec Ideal S1024 .f32)
    (a5 : FVec Ideal S1024x1024 .f32) (a6 : FVec Ideal S1024 .f32) (a7 : FVec Ideal S1024x1024 .f32)
    (a8 a9 a10 : FVec Ideal S1024 .f32) (a11 : FVec Ideal S1024x1024 .f32) (a12 : FVec Ideal S1024 .f32)
    (h : Cert.Pre_finite_inputs.fn (F := Ideal) a0 a1 a2 a3 a4 a5 a6 a7 a8 a9 a10 a11 a12 ix0 = 1#1) :
    IsReal a0 ∧ IsReal a1 ∧ IsReal a2 ∧ IsReal a3 ∧ IsReal a4 ∧ IsReal a5 ∧ IsReal a6 ∧ IsReal a7 ∧ IsReal a8
      ∧ IsReal a9 ∧ IsReal a10 ∧ IsReal a11 ∧ IsReal a12 := by
  dsimp only [Cert.Pre_finite_inputs.fn, Cert.Pre_finite_inputs.fn_part1, Cert.Pre_finite_inputs.fn_part2,
    Cert.Pre_finite_inputs.fn_part3] at h
  obtain ⟨h, e12⟩ := andi_one _ _ _ h
  obtain ⟨h, e11⟩ := andi_one _ _ _ h
  obtain ⟨h, e10⟩ := andi_one _ _ _ h
  obtain ⟨h, e9⟩ := andi_one _ _ _ h
  obtain ⟨h, e8⟩ := andi_one _ _ _ h
  obtain ⟨h, e7⟩ := andi_one _ _ _ h
  obtain ⟨h, e6⟩ := andi_one _ _ _ h
  obtain ⟨h, e5⟩ := andi_one _ _ _ h
  obtain ⟨h, e4⟩ := andi_one _ _ _ h
  obtain ⟨h, e3⟩ := andi_one _ _ _ h
  obtain ⟨h, e2⟩ := andi_one _ _ _ h
  obtain ⟨e0, e1⟩ := andi_one _ _ _ h
  exact ⟨isReal_of_all a0 _ (fun _ => rfl) _ _ _ e0, isReal_of_all a1 _ (fun _ => rfl) _ _ _ e1,
    isReal_of_all a2 _ (fun _ => rfl) _ _ _ e2, isReal_of_all a3 _ (fun _ => rfl) _ _ _ e3,
    isReal_of_all a4 _ (fun _ => rfl) _ _ _ e4, isReal_of_all a5 _ (fun _ => rfl) _ _ _ e5,
    isReal_of_all a6 _ (fun _ => rfl) _ _ _ e6, isReal_of_all a7 _ (fun _ => rfl) _ _ _ e7,
    isReal_of_all a8 _ (fun _ => rfl) _ _ _ e8, isReal_of_all a9 _ (fun _ => rfl) _ _ _ e9,
    isReal_of_all a10 _ (fun _ => rfl) _ _ _ e10, isReal_of_all a11 _ (fun _ => rfl) _ _ _ e11,
    isReal_of_all a12 _ (fun _ => rfl) _ _ _ e12⟩

/-- Under the precondition, every entry of every argument array of the kernel program is a real number. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg1))
      ∧ IsReal (m ((c.tc : Thread Cert.KernelIdeal.nD Cert.KernelIdeal.τ).loc Cert.KernelIdeal.main_arg2))
      ∧ IsReal (m ((c.tc : Thread Cert.KernelIdeal.nD Cert.KernelIdeal.τ).loc Cert.KernelIdeal.main_arg3))
      ∧ IsReal (m ((c.tc : Thread Cert.KernelIdeal.nD Cert.KernelIdeal.τ).loc Cert.KernelIdeal.main_arg4))
      ∧ IsReal (m ((c.tc : Thread Cert.KernelIdeal.nD Cert.KernelIdeal.τ).loc Cert.KernelIdeal.main_arg5))
      ∧ IsReal (m ((c.tc : Thread Cert.KernelIdeal.nD Cert.KernelIdeal.τ).loc Cert.KernelIdeal.main_arg6))
      ∧ IsReal (m ((c.tc : Thread Cert.KernelIdeal.nD Cert.KernelIdeal.τ).loc Cert.KernelIdeal.main_arg7))
      ∧ IsReal (m ((c.tc : Thread Cert.KernelIdeal.nD Cert.KernelIdeal.τ).loc Cert.KernelIdeal.main_arg8))
      ∧ IsReal (m ((c.tc : Thread Cert.KernelIdeal.nD Cert.KernelIdeal.τ).loc Cert.KernelIdeal.main_arg9))
      ∧ IsReal (m ((c.tc : Thread Cert.KernelIdeal.nD Cert.KernelIdeal.τ).loc Cert.KernelIdeal.main_arg10))
      ∧ IsReal (m ((c.tc : Thread Cert.KernelIdeal.nD Cert.KernelIdeal.τ).loc Cert.KernelIdeal.main_arg11))
      ∧ IsReal (m ((c.tc : Thread Cert.KernelIdeal.nD Cert.KernelIdeal.τ).loc Cert.KernelIdeal.main_arg12)) :=
  of_fn _ _ _ _ _ _ _ _ _ _ _ _ _ (congrFun (h c) ix0)

end

end Cert.PreFinite

end
-- ==== Proof.Claims.lean ====
/-
  The five claims.  The two kernel programs' frames are the generated ones.  The reference's frame is its run with the
  result dropped.  The idealization rewrote nothing.  For the algebraic claim both idealized programs are shown to
  end at ONE function of the thirteen argument arrays, the specification's `result`: the kernel program because its
  three regions, read block by block and composed through the two re-layings, compute it; the reference because its
  host operations compute it once each stop-gradient quantizer `x + (q(x) - x)` is read as `q(x)`, which holds where
  `x` is a real number — for the arguments by the precondition, for the normalized row because every stage of the
  computation maps real rows to real rows.
-/
import proofs.«141461_j68564857913635_2_alg».proof.Defs
import proofs.«141461_j68564857913635_2_alg».proof.Proof.Gen.Kernel.Frame
import proofs.«141461_j68564857913635_2_alg».proof.Proof.Gen.KernelIdeal.Frame
import proofs.«141461_j68564857913635_2_alg».proof.Proof.Gen.ReferenceIdeal
import proofs.«141461_j68564857913635_2_alg».proof.Proof.Gen.Pre_finite_inputs
import proofs.«141461_j68564857913635_2_alg».proof.Proof.KValue
import proofs.«141461_j68564857913635_2_alg».proof.Proof.RefRun
import proofs.«141461_j68564857913635_2_alg».proof.Proof.RefOut
import proofs.«141461_j68564857913635_2_alg».proof.Proof.PreFinite

noncomputable section

namespace Cert.Proof.Claims

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run_raw (F := Ideal) m ρ)

/-- The idealization rewrote no operation. -/
theorem preserves : Cert.preserves_Kernel_KernelIdeal := trivial

/-- From memories that agree on the arguments, both idealized programs end with the specification's result of the
    argument arrays: the kernel program whatever the arrays hold, the reference because under the precondition every
    entry is a real number, so that each quantizer written as `x + (q(x) - x)` is `q(x)`. -/
theorem algebraic : Cert.algebraic_KernelIdeal_ReferenceIdeal := by
  intro m ρ m' ρ' hpre hagree
  refine ⟨fun c => Cert.BitAttn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KernelIdeal.KValue.run m ρ, ?_⟩
  refine (θ_run Cert.ReferenceIdeal.defs _ _).mono (fun _ h c => ⟨(h c).1.trans ?_, (h c).2⟩) (Cert.ReferenceIdeal.RefRun.run m' ρ')
  obtain ⟨g0, g1, g2, g3, g4, g5, g6, g7, g8, g9, g10, g11, g12⟩ := hagree c
  obtain ⟨f0, f1, f2, f3, f4, f5, f6, f7, f8, f9, f10, f11, f12⟩ := Cert.PreFinite.of_pre m hpre c
  rw [g0, g1, g2, g3, g4, g5, g6, g7, g8, g9, g10, g11, g12]
  exact Cert.ReferenceIdeal.Read.out_eq_result _ _ _ _ _ _ _ _ _ _ _ _ _ f0 f1 f2 f3 f4 f5 f6 f7 f8 f9 f10 f11 f12

end Cert.Proof.Claims

end
-- ==== Proof.lean ====
/-
  A quantized attention block, kernel against reference, over the extended reals.

  Both programs take query, key and value arrays [4, 8192, 1024], four weight matrices [1024, 1024] with their
  biases, and a scale and a shift [1024].  Each of four linear layers quantizes its weight matrix to {-1, 0, 1}
  times a scale (the reciprocal of the mean absolute entry) and each input row to 8 bits times a scale (127 over the
  row's largest absolute entry).  Between the first three layers and the fourth, each token's row is read as 16 heads
  of 64, the heads are mixed by a softmax of their scaled inner products, and the mixed row is normalized.

  The kernel program computes this in three grid regions over blocks of 256 or 512 tokens, with the weights
  quantized, transposed and narrowed on the host beforehand; the reference computes it with whole-array host
  operations, each quantizer written in the stop-gradient form `x + (q(x) - x)`.  On the extended reals a change of
  float format is the identity, a matrix product is the plain sum of products on both sides, the kernel's factor 1/8
  is the reference's division by 8, and `x + (q(x) - x) = q(x)` wherever `x` is real.  So both programs end at the
  specification's `result` (Proof/Spec.lean) of the argument arrays; Proof/Claims.lean states the five claims.
-/
import proofs.«141461_j68564857913635_2_alg».proof.Defs
import proofs.«141461_j68564857913635_2_alg».proof.Proof.Gen.Kernel
import proofs.«141461_j68564857913635_2_alg».proof.Proof.Gen.KernelIdeal
import proofs.«141461_j68564857913635_2_alg».proof.Proof.Gen.ReferenceIdeal
import proofs.«141461_j68564857913635_2_alg».proof.Proof.Gen.Pre_finite_inputs
import proofs.«141461_j68564857913635_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
